-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v103_1)) (v1 : (c : Dev Cert.KernelIdeal.nD) → Buf (Elt Ideal) ((c.tc : Thread Cert.KernelIdeal.nD Cert.KernelIdeal.τ).loc Cert.KernelIdeal.main_v103_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103_1) = v0 c
          ∧ r.2.mem ((c.tc : Thread Cert.KernelIdeal.nD Cert.KernelIdeal.τ).loc Cert.KernelIdeal.main_v103_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S128x10 .f32) (main_arg13 : FVec F S10 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S128x10 .f32 := Host.absf main_arg12
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S2x128x128 .f32) (main_arg9 : FVec F S2x128 .f32) (main_arg10 : FVec F S2x128 .f32) (main_arg11 : FVec F S2x128 .f32) (main_arg12 : FVec F S128x10 .f32) (main_arg13 : FVec F S10 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_arg13 main_v48 main_v49 main_v50

def fn_part1 {F : FTy → Type} [FloatOps F] (main_arg5 : FVec F S128 .f32) (main_arg6 : FVec F S128 .f32) (main_arg7 : FVec F S2x128x128 .f32) (main_arg8 : FVec F S2x128x128 .f32) (main_arg9 : FVec F S2x128 .f32) (main_arg10 : FVec F S2x128 .f32) (main_arg11 : FVec F S2x128 .f32) (main_arg12 : FVec F S128x10 .f32) (main_arg13 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S2x128x128 .f32) (main_arg8 : FVec F S2x128x128 .f32) (main_arg9 : FVec F S2x128 .f32) (main_arg10 : FVec F S2x128 .f32) (main_arg11 : FVec F S2x128 .f32) (main_arg12 : FVec F S128x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x128x128 : Shape := ⟨3, ![1, 128, 128]⟩
abbrev S1x10 : Shape := ⟨2, ![1, 10]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 204
  | .vmem => 59
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S2x128x128, .f32⟩
  | 8 => ⟨S2x128x128, .f32⟩
  | 9 => ⟨S2x128, .f32⟩
  | 10 => ⟨S2x128, .f32⟩
  | 11 => ⟨S2x128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x128, .f32⟩
  | 95 => ⟨S100000x128, .f32⟩
  | 96 => ⟨S1x128x128, .f32⟩
  | 97 => ⟨S128x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S100000x128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S100000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S1x128, .f32⟩
  | 10 => ⟨S1x128, .f32⟩
  | 11 => ⟨S1x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S100000x128, .f32⟩
  | 28 => ⟨S1x128x128, .f32⟩
  | 29 => ⟨S128x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S100000x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S1x128, .f32⟩
  | 70 => ⟨S1x128, .f32⟩
  | 71 => ⟨S1x128, .f32⟩
  | 72 => ⟨S100000x128, .f32⟩
  | 73 => ⟨S1x10, .f32⟩
  | 74 => ⟨S100000x10, .f32⟩
  | 75 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x10, .f32⟩
  | .local _ .vmem, ⟨54, _⟩ => ⟨S1x10, .f32⟩
  | .local _ .vmem, ⟨55, _⟩ => ⟨S5000x10, .f32⟩
  | .local _ .vmem, ⟨56, _⟩ => ⟨S5000x10, .f32⟩
  | .local _ .vmem, ⟨57, _⟩ => ⟨S5000x10, .f32⟩
  | .local _ .vmem, ⟨58, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_c_8 : Ref sig .tc := ⟨.hbm, 81, rfl⟩
abbrev main_v36 : Ref sig .tc := ⟨.hbm, 82, rfl⟩
abbrev main_v37 : Ref sig .tc := ⟨.hbm, 83, rfl⟩
abbrev main_c_9 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_10 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_11 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_v58 : Ref sig .tc := ⟨.hbm, 108, rfl⟩
abbrev main_c_13 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_v7 : Ref sig .tc := ⟨.hbm, 119, rfl⟩
abbrev main_call1_cst_1 : Ref sig .tc := ⟨.hbm, 120, rfl⟩
abbrev main_call1_v8 : Ref sig .tc := ⟨.hbm, 121, rfl⟩
abbrev main_call1_cst_2 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_cst_3 : Ref sig .tc := ⟨.hbm, 126, rfl⟩
abbrev main_call1_v12 : Ref sig .tc := ⟨.hbm, 127, rfl⟩
abbrev main_call1_cst_4 : Ref sig .tc := ⟨.hbm, 128, rfl⟩
abbrev main_call1_call0_v0 : Ref sig .tc := ⟨.hbm, 129, rfl⟩
abbrev main_call1_call0_v1 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_c_14 : Ref sig .tc := ⟨.hbm, 141, rfl⟩
abbrev main_v69 : Ref sig .tc := ⟨.hbm, 142, rfl⟩
abbrev main_v70 : Ref sig .tc := ⟨.hbm, 143, rfl⟩
abbrev main_c_15 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_cst_16 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_cst_17 : Ref sig .tc := ⟨.hbm, 164, rfl⟩
abbrev main_v89 : Ref sig .tc := ⟨.hbm, 165, rfl⟩
abbrev main_cst_18 : Ref sig .tc := ⟨.hbm, 166, rfl⟩
abbrev main_v90 : Ref sig .tc := ⟨.hbm, 167, rfl⟩
abbrev main_v91 : Ref sig .tc := ⟨.hbm, 168, rfl⟩
abbrev main_c_19 : Ref sig .tc := ⟨.hbm, 169, rfl⟩
abbrev main_call2_cst : Ref sig .tc := ⟨.hbm, 170, rfl⟩
abbrev main_call2_v0 : Ref sig .tc := ⟨.hbm, 171, rfl⟩
abbrev main_call2_v1 : Ref sig .tc := ⟨.hbm, 172, rfl⟩
abbrev main_call2_cst_0 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_call2_v5 : Ref sig .tc := ⟨.hbm, 177, rfl⟩
abbrev main_call2_v6 : Ref sig .tc := ⟨.hbm, 178, rfl⟩
abbrev main_call2_v7 : Ref sig .tc := ⟨.hbm, 179, rfl⟩
abbrev main_call2_cst_1 : Ref sig .tc := ⟨.hbm, 180, rfl⟩
abbrev main_call2_v8 : Ref sig .tc := ⟨.hbm, 181, rfl⟩
abbrev main_call2_cst_2 : Ref sig .tc := ⟨.hbm, 182, rfl⟩
abbrev main_call2_v9 : Ref sig .tc := ⟨.hbm, 183, rfl⟩
abbrev main_call2_v10 : Ref sig .tc := ⟨.hbm, 184, rfl⟩
abbrev main_call2_v11 : Ref sig .tc := ⟨.hbm, 185, rfl⟩
abbrev main_call2_cst_3 : Ref sig .tc := ⟨.hbm, 186, rfl⟩
abbrev main_call2_v12 : Ref sig .tc := ⟨.hbm, 187, rfl⟩
abbrev main_call2_cst_4 : Ref sig .tc := ⟨.hbm, 188, rfl⟩
abbrev main_call2_call0_v0 : Ref sig .tc := ⟨.hbm, 189, rfl⟩
abbrev main_call2_call0_v1 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103_0 : Ref sig .tc := ⟨.hbm, 202, rfl⟩
abbrev main_v103_1 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg3_1 : Ref sig .tc := ⟨.vmem, 56, rfl⟩
abbrev cc6_stg4_0 : Ref sig .tc := ⟨.vmem, 57, rfl⟩
abbrev cc6_stg4_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem3_1 : DmaSem sig := 56
abbrev cc6_sem4_0 : DmaSem sig := 57
abbrev cc6_sem4_1 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x10 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x10 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x10.size a ≤ S100000x10.size a
  hwx6_3 : ∀ i : grid6.Coords, EltTy.bits .f32 = 32 ∨ (Rect.block (s := S100000x10) S5000x10.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x10.size a ≤ S100000x10.size a
  hwx6_4 : ∀ i : grid6.Coords, EltTy.bits .f32 = 32 ∨ (Rect.block (s := S100000x10) S5000x10.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v88) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v101) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103_0) S5000x10.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v103_1) S5000x10.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x128x128 : Shape := ⟨3, ![1, 128, 128]⟩
abbrev S100000x10 : Shape := ⟨2, ![100000, 10]⟩
abbrev S1x10 : Shape := ⟨2, ![1, 10]⟩

abbrev nBuf : Space → Nat
  | .hbm => 277
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S2x128x128, .f32⟩
  | 8 => ⟨S2x128x128, .f32⟩
  | 9 => ⟨S2x128, .f32⟩
  | 10 => ⟨S2x128, .f32⟩
  | 11 => ⟨S2x128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S1x128x128, .f32⟩
  | 100 => ⟨S128x128, .f32⟩
  | 101 => ⟨S1x128x128, .f32⟩
  | 102 => ⟨S128x128, .f32⟩
  | 103 => ⟨S1x128, .f32⟩
  | 104 => ⟨S128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128x128, .f32⟩
  | 50 => ⟨S128x128, .f32⟩
  | 51 => ⟨S1x128x128, .f32⟩
  | 52 => ⟨S128x128, .f32⟩
  | 53 => ⟨S1x128, .f32⟩
  | 54 => ⟨S128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x128, .f32⟩
  | 69 => ⟨S100000x128, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S100000x128, .f32⟩
  | 93 => ⟨S100000x128, .f32⟩
  | 94 => ⟨S100000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x10, .f32⟩
  | _ => ⟨S100000x128, .f32⟩

abbrev hbmTy0_2 (i : Nat) : BufTy := match i % 128 with
  | 0 => ⟨S1x10, .f32⟩
  | 1 => ⟨S100000x10, .f32⟩
  | 2 => ⟨S100000x10, .f32⟩
  | 3 => ⟨S_, .f32⟩
  | 4 => ⟨S100000x10, .f32⟩
  | 5 => ⟨S100000x10, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x10, .f32⟩
  | 13 => ⟨S100000x10, .f32⟩
  | 14 => ⟨S100000x10, .f32⟩
  | 15 => ⟨S_, .f32⟩
  | 16 => ⟨S100000, .f32⟩
  | 17 => ⟨S100000x1, .f32⟩
  | 18 => ⟨S100000x1, .f32⟩
  | 19 => ⟨S100000x10, .f32⟩
  | 20 => ⟨S100000x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_8 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_cst : Ref sig .tc := ⟨.hbm, 96, rfl⟩
abbrev main_call1_v0 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_9 : Ref sig .tc := ⟨.hbm, 105, rfl⟩
abbrev main_v57 : Ref sig .tc := ⟨.hbm, 106, rfl⟩
abbrev main_v58 : Ref sig .tc := ⟨.hbm, 107, rfl⟩
abbrev main_c_10 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_11 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_12 : Ref sig .tc := ⟨.hbm, 130, rfl⟩
abbrev main_v79 : Ref sig .tc := ⟨.hbm, 131, rfl⟩
abbrev main_cst_13 : Ref sig .tc := ⟨.hbm, 132, rfl⟩
abbrev main_v80 : Ref sig .tc := ⟨.hbm, 133, rfl⟩
abbrev main_v81 : Ref sig .tc := ⟨.hbm, 134, rfl⟩
abbrev main_c_14 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_cst_1 : Ref sig .tc := ⟨.hbm, 146, rfl⟩
abbrev main_call2_v8 : Ref sig .tc := ⟨.hbm, 147, rfl⟩
abbrev main_call2_cst_2 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_cst_3 : Ref sig .tc := ⟨.hbm, 152, rfl⟩
abbrev main_call2_v12 : Ref sig .tc := ⟨.hbm, 153, rfl⟩
abbrev main_call2_cst_4 : Ref sig .tc := ⟨.hbm, 154, rfl⟩
abbrev main_call2_call0_v0 : Ref sig .tc := ⟨.hbm, 155, rfl⟩
abbrev main_call2_call0_v1 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_cst_15 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_call3_cst : Ref sig .tc := ⟨.hbm, 174, rfl⟩
abbrev main_call3_v0 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_c_16 : Ref sig .tc := ⟨.hbm, 183, rfl⟩
abbrev main_v105 : Ref sig .tc := ⟨.hbm, 184, rfl⟩
abbrev main_v106 : Ref sig .tc := ⟨.hbm, 185, rfl⟩
abbrev main_c_17 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_18 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_19 : Ref sig .tc := ⟨.hbm, 208, rfl⟩
abbrev main_v127 : Ref sig .tc := ⟨.hbm, 209, rfl⟩
abbrev main_cst_20 : Ref sig .tc := ⟨.hbm, 210, rfl⟩
abbrev main_v128 : Ref sig .tc := ⟨.hbm, 211, rfl⟩
abbrev main_v129 : Ref sig .tc := ⟨.hbm, 212, rfl⟩
abbrev main_c_21 : Ref sig .tc := ⟨.hbm, 213, rfl⟩
abbrev main_call4_cst : Ref sig .tc := ⟨.hbm, 214, rfl⟩
abbrev main_call4_v0 : Ref sig .tc := ⟨.hbm, 215, rfl⟩
abbrev main_call4_v1 : Ref sig .tc := ⟨.hbm, 216, rfl⟩
abbrev main_call4_cst_0 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_call4_v5 : Ref sig .tc := ⟨.hbm, 221, rfl⟩
abbrev main_call4_v6 : Ref sig .tc := ⟨.hbm, 222, rfl⟩
abbrev main_call4_v7 : Ref sig .tc := ⟨.hbm, 223, rfl⟩
abbrev main_call4_cst_1 : Ref sig .tc := ⟨.hbm, 224, rfl⟩
abbrev main_call4_v8 : Ref sig .tc := ⟨.hbm, 225, rfl⟩
abbrev main_call4_cst_2 : Ref sig .tc := ⟨.hbm, 226, rfl⟩
abbrev main_call4_v9 : Ref sig .tc := ⟨.hbm, 227, rfl⟩
abbrev main_call4_v10 : Ref sig .tc := ⟨.hbm, 228, rfl⟩
abbrev main_call4_v11 : Ref sig .tc := ⟨.hbm, 229, rfl⟩
abbrev main_call4_cst_3 : Ref sig .tc := ⟨.hbm, 230, rfl⟩
abbrev main_call4_v12 : Ref sig .tc := ⟨.hbm, 231, rfl⟩
abbrev main_call4_cst_4 : Ref sig .tc := ⟨.hbm, 232, rfl⟩
abbrev main_call4_call0_v0 : Ref sig .tc := ⟨.hbm, 233, rfl⟩
abbrev main_call4_call0_v1 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_cst_22 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_call5_cst : Ref sig .tc := ⟨.hbm, 252, rfl⟩
abbrev main_call5_v0 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_call6_cst : Ref sig .tc := ⟨.hbm, 259, rfl⟩
abbrev main_call6_v0 : Ref sig .tc := ⟨.hbm, 260, rfl⟩
abbrev main_v151 : Ref sig .tc := ⟨.hbm, 261, rfl⟩
abbrev main_call7_cst : Ref sig .tc := ⟨.hbm, 262, rfl⟩
abbrev main_call7_v0 : Ref sig .tc := ⟨.hbm, 263, rfl⟩
abbrev main_call7_cst_0 : Ref sig .tc := ⟨.hbm, 264, rfl⟩
abbrev main_call7_v1 : Ref sig .tc := ⟨.hbm, 265, rfl⟩
abbrev main_call7_v2 : Ref sig .tc := ⟨.hbm, 266, rfl⟩
abbrev main_call7_v3 : Ref sig .tc := ⟨.hbm, 267, rfl⟩
abbrev main_call7_v4 : Ref sig .tc := ⟨.hbm, 268, rfl⟩
abbrev main_call7_v5 : Ref sig .tc := ⟨.hbm, 269, rfl⟩
abbrev main_call7_v6 : Ref sig .tc := ⟨.hbm, 270, rfl⟩
abbrev main_call7_cst_1 : Ref sig .tc := ⟨.hbm, 271, rfl⟩
abbrev main_call7_v7 : Ref sig .tc := ⟨.hbm, 272, rfl⟩
abbrev main_call7_v8 : Ref sig .tc := ⟨.hbm, 273, rfl⟩
abbrev main_call7_v9 : Ref sig .tc := ⟨.hbm, 274, rfl⟩
abbrev main_call7_v10 : Ref sig .tc := ⟨.hbm, 275, rfl⟩
abbrev main_v152 : Ref sig .tc := ⟨.hbm, 276, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  reducesTo_S100000x10_S100000_d1 : S100000x10.ReducesTo [1] S100000
  bcast_S100000x1_S100000x10_0_1 : S100000x1.BroadcastsInDim S100000x10 (![0, 1] : Fin 2 → Fin S100000x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KerRun.lean ====
/- The kernel program's run with the final buffer contents kept.

   @main is twenty segments: thirteen stretches of host operations and seven pipelined regions.  Every weakly fair
   execution from a memory with zero counters terminates without fault, and in every final state each unscoped
   TensorCore buffer holds the last segment boundary's contents `Gen.W20` — in particular the two result buffers
   do, and the fourteen argument arrays are as launched. -/
import proofs.«131058_j47364899340882_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from a memory with zero counters terminates without fault, and in every
    final state each core's unscoped TensorCore buffers hold the last boundary's contents. -/
theorem run_W20 : θ_run defs (onTc (τ := τ) (main (F := F))) ⟨m, fun _ => 0, ρ⟩ (fun r => ∀ c : Dev nD,
      ∀ b ∈ Pipeline.ucRefs τ sig, r.2.mem (((c : Thread nD τ)).1, b) = Gen.W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- The run with the two result buffers and the fourteen arguments read off the last boundary's contents. -/
theorem run_results : θ_run defs (onTc (τ := τ) (main (F := F))) ⟨m, fun _ => 0, ρ⟩ (fun r => ∀ c : Dev nD,
      r.2.mem ((c.tc : Thread nD τ).loc main_v103_1) = Gen.W20 m ρ c (Proc.devRef .tc main_v103_1)
      ∧ r.2.mem ((c.tc : Thread nD τ).loc main_v103_0) = Gen.W20 m ρ c (Proc.devRef .tc main_v103_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨h c _ (Gen.mem_uc main_v103_1 (by decide)),
     h c _ (Gen.mem_uc main_v103_0 (by decide)),
     (h c _ (Gen.mem_uc main_arg0 (by decide))).trans (Gen.W20_main_arg0 m ρ c),
     (h c _ (Gen.mem_uc main_arg1 (by decide))).trans (Gen.W20_main_arg1 m ρ c),
     (h c _ (Gen.mem_uc main_arg2 (by decide))).trans (Gen.W20_main_arg2 m ρ c),
     (h c _ (Gen.mem_uc main_arg3 (by decide))).trans (Gen.W20_main_arg3 m ρ c),
     (h c _ (Gen.mem_uc main_arg4 (by decide))).trans (Gen.W20_main_arg4 m ρ c),
     (h c _ (Gen.mem_uc main_arg5 (by decide))).trans (Gen.W20_main_arg5 m ρ c),
     (h c _ (Gen.mem_uc main_arg6 (by decide))).trans (Gen.W20_main_arg6 m ρ c),
     (h c _ (Gen.mem_uc main_arg7 (by decide))).trans (Gen.W20_main_arg7 m ρ c),
     (h c _ (Gen.mem_uc main_arg8 (by decide))).trans (Gen.W20_main_arg8 m ρ c),
     (h c _ (Gen.mem_uc main_arg9 (by decide))).trans (Gen.W20_main_arg9 m ρ c),
     (h c _ (Gen.mem_uc main_arg10 (by decide))).trans (Gen.W20_main_arg10 m ρ c),
     (h c _ (Gen.mem_uc main_arg11 (by decide))).trans (Gen.W20_main_arg11 m ρ c),
     (h c _ (Gen.mem_uc main_arg12 (by decide))).trans (Gen.W20_main_arg12 m ρ c),
     (h c _ (Gen.mem_uc main_arg13 (by decide))).trans (Gen.W20_main_arg13 m ρ c)⟩) (run_W20 m ρ)

end Cert.KernelIdeal.KerRun

end
-- ==== Proof.Spec.lean ====
/-
  The computation both programs perform, as named pure functions of the argument arrays: three graph-convolution
  layers (mean aggregation over incoming edges, two dense products and a bias, a normalisation over the node axis
  with learned scale and shift, a rectifier), then a dense read-out, a rectifier and a row-wise log-softmax.
  Every function is spelt with the operations the host program applies, in its order, so that the reference's fold
  reads as these terms; the kernel's regions are shown equal to `linear`, `normalizeRows`, `logitsRow` and `logSoftmax`.
-/
import proofs.«131058_j47364899340882_1_alg».proof.ReferenceIdeal
import Idealize.ShloMosaic.PureOps

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- A float array of shape `S`. -/
abbrev Arr (F : FTy → Type) [FloatOps F] (S : Shape) : Type := (⟨S, .f32⟩ : BufTy).Contents (Elt F)
/-- An array of 32-bit integers of shape `S`. -/
abbrev IArr (F : FTy → Type) [FloatOps F] (S : Shape) : Type := (⟨S, .i32⟩ : BufTy).Contents (Elt F)

/-- Row 0 of the edge table: the source node of every edge. -/
def edgeSrc (ei : IArr F S2x1600000) : IArr F S1600000 :=
  shapeCast S1600000 (extractStridedSlice S1x1600000 ![0, 0] ei slices_S2x1600000_S1x1600000_0_0) shapeCasts_S1x1600000_S1600000
/-- Row 1 of the edge table: the destination node of every edge. -/
def edgeDst (ei : IArr F S2x1600000) : IArr F S1600000 :=
  shapeCast S1600000 (extractStridedSlice S1x1600000 ![1, 0] ei slices_S2x1600000_S1x1600000_1_0) shapeCasts_S1x1600000_S1600000

/-- The destination ids as a column of scatter indices. -/
def dstIndex (ei : IArr F S2x1600000) : IArr F S1600000x1 :=
  broadcastInDim S1600000x1 ![0] bcast_S1600000_S1600000x1_0 (edgeDst ei)
/-- The source ids, a negative id counted from the end, as a column of gather indices. -/
def srcIndex (ei : IArr F S2x1600000) : IArr F S1600000x1 :=
  broadcastInDim S1600000x1 ![0] bcast_S1600000_S1600000x1_0
    (select (cmpi .slt (edgeSrc ei) (broadcastInDim S1600000 ![] bcast_S_S1600000 (constantI S_ 32 0#32)))
      (addi (edgeSrc ei) (broadcastInDim S1600000 ![] bcast_S_S1600000 (constantI S_ 32 100000#32)))
      (edgeSrc ei))

/-- One over the in-degree of every node (the degree taken as at least one), as a column. -/
def invDeg (ei : IArr F S2x1600000) : Arr F S100000x1 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (dstIndex ei)
          (broadcastInDim S1600000 ![] bcast_S_S1600000 (constant S_ .f32 0x3F800000#32)))
        (broadcastInDim S100000 ![] bcast_S_S100000 (constant S_ .f32 0x3F800000#32))))

/-- Mean aggregation: every node receives the average of its in-neighbours' feature rows. -/
def aggregate (ei : IArr F S2x1600000) (h : Arr F S100000x128) : Arr F S100000x128 :=
  mulf
    (Host.scatterAdd scatter_S100000x128_S1600000x1_S1600000x128_1_0_0_1
      (broadcastInDim S100000x128 ![] bcast_S_S100000x128 (constant S_ .f32 0x00000000#32))
      (dstIndex ei)
      (Host.gather gather_S100000x128_S1600000x1_S1600000x128_1_0_n_n_0_1_1128 h (srcIndex ei)))
    (broadcastInDim S100000x128 ![0, 1] bcast_S100000x1_S100000x128_0_1 (invDeg ei))

/-- A vector of 128 channels as a single row. -/
def rowOf (b : Arr F S128) : Arr F S1x128 := broadcastInDim S1x128 ![1] bcast_S128_S1x128_1 b
/-- A single row repeated for every node. -/
def rows (r : Arr F S1x128) : Arr F S100000x128 := broadcastInDim S100000x128 ![0, 1] bcast_S1x128_S100000x128_0_1 r

/-- The layer's linear part: aggregated features times `Wl`, plus own features times `Wr`, plus the bias row. -/
def linear (agg h : Arr F S100000x128) (Wl Wr : Arr F S128x128) (b2 : Arr F S1x128) : Arr F S100000x128 :=
  addf
    (addf (Host.dotGeneral dot_S100000x128_S128x128_S100000x128_1_0_0_1_n_n none agg Wl)
      (Host.dotGeneral dot_S100000x128_S128x128_S100000x128_1_0_0_1_n_n none h Wr))
    (rows b2)

/-- Channel-wise mean over the node axis. -/
def colMean (z : Arr F S100000x128) : Arr F S128 :=
  Host.divf (Host.reduceAdd z (constant S_ .f32 0x00000000#32) reducesTo_S100000x128_S128_d0 h_S_)
    (broadcastInDim S128 ![] bcast_S_S128 (constant S_ .f32 0x47C35000#32))

/-- The count the variance divides by: the number of nodes less zero degrees of freedom. -/
def varCount : Arr F S_ :=
  subf (constant S_ .f32 0x47C35000#32) (sitofp .f32 (constantI S_ 32 0#32))

/-- The centred features of the variance: `z` less its channel mean (the mean taken as a row). -/
def centred (z : Arr F S100000x128) : Arr F S100000x128 :=
  subf z
    (broadcastInDim S100000x128 ![0, 1] bcast_S1x128_S100000x128_0_1
      (Host.divf
        (broadcastInDim S1x128 ![1] bcast_S128_S1x128_1
          (Host.reduceAdd z (constant S_ .f32 0x00000000#32) reducesTo_S100000x128_S128_d0 h_S_))
        (broadcastInDim S1x128 ![] bcast_S_S1x128 (constant S_ .f32 0x47C35000#32))))

/-- Channel-wise (biased) variance over the node axis, guarded by the count being positive. -/
def colVar (z : Arr F S100000x128) : Arr F S128 :=
  select (broadcastInDim S128 ![] bcast_S_S128 (cmpf .ogt (varCount (F := F)) (constant S_ .f32 0x00000000#32)))
    (Host.divf
      (Host.reduceAdd (mulf (centred z) (centred z)) (constant S_ .f32 0x00000000#32) reducesTo_S100000x128_S128_d0 h_S_)
      (broadcastInDim S128 ![] bcast_S_S128 (varCount (F := F))))
    (broadcastInDim S128 ![] bcast_S_S128 (id (constant S_ .f32 0x7FC00000#32)))

/-- Normalise each channel, scale and shift (the four per-channel vectors given as rows: scale, mean, the reciprocal
    root of the variance plus epsilon, shift), then rectify. -/
def normalizeRows (z : Arr F S100000x128) (g2 d2 r2 bt2 : Arr F S1x128) : Arr F S100000x128 :=
  maximumf
    (addf (mulf (mulf (rows g2) (subf z (rows d2))) (rows r2)) (rows bt2))
    (broadcastInDim S100000x128 ![] bcast_S_S100000x128 (constant S_ .f32 0x00000000#32))

/-- The reciprocal root of the variance plus epsilon, per channel. -/
def invStd (var : Arr F S128) : Arr F S128 :=
  Host.rsqrt (addf var (broadcastInDim S128 ![] bcast_S_S128 (constant S_ .f32 0x3727C5AC#32)))

/-- Normalisation with the per-channel statistics and parameters as vectors. -/
def normalize (z : Arr F S100000x128) (mean var g bt : Arr F S128) : Arr F S100000x128 :=
  normalizeRows z (rowOf g) (rowOf mean) (rowOf (invStd var)) (rowOf bt)

/-- One layer: aggregate, combine linearly, normalise over the nodes, rectify. -/
def layer (ei : IArr F S2x1600000) (h : Arr F S100000x128) (Wl Wr : Arr F S128x128) (b g bt : Arr F S128) :
    Arr F S100000x128 :=
  normalize (linear (aggregate ei h) h Wl Wr (rowOf b))
    (colMean (linear (aggregate ei h) h Wl Wr (rowOf b)))
    (colVar (linear (aggregate ei h) h Wl Wr (rowOf b))) g bt

/-- The first of the two stacked weight matrices. -/
def mat0 (W : Arr F S2x128x128) : Arr F S128x128 :=
  shapeCast S128x128 (extractStridedSlice S1x128x128 ![0, 0, 0] W slices_S2x128x128_S1x128x128_0_0_0) shapeCasts_S1x128x128_S128x128
/-- The second of the two stacked weight matrices. -/
def mat1 (W : Arr F S2x128x128) : Arr F S128x128 :=
  shapeCast S128x128 (extractStridedSlice S1x128x128 ![1, 0, 0] W slices_S2x128x128_S1x128x128_1_0_0) shapeCasts_S1x128x128_S128x128
/-- The first of the two stacked channel vectors. -/
def vec0 (b : Arr F S2x128) : Arr F S128 :=
  shapeCast S128 (extractStridedSlice S1x128 ![0, 0] b slices_S2x128_S1x128_0_0) shapeCasts_S1x128_S128
/-- The second of the two stacked channel vectors. -/
def vec1 (b : Arr F S2x128) : Arr F S128 :=
  shapeCast S128 (extractStridedSlice S1x128 ![1, 0] b slices_S2x128_S1x128_1_0) shapeCasts_S1x128_S128

/-- The read-out: features times `Wlin` plus the bias row, rectified. -/
def logitsRow (h : Arr F S100000x128) (Wlin : Arr F S128x10) (blin2 : Arr F S1x10) : Arr F S100000x10 :=
  maximumf
    (addf (Host.dotGeneral dot_S100000x128_S128x10_S100000x10_1_0_0_1_n_n none h Wlin)
      (broadcastInDim S100000x10 ![0, 1] bcast_S1x10_S100000x10_0_1 blin2))
    (broadcastInDim S100000x10 ![] bcast_S_S100000x10 (constant S_ .f32 0x00000000#32))

/-- The read-out with the bias as a vector of ten classes. -/
def logits (h : Arr F S100000x128) (Wlin : Arr F S128x10) (blin : Arr F S10) : Arr F S100000x10 :=
  logitsRow h Wlin (broadcastInDim S1x10 ![1] bcast_S10_S1x10_1 blin)

/-- Each row less its maximum. -/
def shifted (o : Arr F S100000x10) : Arr F S100000x10 :=
  subf o
    (broadcastInDim S100000x10 ![0, 1] bcast_S100000x1_S100000x10_0_1
      (broadcastInDim S100000x1 ![0] bcast_S100000_S100000x1_0
        (maximumf (broadcastInDim S100000 ![] bcast_S_S100000 (constant S_ .f32 0xFF800000#32))
          (Host.reduce FloatOps.maximumf o (constant S_ .f32 0xFF800000#32) reducesTo_S100000x10_S100000_d1 h_S_))))

/-- Row-wise log-softmax: the shifted row less the logarithm of the sum of its exponentials. -/
def logSoftmax (o : Arr F S100000x10) : Arr F S100000x10 :=
  subf (shifted o)
    (broadcastInDim S100000x10 ![0, 1] bcast_S100000x1_S100000x10_0_1
      (Host.log
        (broadcastInDim S100000x1 ![0] bcast_S100000_S100000x1_0
          (Host.reduceAdd (Host.exp (shifted o)) (constant S_ .f32 0x00000000#32) reducesTo_S100000x10_S100000_d1 h_S_))))

/-- The features after the three layers. -/
def hidden (x : Arr F S100000x128) (ei : IArr F S2x1600000) (Wl0 Wr0 : Arr F S128x128) (b0 g0 bt0 : Arr F S128)
    (Wl Wr : Arr F S2x128x128) (b g bt : Arr F S2x128) : Arr F S100000x128 :=
  layer ei
    (layer ei (layer ei x Wl0 Wr0 b0 g0 bt0) (mat0 Wl) (mat0 Wr) (vec0 b) (vec0 g) (vec0 bt))
    (mat1 Wl) (mat1 Wr) (vec1 b) (vec1 g) (vec1 bt)

/-- The second result: the rectified logits. -/
def out (x : Arr F S100000x128) (ei : IArr F S2x1600000) (Wl0 Wr0 : Arr F S128x128) (b0 g0 bt0 : Arr F S128)
    (Wl Wr : Arr F S2x128x128) (b g bt : Arr F S2x128) (Wlin : Arr F S128x10) (blin : Arr F S10) : Arr F S100000x10 :=
  logits (hidden x ei Wl0 Wr0 b0 g0 bt0 Wl Wr b g bt) Wlin blin

/-- The first result: the log-probabilities. -/
def logp (x : Arr F S100000x128) (ei : IArr F S2x1600000) (Wl0 Wr0 : Arr F S128x128) (b0 g0 bt0 : Arr F S128)
    (Wl Wr : Arr F S2x128x128) (b g bt : Arr F S2x128) (Wlin : Arr F S128x10) (blin : Arr F S10) : Arr F S100000x10 :=
  logSoftmax (out x ei Wl0 Wr0 b0 g0 bt0 Wl Wr b g bt Wlin blin)

end Cert.Spec

end
-- ==== Proof.KerRead.lean ====
/- The kernel program's segment boundaries read back.

   The run's last boundary holds, at the two result buffers, what the last region's pipeline leaves in its two output
   arrays.  Each region is entered with its input arrays holding either an argument array, the previous region's
   output array, or a value the host operations computed from these: the mean aggregation over the edge table, the
   channel mean and variance of the previous output, a slice of a stacked parameter, each vector laid out as one row. -/
import proofs.«131058_j47364899340882_1_alg».proof.Proof.Gen.KernelIdeal.Frame
import proofs.«131058_j47364899340882_1_alg».proof.Proof.Spec
import Idealize.ShloMosaic.Lib.Pipeline.Value
import Idealize.ShloMosaic.Lib.ValueIdx

set_option maxRecDepth 16384

noncomputable section

namespace Cert.KernelIdeal.KerRead

open Idealize.ShloMosaic Idealize.ShloMosaic.TcCoe
open Idealize.ShloMosaic.Pipeline (Dat Cfg Window)

variable {F : FTy → Type} [FloatOps F] [Cert.ReferenceIdeal.Facts]

variable (m : (ℓ : Loc nD τ sig) → Buf (Elt F) ℓ) (ρ : Dev nD → PrngReg)

attribute [local irreducible] Host.reduceAdd Host.gather Host.scatterAdd Host.reduce

/-- A vector of 128 channels laid out as one row (the same entries, reindexed). -/
abbrev oneRow (b : Cert.Spec.Arr F S128) : Cert.Spec.Arr F S1x128 := shapeCast S1x128 b Facts₀.shapeCasts_S128_S1x128
/-- A vector of 10 classes laid out as one row. -/
abbrev oneRow10 (b : Cert.Spec.Arr F S10) : Cert.Spec.Arr F S1x10 := shapeCast S1x10 b Facts₀.shapeCasts_S10_S1x10

/-! ## The results -/

/-- The first result buffer ends at the last region's output array 4. -/
theorem W20_v103_1 (c : Dev nD) :
    Gen.W20 m ρ c (Proc.devRef .tc main_v103_1) = (Gen.dat6 (Gen.V19 m ρ) c).arrAt 4 cfg6.N := Gen.W20_arr m ρ c 4
/-- The second result buffer ends at the last region's output array 3. -/
theorem W20_v103_0 (c : Dev nD) :
    Gen.W20 m ρ c (Proc.devRef .tc main_v103_0) = (Gen.dat6 (Gen.V19 m ρ) c).arrAt 3 cfg6.N := Gen.W20_arr m ρ c 3

/-! ## Region 0's input arrays at entry -/

/-- Input 0: the mean aggregation of the node features over the edge table. -/
theorem V1_w0 (c : Dev nD) : Gen.V1 m ρ c (Pipeline.arrRef spec0 0)
    = Cert.Spec.aggregate (m ((c : Thread nD τ).loc main_arg1)) (m ((c : Thread nD τ).loc main_arg0)) := by
  show StableHlo.after Gen.hostOps0 (Gen.W0 m ρ c) (Proc.devRef .tc main_v24) = _
  after_results_simp
  rfl
/-- Input 1: the node features. -/
theorem V1_w1 (c : Dev nD) : Gen.V1 m ρ c (Pipeline.arrRef spec0 1) = m ((c : Thread nD τ).loc main_arg0) := by
  show StableHlo.after Gen.hostOps0 (Gen.W0 m ρ c) (Proc.devRef .tc main_arg0) = _
  after_results_simp
/-- Input 2: the first layer's weight on the aggregated features. -/
theorem V1_w2 (c : Dev nD) : Gen.V1 m ρ c (Pipeline.arrRef spec0 2) = m ((c : Thread nD τ).loc main_arg2) := by
  show StableHlo.after Gen.hostOps0 (Gen.W0 m ρ c) (Proc.devRef .tc main_arg2) = _
  after_results_simp
/-- Input 3: the first layer's weight on the node's own features. -/
theorem V1_w3 (c : Dev nD) : Gen.V1 m ρ c (Pipeline.arrRef spec0 3) = m ((c : Thread nD τ).loc main_arg3) := by
  show StableHlo.after Gen.hostOps0 (Gen.W0 m ρ c) (Proc.devRef .tc main_arg3) = _
  after_results_simp
/-- Input 4: the first layer's bias as one row. -/
theorem V1_w4 (c : Dev nD) : Gen.V1 m ρ c (Pipeline.arrRef spec0 4) = oneRow (m ((c : Thread nD τ).loc main_arg4)) := by
  show StableHlo.after Gen.hostOps0 (Gen.W0 m ρ c) (Proc.devRef .tc main_v25) = _
  after_results_simp
  rfl

/-! ## What persists from the first stretch: the later arguments, the edge table's two rows, the inverse in-degree -/

theorem W1_arg5 (c : Dev nD) : Gen.W1 m ρ c (Proc.devRef .tc main_arg5) = m ((c : Thread nD τ).loc main_arg5) := by
  show StableHlo.after Gen.hostOps0 (Gen.W0 m ρ c) (Proc.devRef .tc main_arg5) = _
  after_results_simp
theorem W2_arg5 (c : Dev nD) : Gen.W2 m ρ c (Proc.devRef .tc main_arg5) = m ((c : Thread nD τ).loc main_arg5) :=
  (Gen.W2_of_ne m ρ c main_arg5 (by decide)).trans (W1_arg5 m ρ c)
theorem W1_arg6 (c : Dev nD) : Gen.W1 m ρ c (Proc.devRef .tc main_arg6) = m ((c : Thread nD τ).loc main_arg6) := by
  show StableHlo.after Gen.hostOps0 (Gen.W0 m ρ c) (Proc.devRef .tc main_arg6) = _
  after_results_simp
theorem W2_arg6 (c : Dev nD) : Gen.W2 m ρ c (Proc.devRef .tc main_arg6) = m ((c : Thread nD τ).loc main_arg6) :=
  (Gen.W2_of_ne m ρ c main_arg6 (by decide)).trans (W1_arg6 m ρ c)
theorem W1_arg7 (c : Dev nD) : Gen.W1 m ρ c (Proc.devRef .tc main_arg7) = m ((c : Thread nD τ).loc main_arg7) := by
  show StableHlo.after Gen.hostOps0 (Gen.W0 m ρ c) (Proc.devRef .tc main_arg7) = _
  after_results_simp
theorem W2_arg7 (c : Dev nD) : Gen.W2 m ρ c (Proc.devRef .tc main_arg7) = m ((c : Thread nD τ).loc main_arg7) :=
  (Gen.W2_of_ne m ρ c main_arg7 (by decide)).trans (W1_arg7 m ρ c)
theorem W1_arg8 (c : Dev nD) : Gen.W1 m ρ c (Proc.devRef .tc main_arg8) = m ((c : Thread nD τ).loc main_arg8) := by
  show StableHlo.after Gen.hostOps0 (Gen.W0 m ρ c) (Proc.devRef .tc main_arg8) = _
  after_results_simp
theorem W2_arg8 (c : Dev nD) : Gen.W2 m ρ c (Proc.devRef .tc main_arg8) = m ((c : Thread nD τ).loc main_arg8) :=
  (Gen.W2_of_ne m ρ c main_arg8 (by decide)).trans (W1_arg8 m ρ c)
theorem W1_arg9 (c : Dev nD) : Gen.W1 m ρ c (Proc.devRef .tc main_arg9) = m ((c : Thread nD τ).loc main_arg9) := by
  show StableHlo.after Gen.hostOps0 (Gen.W0 m ρ c) (Proc.devRef .tc main_arg9) = _
  after_results_simp
theorem W2_arg9 (c : Dev nD) : Gen.W2 m ρ c (Proc.devRef .tc main_arg9) = m ((c : Thread nD τ).loc main_arg9) :=
  (Gen.W2_of_ne m ρ c main_arg9 (by decide)).trans (W1_arg9 m ρ c)
theorem W1_arg10 (c : Dev nD) : Gen.W1 m ρ c (Proc.devRef .tc main_arg10) = m ((c : Thread nD τ).loc main_arg10) := by
  show StableHlo.after Gen.hostOps0 (Gen.W0 m ρ c) (Proc.devRef .tc main_arg10) = _
  after_results_simp
theorem W2_arg10 (c : Dev nD) : Gen.W2 m ρ c (Proc.devRef .tc main_arg10) = m ((c : Thread nD τ).loc main_arg10) :=
  (Gen.W2_of_ne m ρ c main_arg10 (by decide)).trans (W1_arg10 m ρ c)
theorem W1_arg11 (c : Dev nD) : Gen.W1 m ρ c (Proc.devRef .tc main_arg11) = m ((c : Thread nD τ).loc main_arg11) := by
  show StableHlo.after Gen.hostOps0 (Gen.W0 m ρ c) (Proc.devRef .tc main_arg11) = _
  after_results_simp
theorem W2_arg11 (c : Dev nD) : Gen.W2 m ρ c (Proc.devRef .tc main_arg11) = m ((c : Thread nD τ).loc main_arg11) :=
  (Gen.W2_of_ne m ρ c main_arg11 (by decide)).trans (W1_arg11 m ρ c)
theorem W1_arg12 (c : Dev nD) : Gen.W1 m ρ c (Proc.devRef .tc main_arg12) = m ((c : Thread nD τ).loc main_arg12) := by
  show StableHlo.after Gen.hostOps0 (Gen.W0 m ρ c) (Proc.devRef .tc main_arg12) = _
  after_results_simp
theorem W2_arg12 (c : Dev nD) : Gen.W2 m ρ c (Proc.devRef .tc main_arg12) = m ((c : Thread nD τ).loc main_arg12) :=
  (Gen.W2_of_ne m ρ c main_arg12 (by decide)).trans (W1_arg12 m ρ c)
theorem W1_arg13 (c : Dev nD) : Gen.W1 m ρ c (Proc.devRef .tc main_arg13) = m ((c : Thread nD τ).loc main_arg13) := by
  show StableHlo.after Gen.hostOps0 (Gen.W0 m ρ c) (Proc.devRef .tc main_arg13) = _
  after_results_simp
theorem W2_arg13 (c : Dev nD) : Gen.W2 m ρ c (Proc.devRef .tc main_arg13) = m ((c : Thread nD τ).loc main_arg13) :=
  (Gen.W2_of_ne m ρ c main_arg13 (by decide)).trans (W1_arg13 m ρ c)
theorem W1_v1 (c : Dev nD) : Gen.W1 m ρ c (Proc.devRef .tc main_v1) = Cert.Spec.edgeSrc (m ((c : Thread nD τ).loc main_arg1)) := by
  show StableHlo.after Gen.hostOps0 (Gen.W0 m ρ c) (Proc.devRef .tc main_v1) = _
  after_results_simp
  rfl
theorem W2_v1 (c : Dev nD) : Gen.W2 m ρ c (Proc.devRef .tc main_v1) = Cert.Spec.edgeSrc (m ((c : Thread nD τ).loc main_arg1)) :=
  (Gen.W2_of_ne m ρ c main_v1 (by decide)).trans (W1_v1 m ρ c)
theorem W1_v3 (c : Dev nD) : Gen.W1 m ρ c (Proc.devRef .tc main_v3) = Cert.Spec.edgeDst (m ((c : Thread nD τ).loc main_arg1)) := by
  show StableHlo.after Gen.hostOps0 (Gen.W0 m ρ c) (Proc.devRef .tc main_v3) = _
  after_results_simp
  rfl
theorem W2_v3 (c : Dev nD) : Gen.W2 m ρ c (Proc.devRef .tc main_v3) = Cert.Spec.edgeDst (m ((c : Thread nD τ).loc main_arg1)) :=
  (Gen.W2_of_ne m ρ c main_v3 (by decide)).trans (W1_v3 m ρ c)
theorem W1_v12 (c : Dev nD) : Gen.W1 m ρ c (Proc.devRef .tc main_v12) = Cert.Spec.invDeg (m ((c : Thread nD τ).loc main_arg1)) := by
  show StableHlo.after Gen.hostOps0 (Gen.W0 m ρ c) (Proc.devRef .tc main_v12) = _
  after_results_simp
  rfl
theorem W2_v12 (c : Dev nD) : Gen.W2 m ρ c (Proc.devRef .tc main_v12) = Cert.Spec.invDeg (m ((c : Thread nD τ).loc main_arg1)) :=
  (Gen.W2_of_ne m ρ c main_v12 (by decide)).trans (W1_v12 m ρ c)
/-- Region 0's output array at its exit. -/
theorem W2_v26 (c : Dev nD) : Gen.W2 m ρ c (Proc.devRef .tc main_v26) = (Gen.dat0 (Gen.V1 m ρ) c).arrAt 5 cfg0.N := Gen.W2_arr m ρ c 5

/-! ## The three stretches between regions 0 and 1, from any contents `X` -/

section Host1
variable (X : Valuation τ sig (Elt F))

theorem host1_v26 : StableHlo.after Gen.hostOps1_2 (StableHlo.after Gen.hostOps1_1 (StableHlo.after Gen.hostOps1 X)) (Proc.devRef .tc main_v26) = X (Proc.devRef .tc main_v26) := by
  after_results_simp
theorem host1_v31 : StableHlo.after Gen.hostOps1_2 (StableHlo.after Gen.hostOps1_1 (StableHlo.after Gen.hostOps1 X)) (Proc.devRef .tc main_v31) = oneRow (Cert.Spec.colMean (X (Proc.devRef .tc main_v26))) := by
  after_results_simp
  rfl
theorem host1_v32 : StableHlo.after Gen.hostOps1_2 (StableHlo.after Gen.hostOps1_1 (StableHlo.after Gen.hostOps1 X)) (Proc.devRef .tc main_v32) = oneRow (Cert.Spec.colVar (X (Proc.devRef .tc main_v26))) := by
  after_results_simp
  rfl
theorem host1_v33 : StableHlo.after Gen.hostOps1_2 (StableHlo.after Gen.hostOps1_1 (StableHlo.after Gen.hostOps1 X)) (Proc.devRef .tc main_v33) = oneRow (X (Proc.devRef .tc main_arg5)) := by
  after_results_simp
  rfl
theorem host1_v34 : StableHlo.after Gen.hostOps1_2 (StableHlo.after Gen.hostOps1_1 (StableHlo.after Gen.hostOps1 X)) (Proc.devRef .tc main_v34) = oneRow (X (Proc.devRef .tc main_arg6)) := by
  after_results_simp
  rfl
theorem host1_arg7 : StableHlo.after Gen.hostOps1_2 (StableHlo.after Gen.hostOps1_1 (StableHlo.after Gen.hostOps1 X)) (Proc.devRef .tc main_arg7) = X (Proc.devRef .tc main_arg7) := by
  after_results_simp
theorem host1_arg8 : StableHlo.after Gen.hostOps1_2 (StableHlo.after Gen.hostOps1_1 (StableHlo.after Gen.hostOps1 X)) (Proc.devRef .tc main_arg8) = X (Proc.devRef .tc main_arg8) := by
  after_results_simp
theorem host1_arg9 : StableHlo.after Gen.hostOps1_2 (StableHlo.after Gen.hostOps1_1 (StableHlo.after Gen.hostOps1 X)) (Proc.devRef .tc main_arg9) = X (Proc.devRef .tc main_arg9) := by
  after_results_simp
theorem host1_arg10 : StableHlo.after Gen.hostOps1_2 (StableHlo.after Gen.hostOps1_1 (StableHlo.after Gen.hostOps1 X)) (Proc.devRef .tc main_arg10) = X (Proc.devRef .tc main_arg10) := by
  after_results_simp
theorem host1_arg11 : StableHlo.after Gen.hostOps1_2 (StableHlo.after Gen.hostOps1_1 (StableHlo.after Gen.hostOps1 X)) (Proc.devRef .tc main_arg11) = X (Proc.devRef .tc main_arg11) := by
  after_results_simp
theorem host1_arg12 : StableHlo.after Gen.hostOps1_2 (StableHlo.after Gen.hostOps1_1 (StableHlo.after Gen.hostOps1 X)) (Proc.devRef .tc main_arg12) = X (Proc.devRef .tc main_arg12) := by
  after_results_simp
theorem host1_arg13 : StableHlo.after Gen.hostOps1_2 (StableHlo.after Gen.hostOps1_1 (StableHlo.after Gen.hostOps1 X)) (Proc.devRef .tc main_arg13) = X (Proc.devRef .tc main_arg13) := by
  after_results_simp
theorem host1_v1 : StableHlo.after Gen.hostOps1_2 (StableHlo.after Gen.hostOps1_1 (StableHlo.after Gen.hostOps1 X)) (Proc.devRef .tc main_v1) = X (Proc.devRef .tc main_v1) := by
  after_results_simp
theorem host1_v3 : StableHlo.after Gen.hostOps1_2 (StableHlo.after Gen.hostOps1_1 (StableHlo.after Gen.hostOps1 X)) (Proc.devRef .tc main_v3) = X (Proc.devRef .tc main_v3) := by
  after_results_simp
theorem host1_v12 : StableHlo.after Gen.hostOps1_2 (StableHlo.after Gen.hostOps1_1 (StableHlo.after Gen.hostOps1 X)) (Proc.devRef .tc main_v12) = X (Proc.devRef .tc main_v12) := by
  after_results_simp

end Host1

/-! ## Region 1's input arrays at entry -/

/-- Input 0: region 0's output array. -/
theorem V5_w0 (c : Dev nD) : Gen.V5 m ρ c (Pipeline.arrRef spec1 0) = (Gen.dat0 (Gen.V1 m ρ) c).arrAt 5 cfg0.N :=
  (host1_v26 (Gen.W2 m ρ c)).trans (W2_v26 m ρ c)
/-- Input 1: the channel mean of region 0's output, as one row. -/
theorem V5_w1 (c : Dev nD) : Gen.V5 m ρ c (Pipeline.arrRef spec1 1)
    = oneRow (Cert.Spec.colMean ((Gen.dat0 (Gen.V1 m ρ) c).arrAt 5 cfg0.N)) :=
  (host1_v31 (Gen.W2 m ρ c)).trans (by rw [W2_v26])
/-- Input 2: the channel variance of region 0's output, as one row. -/
theorem V5_w2 (c : Dev nD) : Gen.V5 m ρ c (Pipeline.arrRef spec1 2)
    = oneRow (Cert.Spec.colVar ((Gen.dat0 (Gen.V1 m ρ) c).arrAt 5 cfg0.N)) :=
  (host1_v32 (Gen.W2 m ρ c)).trans (by rw [W2_v26])
/-- Input 3: the first layer's scale, as one row. -/
theorem V5_w3 (c : Dev nD) : Gen.V5 m ρ c (Pipeline.arrRef spec1 3) = oneRow (m ((c : Thread nD τ).loc main_arg5)) :=
  (host1_v33 (Gen.W2 m ρ c)).trans (by rw [W2_arg5])
/-- Input 4: the first layer's shift, as one row. -/
theorem V5_w4 (c : Dev nD) : Gen.V5 m ρ c (Pipeline.arrRef spec1 4) = oneRow (m ((c : Thread nD τ).loc main_arg6)) :=
  (host1_v34 (Gen.W2 m ρ c)).trans (by rw [W2_arg6])
theorem W5_arg7 (c : Dev nD) : Gen.W5 m ρ c (Proc.devRef .tc main_arg7) = m ((c : Thread nD τ).loc main_arg7) :=
  (host1_arg7 (Gen.W2 m ρ c)).trans (W2_arg7 m ρ c)
theorem W6_arg7 (c : Dev nD) : Gen.W6 m ρ c (Proc.devRef .tc main_arg7) = m ((c : Thread nD τ).loc main_arg7) :=
  (Gen.W6_of_ne m ρ c main_arg7 (by decide)).trans (W5_arg7 m ρ c)
theorem W5_arg8 (c : Dev nD) : Gen.W5 m ρ c (Proc.devRef .tc main_arg8) = m ((c : Thread nD τ).loc main_arg8) :=
  (host1_arg8 (Gen.W2 m ρ c)).trans (W2_arg8 m ρ c)
theorem W6_arg8 (c : Dev nD) : Gen.W6 m ρ c (Proc.devRef .tc main_arg8) = m ((c : Thread nD τ).loc main_arg8) :=
  (Gen.W6_of_ne m ρ c main_arg8 (by decide)).trans (W5_arg8 m ρ c)
theorem W5_arg9 (c : Dev nD) : Gen.W5 m ρ c (Proc.devRef .tc main_arg9) = m ((c : Thread nD τ).loc main_arg9) :=
  (host1_arg9 (Gen.W2 m ρ c)).trans (W2_arg9 m ρ c)
theorem W6_arg9 (c : Dev nD) : Gen.W6 m ρ c (Proc.devRef .tc main_arg9) = m ((c : Thread nD τ).loc main_arg9) :=
  (Gen.W6_of_ne m ρ c main_arg9 (by decide)).trans (W5_arg9 m ρ c)
theorem W5_arg10 (c : Dev nD) : Gen.W5 m ρ c (Proc.devRef .tc main_arg10) = m ((c : Thread nD τ).loc main_arg10) :=
  (host1_arg10 (Gen.W2 m ρ c)).trans (W2_arg10 m ρ c)
theorem W6_arg10 (c : Dev nD) : Gen.W6 m ρ c (Proc.devRef .tc main_arg10) = m ((c : Thread nD τ).loc main_arg10) :=
  (Gen.W6_of_ne m ρ c main_arg10 (by decide)).trans (W5_arg10 m ρ c)
theorem W5_arg11 (c : Dev nD) : Gen.W5 m ρ c (Proc.devRef .tc main_arg11) = m ((c : Thread nD τ).loc main_arg11) :=
  (host1_arg11 (Gen.W2 m ρ c)).trans (W2_arg11 m ρ c)
theorem W6_arg11 (c : Dev nD) : Gen.W6 m ρ c (Proc.devRef .tc main_arg11) = m ((c : Thread nD τ).loc main_arg11) :=
  (Gen.W6_of_ne m ρ c main_arg11 (by decide)).trans (W5_arg11 m ρ c)
theorem W5_arg12 (c : Dev nD) : Gen.W5 m ρ c (Proc.devRef .tc main_arg12) = m ((c : Thread nD τ).loc main_arg12) :=
  (host1_arg12 (Gen.W2 m ρ c)).trans (W2_arg12 m ρ c)
theorem W6_arg12 (c : Dev nD) : Gen.W6 m ρ c (Proc.devRef .tc main_arg12) = m ((c : Thread nD τ).loc main_arg12) :=
  (Gen.W6_of_ne m ρ c main_arg12 (by decide)).trans (W5_arg12 m ρ c)
theorem W5_arg13 (c : Dev nD) : Gen.W5 m ρ c (Proc.devRef .tc main_arg13) = m ((c : Thread nD τ).loc main_arg13) :=
  (host1_arg13 (Gen.W2 m ρ c)).trans (W2_arg13 m ρ c)
theorem W6_arg13 (c : Dev nD) : Gen.W6 m ρ c (Proc.devRef .tc main_arg13) = m ((c : Thread nD τ).loc main_arg13) :=
  (Gen.W6_of_ne m ρ c main_arg13 (by decide)).trans (W5_arg13 m ρ c)
theorem W5_v1 (c : Dev nD) : Gen.W5 m ρ c (Proc.devRef .tc main_v1) = Cert.Spec.edgeSrc (m ((c : Thread nD τ).loc main_arg1)) :=
  (host1_v1 (Gen.W2 m ρ c)).trans (W2_v1 m ρ c)
theorem W6_v1 (c : Dev nD) : Gen.W6 m ρ c (Proc.devRef .tc main_v1) = Cert.Spec.edgeSrc (m ((c : Thread nD τ).loc main_arg1)) :=
  (Gen.W6_of_ne m ρ c main_v1 (by decide)).trans (W5_v1 m ρ c)
theorem W5_v3 (c : Dev nD) : Gen.W5 m ρ c (Proc.devRef .tc main_v3) = Cert.Spec.edgeDst (m ((c : Thread nD τ).loc main_arg1)) :=
  (host1_v3 (Gen.W2 m ρ c)).trans (W2_v3 m ρ c)
theorem W6_v3 (c : Dev nD) : Gen.W6 m ρ c (Proc.devRef .tc main_v3) = Cert.Spec.edgeDst (m ((c : Thread nD τ).loc main_arg1)) :=
  (Gen.W6_of_ne m ρ c main_v3 (by decide)).trans (W5_v3 m ρ c)
theorem W5_v12 (c : Dev nD) : Gen.W5 m ρ c (Proc.devRef .tc main_v12) = Cert.Spec.invDeg (m ((c : Thread nD τ).loc main_arg1)) :=
  (host1_v12 (Gen.W2 m ρ c)).trans (W2_v12 m ρ c)
theorem W6_v12 (c : Dev nD) : Gen.W6 m ρ c (Proc.devRef .tc main_v12) = Cert.Spec.invDeg (m ((c : Thread nD τ).loc main_arg1)) :=
  (Gen.W6_of_ne m ρ c main_v12 (by decide)).trans (W5_v12 m ρ c)
/-- Region 1's output array at its exit. -/
theorem W6_v35 (c : Dev nD) : Gen.W6 m ρ c (Proc.devRef .tc main_v35) = (Gen.dat1 (Gen.V5 m ρ) c).arrAt 5 cfg1.N := Gen.W6_arr m ρ c 5

/-! ## The stretch between regions 1 and 2, from any contents `X` -/

section Host2
variable (X : Valuation τ sig (Elt F))

theorem host2_v35 : StableHlo.after Gen.hostOps2 X (Proc.devRef .tc main_v35) = X (Proc.devRef .tc main_v35) := by
  after_results_simp
/-- The aggregation of the buffer the previous region wrote, the edge table's rows and the inverse in-degree being
    those the first stretch left. -/
theorem host2_v47 (ei : Cert.Spec.IArr F S2x1600000) (h1 : X (Proc.devRef .tc main_v1) = Cert.Spec.edgeSrc ei)
    (h3 : X (Proc.devRef .tc main_v3) = Cert.Spec.edgeDst ei) (h12 : X (Proc.devRef .tc main_v12) = Cert.Spec.invDeg ei) :
    StableHlo.after Gen.hostOps2 X (Proc.devRef .tc main_v47) = Cert.Spec.aggregate ei (X (Proc.devRef .tc main_v35)) := by
  after_results_simp
  rw [h1, h3, h12]
  rfl
theorem host2_v49 : StableHlo.after Gen.hostOps2 X (Proc.devRef .tc main_v49) = Cert.Spec.mat0 (X (Proc.devRef .tc main_arg7)) := by
  after_results_simp
  rfl
theorem host2_v51 : StableHlo.after Gen.hostOps2 X (Proc.devRef .tc main_v51) = Cert.Spec.mat0 (X (Proc.devRef .tc main_arg8)) := by
  after_results_simp
  rfl
theorem host2_v54 : StableHlo.after Gen.hostOps2 X (Proc.devRef .tc main_v54) = oneRow (Cert.Spec.vec0 (X (Proc.devRef .tc main_arg9))) := by
  after_results_simp
  rfl
theorem host2_arg7 : StableHlo.after Gen.hostOps2 X (Proc.devRef .tc main_arg7) = X (Proc.devRef .tc main_arg7) := by
  after_results_simp
theorem host2_arg8 : StableHlo.after Gen.hostOps2 X (Proc.devRef .tc main_arg8) = X (Proc.devRef .tc main_arg8) := by
  after_results_simp
theorem host2_arg9 : StableHlo.after Gen.hostOps2 X (Proc.devRef .tc main_arg9) = X (Proc.devRef .tc main_arg9) := by
  after_results_simp
theorem host2_arg10 : StableHlo.after Gen.hostOps2 X (Proc.devRef .tc main_arg10) = X (Proc.devRef .tc main_arg10) := by
  after_results_simp
theorem host2_arg11 : StableHlo.after Gen.hostOps2 X (Proc.devRef .tc main_arg11) = X (Proc.devRef .tc main_arg11) := by
  after_results_simp
theorem host2_arg12 : StableHlo.after Gen.hostOps2 X (Proc.devRef .tc main_arg12) = X (Proc.devRef .tc main_arg12) := by
  after_results_simp
theorem host2_arg13 : StableHlo.after Gen.hostOps2 X (Proc.devRef .tc main_arg13) = X (Proc.devRef .tc main_arg13) := by
  after_results_simp
theorem host2_v1 : StableHlo.after Gen.hostOps2 X (Proc.devRef .tc main_v1) = X (Proc.devRef .tc main_v1) := by
  after_results_simp
theorem host2_v3 : StableHlo.after Gen.hostOps2 X (Proc.devRef .tc main_v3) = X (Proc.devRef .tc main_v3) := by
  after_results_simp
theorem host2_v12 : StableHlo.after Gen.hostOps2 X (Proc.devRef .tc main_v12) = X (Proc.devRef .tc main_v12) := by
  after_results_simp

end Host2

/-! ## Region 2's input arrays at entry -/

/-- Input 0: the mean aggregation of region 1's output over the edge table. -/
theorem V7_w0 (c : Dev nD) : Gen.V7 m ρ c (Pipeline.arrRef spec2 0)
    = Cert.Spec.aggregate (m ((c : Thread nD τ).loc main_arg1)) ((Gen.dat1 (Gen.V5 m ρ) c).arrAt 5 cfg1.N) :=
  (host2_v47 (Gen.W6 m ρ c) (m ((c : Thread nD τ).loc main_arg1)) (W6_v1 m ρ c) (W6_v3 m ρ c) (W6_v12 m ρ c)).trans (by rw [W6_v35])
/-- Input 1: region 1's output array. -/
theorem V7_w1 (c : Dev nD) : Gen.V7 m ρ c (Pipeline.arrRef spec2 1) = (Gen.dat1 (Gen.V5 m ρ) c).arrAt 5 cfg1.N :=
  (host2_v35 (Gen.W6 m ρ c)).trans (W6_v35 m ρ c)
/-- Input 2: the second layer's weight on the aggregated features. -/
theorem V7_w2 (c : Dev nD) : Gen.V7 m ρ c (Pipeline.arrRef spec2 2) = Cert.Spec.mat0 (m ((c : Thread nD τ).loc main_arg7)) :=
  (host2_v49 (Gen.W6 m ρ c)).trans (by rw [W6_arg7])
/-- Input 3: the second layer's weight on the node's own features. -/
theorem V7_w3 (c : Dev nD) : Gen.V7 m ρ c (Pipeline.arrRef spec2 3) = Cert.Spec.mat0 (m ((c : Thread nD τ).loc main_arg8)) :=
  (host2_v51 (Gen.W6 m ρ c)).trans (by rw [W6_arg8])
/-- Input 4: the second layer's bias, as one row. -/
theorem V7_w4 (c : Dev nD) : Gen.V7 m ρ c (Pipeline.arrRef spec2 4) = oneRow (Cert.Spec.vec0 (m ((c : Thread nD τ).loc main_arg9))) :=
  (host2_v54 (Gen.W6 m ρ c)).trans (by rw [W6_arg9])
theorem W7_arg7 (c : Dev nD) : Gen.W7 m ρ c (Proc.devRef .tc main_arg7) = m ((c : Thread nD τ).loc main_arg7) :=
  (host2_arg7 (Gen.W6 m ρ c)).trans (W6_arg7 m ρ c)
theorem W8_arg7 (c : Dev nD) : Gen.W8 m ρ c (Proc.devRef .tc main_arg7) = m ((c : Thread nD τ).loc main_arg7) :=
  (Gen.W8_of_ne m ρ c main_arg7 (by decide)).trans (W7_arg7 m ρ c)
theorem W7_arg8 (c : Dev nD) : Gen.W7 m ρ c (Proc.devRef .tc main_arg8) = m ((c : Thread nD τ).loc main_arg8) :=
  (host2_arg8 (Gen.W6 m ρ c)).trans (W6_arg8 m ρ c)
theorem W8_arg8 (c : Dev nD) : Gen.W8 m ρ c (Proc.devRef .tc main_arg8) = m ((c : Thread nD τ).loc main_arg8) :=
  (Gen.W8_of_ne m ρ c main_arg8 (by decide)).trans (W7_arg8 m ρ c)
theorem W7_arg9 (c : Dev nD) : Gen.W7 m ρ c (Proc.devRef .tc main_arg9) = m ((c : Thread nD τ).loc main_arg9) :=
  (host2_arg9 (Gen.W6 m ρ c)).trans (W6_arg9 m ρ c)
theorem W8_arg9 (c : Dev nD) : Gen.W8 m ρ c (Proc.devRef .tc main_arg9) = m ((c : Thread nD τ).loc main_arg9) :=
  (Gen.W8_of_ne m ρ c main_arg9 (by decide)).trans (W7_arg9 m ρ c)
theorem W7_arg10 (c : Dev nD) : Gen.W7 m ρ c (Proc.devRef .tc main_arg10) = m ((c : Thread nD τ).loc main_arg10) :=
  (host2_arg10 (Gen.W6 m ρ c)).trans (W6_arg10 m ρ c)
theorem W8_arg10 (c : Dev nD) : Gen.W8 m ρ c (Proc.devRef .tc main_arg10) = m ((c : Thread nD τ).loc main_arg10) :=
  (Gen.W8_of_ne m ρ c main_arg10 (by decide)).trans (W7_arg10 m ρ c)
theorem W7_arg11 (c : Dev nD) : Gen.W7 m ρ c (Proc.devRef .tc main_arg11) = m ((c : Thread nD τ).loc main_arg11) :=
  (host2_arg11 (Gen.W6 m ρ c)).trans (W6_arg11 m ρ c)
theorem W8_arg11 (c : Dev nD) : Gen.W8 m ρ c (Proc.devRef .tc main_arg11) = m ((c : Thread nD τ).loc main_arg11) :=
  (Gen.W8_of_ne m ρ c main_arg11 (by decide)).trans (W7_arg11 m ρ c)
theorem W7_arg12 (c : Dev nD) : Gen.W7 m ρ c (Proc.devRef .tc main_arg12) = m ((c : Thread nD τ).loc main_arg12) :=
  (host2_arg12 (Gen.W6 m ρ c)).trans (W6_arg12 m ρ c)
theorem W8_arg12 (c : Dev nD) : Gen.W8 m ρ c (Proc.devRef .tc main_arg12) = m ((c : Thread nD τ).loc main_arg12) :=
  (Gen.W8_of_ne m ρ c main_arg12 (by decide)).trans (W7_arg12 m ρ c)
theorem W7_arg13 (c : Dev nD) : Gen.W7 m ρ c (Proc.devRef .tc main_arg13) = m ((c : Thread nD τ).loc main_arg13) :=
  (host2_arg13 (Gen.W6 m ρ c)).trans (W6_arg13 m ρ c)
theorem W8_arg13 (c : Dev nD) : Gen.W8 m ρ c (Proc.devRef .tc main_arg13) = m ((c : Thread nD τ).loc main_arg13) :=
  (Gen.W8_of_ne m ρ c main_arg13 (by decide)).trans (W7_arg13 m ρ c)
theorem W7_v1 (c : Dev nD) : Gen.W7 m ρ c (Proc.devRef .tc main_v1) = Cert.Spec.edgeSrc (m ((c : Thread nD τ).loc main_arg1)) :=
  (host2_v1 (Gen.W6 m ρ c)).trans (W6_v1 m ρ c)
theorem W8_v1 (c : Dev nD) : Gen.W8 m ρ c (Proc.devRef .tc main_v1) = Cert.Spec.edgeSrc (m ((c : Thread nD τ).loc main_arg1)) :=
  (Gen.W8_of_ne m ρ c main_v1 (by decide)).trans (W7_v1 m ρ c)
theorem W7_v3 (c : Dev nD) : Gen.W7 m ρ c (Proc.devRef .tc main_v3) = Cert.Spec.edgeDst (m ((c : Thread nD τ).loc main_arg1)) :=
  (host2_v3 (Gen.W6 m ρ c)).trans (W6_v3 m ρ c)
theorem W8_v3 (c : Dev nD) : Gen.W8 m ρ c (Proc.devRef .tc main_v3) = Cert.Spec.edgeDst (m ((c : Thread nD τ).loc main_arg1)) :=
  (Gen.W8_of_ne m ρ c main_v3 (by decide)).trans (W7_v3 m ρ c)
theorem W7_v12 (c : Dev nD) : Gen.W7 m ρ c (Proc.devRef .tc main_v12) = Cert.Spec.invDeg (m ((c : Thread nD τ).loc main_arg1)) :=
  (host2_v12 (Gen.W6 m ρ c)).trans (W6_v12 m ρ c)
theorem W8_v12 (c : Dev nD) : Gen.W8 m ρ c (Proc.devRef .tc main_v12) = Cert.Spec.invDeg (m ((c : Thread nD τ).loc main_arg1)) :=
  (Gen.W8_of_ne m ρ c main_v12 (by decide)).trans (W7_v12 m ρ c)
/-- Region 2's output array at its exit. -/
theorem W8_v55 (c : Dev nD) : Gen.W8 m ρ c (Proc.devRef .tc main_v55) = (Gen.dat2 (Gen.V7 m ρ) c).arrAt 5 cfg2.N := Gen.W8_arr m ρ c 5

/-! ## The three stretches between regions 2 and 3, from any contents `X` -/

section Host3
variable (X : Valuation τ sig (Elt F))

theorem host3_v55 : StableHlo.after Gen.hostOps3_2 (StableHlo.after Gen.hostOps3_1 (StableHlo.after Gen.hostOps3 X)) (Proc.devRef .tc main_v55) = X (Proc.devRef .tc main_v55) := by
  after_results_simp
theorem host3_v64 : StableHlo.after Gen.hostOps3_2 (StableHlo.after Gen.hostOps3_1 (StableHlo.after Gen.hostOps3 X)) (Proc.devRef .tc main_v64) = oneRow (Cert.Spec.colMean (X (Proc.devRef .tc main_v55))) := by
  after_results_simp
  rfl
theorem host3_v65 : StableHlo.after Gen.hostOps3_2 (StableHlo.after Gen.hostOps3_1 (StableHlo.after Gen.hostOps3 X)) (Proc.devRef .tc main_v65) = oneRow (Cert.Spec.colVar (X (Proc.devRef .tc main_v55))) := by
  after_results_simp
  rfl
theorem host3_v66 : StableHlo.after Gen.hostOps3_2 (StableHlo.after Gen.hostOps3_1 (StableHlo.after Gen.hostOps3 X)) (Proc.devRef .tc main_v66) = oneRow (Cert.Spec.vec0 (X (Proc.devRef .tc main_arg10))) := by
  after_results_simp
  rfl
theorem host3_v67 : StableHlo.after Gen.hostOps3_2 (StableHlo.after Gen.hostOps3_1 (StableHlo.after Gen.hostOps3 X)) (Proc.devRef .tc main_v67) = oneRow (Cert.Spec.vec0 (X (Proc.devRef .tc main_arg11))) := by
  after_results_simp
  rfl
theorem host3_arg7 : StableHlo.after Gen.hostOps3_2 (StableHlo.after Gen.hostOps3_1 (StableHlo.after Gen.hostOps3 X)) (Proc.devRef .tc main_arg7) = X (Proc.devRef .tc main_arg7) := by
  after_results_simp
theorem host3_arg8 : StableHlo.after Gen.hostOps3_2 (StableHlo.after Gen.hostOps3_1 (StableHlo.after Gen.hostOps3 X)) (Proc.devRef .tc main_arg8) = X (Proc.devRef .tc main_arg8) := by
  after_results_simp
theorem host3_arg9 : StableHlo.after Gen.hostOps3_2 (StableHlo.after Gen.hostOps3_1 (StableHlo.after Gen.hostOps3 X)) (Proc.devRef .tc main_arg9) = X (Proc.devRef .tc main_arg9) := by
  after_results_simp
theorem host3_arg10 : StableHlo.after Gen.hostOps3_2 (StableHlo.after Gen.hostOps3_1 (StableHlo.after Gen.hostOps3 X)) (Proc.devRef .tc main_arg10) = X (Proc.devRef .tc main_arg10) := by
  after_results_simp
theorem host3_arg11 : StableHlo.after Gen.hostOps3_2 (StableHlo.after Gen.hostOps3_1 (StableHlo.after Gen.hostOps3 X)) (Proc.devRef .tc main_arg11) = X (Proc.devRef .tc main_arg11) := by
  after_results_simp
theorem host3_arg12 : StableHlo.after Gen.hostOps3_2 (StableHlo.after Gen.hostOps3_1 (StableHlo.after Gen.hostOps3 X)) (Proc.devRef .tc main_arg12) = X (Proc.devRef .tc main_arg12) := by
  after_results_simp
theorem host3_arg13 : StableHlo.after Gen.hostOps3_2 (StableHlo.after Gen.hostOps3_1 (StableHlo.after Gen.hostOps3 X)) (Proc.devRef .tc main_arg13) = X (Proc.devRef .tc main_arg13) := by
  after_results_simp
theorem host3_v1 : StableHlo.after Gen.hostOps3_2 (StableHlo.after Gen.hostOps3_1 (StableHlo.after Gen.hostOps3 X)) (Proc.devRef .tc main_v1) = X (Proc.devRef .tc main_v1) := by
  after_results_simp
theorem host3_v3 : StableHlo.after Gen.hostOps3_2 (StableHlo.after Gen.hostOps3_1 (StableHlo.after Gen.hostOps3 X)) (Proc.devRef .tc main_v3) = X (Proc.devRef .tc main_v3) := by
  after_results_simp
theorem host3_v12 : StableHlo.after Gen.hostOps3_2 (StableHlo.after Gen.hostOps3_1 (StableHlo.after Gen.hostOps3 X)) (Proc.devRef .tc main_v12) = X (Proc.devRef .tc main_v12) := by
  after_results_simp

end Host3

/-! ## Region 3's input arrays at entry -/

/-- Input 0: region 2's output array. -/
theorem V11_w0 (c : Dev nD) : Gen.V11 m ρ c (Pipeline.arrRef spec3 0) = (Gen.dat2 (Gen.V7 m ρ) c).arrAt 5 cfg2.N :=
  (host3_v55 (Gen.W8 m ρ c)).trans (W8_v55 m ρ c)
/-- Input 1: the channel mean of region 2's output, as one row. -/
theorem V11_w1 (c : Dev nD) : Gen.V11 m ρ c (Pipeline.arrRef spec3 1)
    = oneRow (Cert.Spec.colMean ((Gen.dat2 (Gen.V7 m ρ) c).arrAt 5 cfg2.N)) :=
  (host3_v64 (Gen.W8 m ρ c)).trans (by rw [W8_v55])
/-- Input 2: the channel variance of region 2's output, as one row. -/
theorem V11_w2 (c : Dev nD) : Gen.V11 m ρ c (Pipeline.arrRef spec3 2)
    = oneRow (Cert.Spec.colVar ((Gen.dat2 (Gen.V7 m ρ) c).arrAt 5 cfg2.N)) :=
  (host3_v65 (Gen.W8 m ρ c)).trans (by rw [W8_v55])
/-- Input 3: the second layer's scale, as one row. -/
theorem V11_w3 (c : Dev nD) : Gen.V11 m ρ c (Pipeline.arrRef spec3 3) = oneRow (Cert.Spec.vec0 (m ((c : Thread nD τ).loc main_arg10))) :=
  (host3_v66 (Gen.W8 m ρ c)).trans (by rw [W8_arg10])
/-- Input 4: the second layer's shift, as one row. -/
theorem V11_w4 (c : Dev nD) : Gen.V11 m ρ c (Pipeline.arrRef spec3 4) = oneRow (Cert.Spec.vec0 (m ((c : Thread nD τ).loc main_arg11))) :=
  (host3_v67 (Gen.W8 m ρ c)).trans (by rw [W8_arg11])
theorem W11_arg7 (c : Dev nD) : Gen.W11 m ρ c (Proc.devRef .tc main_arg7) = m ((c : Thread nD τ).loc main_arg7) :=
  (host3_arg7 (Gen.W8 m ρ c)).trans (W8_arg7 m ρ c)
theorem W12_arg7 (c : Dev nD) : Gen.W12 m ρ c (Proc.devRef .tc main_arg7) = m ((c : Thread nD τ).loc main_arg7) :=
  (Gen.W12_of_ne m ρ c main_arg7 (by decide)).trans (W11_arg7 m ρ c)
theorem W11_arg8 (c : Dev nD) : Gen.W11 m ρ c (Proc.devRef .tc main_arg8) = m ((c : Thread nD τ).loc main_arg8) :=
  (host3_arg8 (Gen.W8 m ρ c)).trans (W8_arg8 m ρ c)
theorem W12_arg8 (c : Dev nD) : Gen.W12 m ρ c (Proc.devRef .tc main_arg8) = m ((c : Thread nD τ).loc main_arg8) :=
  (Gen.W12_of_ne m ρ c main_arg8 (by decide)).trans (W11_arg8 m ρ c)
theorem W11_arg9 (c : Dev nD) : Gen.W11 m ρ c (Proc.devRef .tc main_arg9) = m ((c : Thread nD τ).loc main_arg9) :=
  (host3_arg9 (Gen.W8 m ρ c)).trans (W8_arg9 m ρ c)
theorem W12_arg9 (c : Dev nD) : Gen.W12 m ρ c (Proc.devRef .tc main_arg9) = m ((c : Thread nD τ).loc main_arg9) :=
  (Gen.W12_of_ne m ρ c main_arg9 (by decide)).trans (W11_arg9 m ρ c)
theorem W11_arg10 (c : Dev nD) : Gen.W11 m ρ c (Proc.devRef .tc main_arg10) = m ((c : Thread nD τ).loc main_arg10) :=
  (host3_arg10 (Gen.W8 m ρ c)).trans (W8_arg10 m ρ c)
theorem W12_arg10 (c : Dev nD) : Gen.W12 m ρ c (Proc.devRef .tc main_arg10) = m ((c : Thread nD τ).loc main_arg10) :=
  (Gen.W12_of_ne m ρ c main_arg10 (by decide)).trans (W11_arg10 m ρ c)
theorem W11_arg11 (c : Dev nD) : Gen.W11 m ρ c (Proc.devRef .tc main_arg11) = m ((c : Thread nD τ).loc main_arg11) :=
  (host3_arg11 (Gen.W8 m ρ c)).trans (W8_arg11 m ρ c)
theorem W12_arg11 (c : Dev nD) : Gen.W12 m ρ c (Proc.devRef .tc main_arg11) = m ((c : Thread nD τ).loc main_arg11) :=
  (Gen.W12_of_ne m ρ c main_arg11 (by decide)).trans (W11_arg11 m ρ c)
theorem W11_arg12 (c : Dev nD) : Gen.W11 m ρ c (Proc.devRef .tc main_arg12) = m ((c : Thread nD τ).loc main_arg12) :=
  (host3_arg12 (Gen.W8 m ρ c)).trans (W8_arg12 m ρ c)
theorem W12_arg12 (c : Dev nD) : Gen.W12 m ρ c (Proc.devRef .tc main_arg12) = m ((c : Thread nD τ).loc main_arg12) :=
  (Gen.W12_of_ne m ρ c main_arg12 (by decide)).trans (W11_arg12 m ρ c)
theorem W11_arg13 (c : Dev nD) : Gen.W11 m ρ c (Proc.devRef .tc main_arg13) = m ((c : Thread nD τ).loc main_arg13) :=
  (host3_arg13 (Gen.W8 m ρ c)).trans (W8_arg13 m ρ c)
theorem W12_arg13 (c : Dev nD) : Gen.W12 m ρ c (Proc.devRef .tc main_arg13) = m ((c : Thread nD τ).loc main_arg13) :=
  (Gen.W12_of_ne m ρ c main_arg13 (by decide)).trans (W11_arg13 m ρ c)
theorem W11_v1 (c : Dev nD) : Gen.W11 m ρ c (Proc.devRef .tc main_v1) = Cert.Spec.edgeSrc (m ((c : Thread nD τ).loc main_arg1)) :=
  (host3_v1 (Gen.W8 m ρ c)).trans (W8_v1 m ρ c)
theorem W12_v1 (c : Dev nD) : Gen.W12 m ρ c (Proc.devRef .tc main_v1) = Cert.Spec.edgeSrc (m ((c : Thread nD τ).loc main_arg1)) :=
  (Gen.W12_of_ne m ρ c main_v1 (by decide)).trans (W11_v1 m ρ c)
theorem W11_v3 (c : Dev nD) : Gen.W11 m ρ c (Proc.devRef .tc main_v3) = Cert.Spec.edgeDst (m ((c : Thread nD τ).loc main_arg1)) :=
  (host3_v3 (Gen.W8 m ρ c)).trans (W8_v3 m ρ c)
theorem W12_v3 (c : Dev nD) : Gen.W12 m ρ c (Proc.devRef .tc main_v3) = Cert.Spec.edgeDst (m ((c : Thread nD τ).loc main_arg1)) :=
  (Gen.W12_of_ne m ρ c main_v3 (by decide)).trans (W11_v3 m ρ c)
theorem W11_v12 (c : Dev nD) : Gen.W11 m ρ c (Proc.devRef .tc main_v12) = Cert.Spec.invDeg (m ((c : Thread nD τ).loc main_arg1)) :=
  (host3_v12 (Gen.W8 m ρ c)).trans (W8_v12 m ρ c)
theorem W12_v12 (c : Dev nD) : Gen.W12 m ρ c (Proc.devRef .tc main_v12) = Cert.Spec.invDeg (m ((c : Thread nD τ).loc main_arg1)) :=
  (Gen.W12_of_ne m ρ c main_v12 (by decide)).trans (W11_v12 m ρ c)
/-- Region 3's output array at its exit. -/
theorem W12_v68 (c : Dev nD) : Gen.W12 m ρ c (Proc.devRef .tc main_v68) = (Gen.dat3 (Gen.V11 m ρ) c).arrAt 5 cfg3.N := Gen.W12_arr m ρ c 5

/-! ## The stretch between regions 3 and 4, from any contents `X` -/

section Host4
variable (X : Valuation τ sig (Elt F))

theorem host4_v68 : StableHlo.after Gen.hostOps4 X (Proc.devRef .tc main_v68) = X (Proc.devRef .tc main_v68) := by
  after_results_simp
/-- The aggregation of the buffer the previous region wrote, the edge table's rows and the inverse in-degree being
    those the first stretch left. -/
theorem host4_v80 (ei : Cert.Spec.IArr F S2x1600000) (h1 : X (Proc.devRef .tc main_v1) = Cert.Spec.edgeSrc ei)
    (h3 : X (Proc.devRef .tc main_v3) = Cert.Spec.edgeDst ei) (h12 : X (Proc.devRef .tc main_v12) = Cert.Spec.invDeg ei) :
    StableHlo.after Gen.hostOps4 X (Proc.devRef .tc main_v80) = Cert.Spec.aggregate ei (X (Proc.devRef .tc main_v68)) := by
  after_results_simp
  rw [h1, h3, h12]
  rfl
theorem host4_v82 : StableHlo.after Gen.hostOps4 X (Proc.devRef .tc main_v82) = Cert.Spec.mat1 (X (Proc.devRef .tc main_arg7)) := by
  after_results_simp
  rfl
theorem host4_v84 : StableHlo.after Gen.hostOps4 X (Proc.devRef .tc main_v84) = Cert.Spec.mat1 (X (Proc.devRef .tc main_arg8)) := by
  after_results_simp
  rfl
theorem host4_v87 : StableHlo.after Gen.hostOps4 X (Proc.devRef .tc main_v87) = oneRow (Cert.Spec.vec1 (X (Proc.devRef .tc main_arg9))) := by
  after_results_simp
  rfl
theorem host4_arg10 : StableHlo.after Gen.hostOps4 X (Proc.devRef .tc main_arg10) = X (Proc.devRef .tc main_arg10) := by
  after_results_simp
theorem host4_arg11 : StableHlo.after Gen.hostOps4 X (Proc.devRef .tc main_arg11) = X (Proc.devRef .tc main_arg11) := by
  after_results_simp
theorem host4_arg12 : StableHlo.after Gen.hostOps4 X (Proc.devRef .tc main_arg12) = X (Proc.devRef .tc main_arg12) := by
  after_results_simp
theorem host4_arg13 : StableHlo.after Gen.hostOps4 X (Proc.devRef .tc main_arg13) = X (Proc.devRef .tc main_arg13) := by
  after_results_simp

end Host4

/-! ## Region 4's input arrays at entry -/

/-- Input 0: the mean aggregation of region 3's output over the edge table. -/
theorem V13_w0 (c : Dev nD) : Gen.V13 m ρ c (Pipeline.arrRef spec4 0)
    = Cert.Spec.aggregate (m ((c : Thread nD τ).loc main_arg1)) ((Gen.dat3 (Gen.V11 m ρ) c).arrAt 5 cfg3.N) :=
  (host4_v80 (Gen.W12 m ρ c) (m ((c : Thread nD τ).loc main_arg1)) (W12_v1 m ρ c) (W12_v3 m ρ c) (W12_v12 m ρ c)).trans (by rw [W12_v68])
/-- Input 1: region 3's output array. -/
theorem V13_w1 (c : Dev nD) : Gen.V13 m ρ c (Pipeline.arrRef spec4 1) = (Gen.dat3 (Gen.V11 m ρ) c).arrAt 5 cfg3.N :=
  (host4_v68 (Gen.W12 m ρ c)).trans (W12_v68 m ρ c)
/-- Input 2: the third layer's weight on the aggregated features. -/
theorem V13_w2 (c : Dev nD) : Gen.V13 m ρ c (Pipeline.arrRef spec4 2) = Cert.Spec.mat1 (m ((c : Thread nD τ).loc main_arg7)) :=
  (host4_v82 (Gen.W12 m ρ c)).trans (by rw [W12_arg7])
/-- Input 3: the third layer's weight on the node's own features. -/
theorem V13_w3 (c : Dev nD) : Gen.V13 m ρ c (Pipeline.arrRef spec4 3) = Cert.Spec.mat1 (m ((c : Thread nD τ).loc main_arg8)) :=
  (host4_v84 (Gen.W12 m ρ c)).trans (by rw [W12_arg8])
/-- Input 4: the third layer's bias, as one row. -/
theorem V13_w4 (c : Dev nD) : Gen.V13 m ρ c (Pipeline.arrRef spec4 4) = oneRow (Cert.Spec.vec1 (m ((c : Thread nD τ).loc main_arg9))) :=
  (host4_v87 (Gen.W12 m ρ c)).trans (by rw [W12_arg9])
theorem W13_arg10 (c : Dev nD) : Gen.W13 m ρ c (Proc.devRef .tc main_arg10) = m ((c : Thread nD τ).loc main_arg10) :=
  (host4_arg10 (Gen.W12 m ρ c)).trans (W12_arg10 m ρ c)
theorem W14_arg10 (c : Dev nD) : Gen.W14 m ρ c (Proc.devRef .tc main_arg10) = m ((c : Thread nD τ).loc main_arg10) :=
  (Gen.W14_of_ne m ρ c main_arg10 (by decide)).trans (W13_arg10 m ρ c)
theorem W13_arg11 (c : Dev nD) : Gen.W13 m ρ c (Proc.devRef .tc main_arg11) = m ((c : Thread nD τ).loc main_arg11) :=
  (host4_arg11 (Gen.W12 m ρ c)).trans (W12_arg11 m ρ c)
theorem W14_arg11 (c : Dev nD) : Gen.W14 m ρ c (Proc.devRef .tc main_arg11) = m ((c : Thread nD τ).loc main_arg11) :=
  (Gen.W14_of_ne m ρ c main_arg11 (by decide)).trans (W13_arg11 m ρ c)
theorem W13_arg12 (c : Dev nD) : Gen.W13 m ρ c (Proc.devRef .tc main_arg12) = m ((c : Thread nD τ).loc main_arg12) :=
  (host4_arg12 (Gen.W12 m ρ c)).trans (W12_arg12 m ρ c)
theorem W14_arg12 (c : Dev nD) : Gen.W14 m ρ c (Proc.devRef .tc main_arg12) = m ((c : Thread nD τ).loc main_arg12) :=
  (Gen.W14_of_ne m ρ c main_arg12 (by decide)).trans (W13_arg12 m ρ c)
theorem W13_arg13 (c : Dev nD) : Gen.W13 m ρ c (Proc.devRef .tc main_arg13) = m ((c : Thread nD τ).loc main_arg13) :=
  (host4_arg13 (Gen.W12 m ρ c)).trans (W12_arg13 m ρ c)
theorem W14_arg13 (c : Dev nD) : Gen.W14 m ρ c (Proc.devRef .tc main_arg13) = m ((c : Thread nD τ).loc main_arg13) :=
  (Gen.W14_of_ne m ρ c main_arg13 (by decide)).trans (W13_arg13 m ρ c)
/-- Region 4's output array at its exit. -/
theorem W14_v88 (c : Dev nD) : Gen.W14 m ρ c (Proc.devRef .tc main_v88) = (Gen.dat4 (Gen.V13 m ρ) c).arrAt 5 cfg4.N := Gen.W14_arr m ρ c 5

/-! ## The three stretches between regions 4 and 5, from any contents `X` -/

section Host5
variable (X : Valuation τ sig (Elt F))

theorem host5_v88 : StableHlo.after Gen.hostOps5_2 (StableHlo.after Gen.hostOps5_1 (StableHlo.after Gen.hostOps5 X)) (Proc.devRef .tc main_v88) = X (Proc.devRef .tc main_v88) := by
  after_results_simp
theorem host5_v97 : StableHlo.after Gen.hostOps5_2 (StableHlo.after Gen.hostOps5_1 (StableHlo.after Gen.hostOps5 X)) (Proc.devRef .tc main_v97) = oneRow (Cert.Spec.colMean (X (Proc.devRef .tc main_v88))) := by
  after_results_simp
  rfl
theorem host5_v98 : StableHlo.after Gen.hostOps5_2 (StableHlo.after Gen.hostOps5_1 (StableHlo.after Gen.hostOps5 X)) (Proc.devRef .tc main_v98) = oneRow (Cert.Spec.colVar (X (Proc.devRef .tc main_v88))) := by
  after_results_simp
  rfl
theorem host5_v99 : StableHlo.after Gen.hostOps5_2 (StableHlo.after Gen.hostOps5_1 (StableHlo.after Gen.hostOps5 X)) (Proc.devRef .tc main_v99) = oneRow (Cert.Spec.vec1 (X (Proc.devRef .tc main_arg10))) := by
  after_results_simp
  rfl
theorem host5_v100 : StableHlo.after Gen.hostOps5_2 (StableHlo.after Gen.hostOps5_1 (StableHlo.after Gen.hostOps5 X)) (Proc.devRef .tc main_v100) = oneRow (Cert.Spec.vec1 (X (Proc.devRef .tc main_arg11))) := by
  after_results_simp
  rfl
theorem host5_arg12 : StableHlo.after Gen.hostOps5_2 (StableHlo.after Gen.hostOps5_1 (StableHlo.after Gen.hostOps5 X)) (Proc.devRef .tc main_arg12) = X (Proc.devRef .tc main_arg12) := by
  after_results_simp
theorem host5_arg13 : StableHlo.after Gen.hostOps5_2 (StableHlo.after Gen.hostOps5_1 (StableHlo.after Gen.hostOps5 X)) (Proc.devRef .tc main_arg13) = X (Proc.devRef .tc main_arg13) := by
  after_results_simp

end Host5

/-! ## Region 5's input arrays at entry -/

/-- Input 0: region 4's output array. -/
theorem V17_w0 (c : Dev nD) : Gen.V17 m ρ c (Pipeline.arrRef spec5 0) = (Gen.dat4 (Gen.V13 m ρ) c).arrAt 5 cfg4.N :=
  (host5_v88 (Gen.W14 m ρ c)).trans (W14_v88 m ρ c)
/-- Input 1: the channel mean of region 4's output, as one row. -/
theorem V17_w1 (c : Dev nD) : Gen.V17 m ρ c (Pipeline.arrRef spec5 1)
    = oneRow (Cert.Spec.colMean ((Gen.dat4 (Gen.V13 m ρ) c).arrAt 5 cfg4.N)) :=
  (host5_v97 (Gen.W14 m ρ c)).trans (by rw [W14_v88])
/-- Input 2: the channel variance of region 4's output, as one row. -/
theorem V17_w2 (c : Dev nD) : Gen.V17 m ρ c (Pipeline.arrRef spec5 2)
    = oneRow (Cert.Spec.colVar ((Gen.dat4 (Gen.V13 m ρ) c).arrAt 5 cfg4.N)) :=
  (host5_v98 (Gen.W14 m ρ c)).trans (by rw [W14_v88])
/-- Input 3: the third layer's scale, as one row. -/
theorem V17_w3 (c : Dev nD) : Gen.V17 m ρ c (Pipeline.arrRef spec5 3) = oneRow (Cert.Spec.vec1 (m ((c : Thread nD τ).loc main_arg10))) :=
  (host5_v99 (Gen.W14 m ρ c)).trans (by rw [W14_arg10])
/-- Input 4: the third layer's shift, as one row. -/
theorem V17_w4 (c : Dev nD) : Gen.V17 m ρ c (Pipeline.arrRef spec5 4) = oneRow (Cert.Spec.vec1 (m ((c : Thread nD τ).loc main_arg11))) :=
  (host5_v100 (Gen.W14 m ρ c)).trans (by rw [W14_arg11])
theorem W17_arg12 (c : Dev nD) : Gen.W17 m ρ c (Proc.devRef .tc main_arg12) = m ((c : Thread nD τ).loc main_arg12) :=
  (host5_arg12 (Gen.W14 m ρ c)).trans (W14_arg12 m ρ c)
theorem W18_arg12 (c : Dev nD) : Gen.W18 m ρ c (Proc.devRef .tc main_arg12) = m ((c : Thread nD τ).loc main_arg12) :=
  (Gen.W18_of_ne m ρ c main_arg12 (by decide)).trans (W17_arg12 m ρ c)
theorem W17_arg13 (c : Dev nD) : Gen.W17 m ρ c (Proc.devRef .tc main_arg13) = m ((c : Thread nD τ).loc main_arg13) :=
  (host5_arg13 (Gen.W14 m ρ c)).trans (W14_arg13 m ρ c)
theorem W18_arg13 (c : Dev nD) : Gen.W18 m ρ c (Proc.devRef .tc main_arg13) = m ((c : Thread nD τ).loc main_arg13) :=
  (Gen.W18_of_ne m ρ c main_arg13 (by decide)).trans (W17_arg13 m ρ c)
/-- Region 5's output array at its exit. -/
theorem W18_v101 (c : Dev nD) : Gen.W18 m ρ c (Proc.devRef .tc main_v101) = (Gen.dat5 (Gen.V17 m ρ) c).arrAt 5 cfg5.N := Gen.W18_arr m ρ c 5

/-! ## The stretch between regions 5 and 6, from any contents `X` -/

section Host6
variable (X : Valuation τ sig (Elt F))

theorem host6_v101 : StableHlo.after Gen.hostOps6 X (Proc.devRef .tc main_v101) = X (Proc.devRef .tc main_v101) := by
  after_results_simp
theorem host6_arg12 : StableHlo.after Gen.hostOps6 X (Proc.devRef .tc main_arg12) = X (Proc.devRef .tc main_arg12) := by
  after_results_simp
theorem host6_v102 : StableHlo.after Gen.hostOps6 X (Proc.devRef .tc main_v102) = oneRow10 (X (Proc.devRef .tc main_arg13)) := by
  after_results_simp
  rfl

end Host6

/-! ## Region 6's input arrays at entry -/

/-- Input 0: region 5's output array. -/
theorem V19_w0 (c : Dev nD) : Gen.V19 m ρ c (Pipeline.arrRef spec6 0) = (Gen.dat5 (Gen.V17 m ρ) c).arrAt 5 cfg5.N :=
  (host6_v101 (Gen.W18 m ρ c)).trans (W18_v101 m ρ c)
/-- Input 1: the read-out weight. -/
theorem V19_w1 (c : Dev nD) : Gen.V19 m ρ c (Pipeline.arrRef spec6 1) = m ((c : Thread nD τ).loc main_arg12) :=
  (host6_arg12 (Gen.W18 m ρ c)).trans (W18_arg12 m ρ c)
/-- Input 2: the read-out bias, as one row. -/
theorem V19_w2 (c : Dev nD) : Gen.V19 m ρ c (Pipeline.arrRef spec6 2) = oneRow10 (m ((c : Thread nD τ).loc main_arg13)) :=
  (host6_v102 (Gen.W18 m ρ c)).trans (by rw [W18_arg13])

/-! ## One row by a reshape is one row by a broadcast -/

/-- A vector laid out as a single row by a reshape is the vector broadcast along axis 1 of the one-row shape: entry
    `(0, t)` of either is entry `t` of the vector. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ValueIdx.ix1 (i 1 : Fin n)) (by
    rw [Shape.rowMajor_val_two, Shape.rowMajor_val_one]
    show (i 1).val = (i 0).val * n + (i 1).val
    have h0 : (i 0).val < 1 := (i 0).isLt
    have e0 : (i 0).val = 0 := by omega
    rw [e0]; omega)
  have e3 := broadcastInDim_apply ![1] hd x i (ValueIdx.ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

/-- The reshape of 128 channels to one row is the specification's row. -/
theorem oneRow_eq_rowOf (b : Cert.Spec.Arr F S128) : oneRow b = Cert.Spec.rowOf b :=
  shapeCast_row_eq_broadcastInDim b _ _
/-- The reshape of ten classes to one row is the broadcast along axis 1 the read-out's bias row is. -/
theorem oneRow10_eq_broadcastInDim (b : Cert.Spec.Arr F S10) :
    oneRow10 b = broadcastInDim Cert.ReferenceIdeal.S1x10 ![1] Cert.ReferenceIdeal.Facts₀.bcast_S10_S1x10_1 b :=
  shapeCast_row_eq_broadcastInDim b _ _

end Cert.KernelIdeal.KerRead

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.Sage0.lean ====
/-
  Region 0 (the first layer's linear part), read as a value: block `t` of the output array holds, at row `r` and
  channel `q`, the sum over `k` of the aggregated row times `Wl`'s column, plus the sum over `k` of the node's own row
  times `Wr`'s column, plus the bias row at `q` — rows `5000 t … 5000 t + 4999` of ONE function of the whole arrays.
-/
import proofs.«131058_j47364899340882_1_alg».proof.Proof.Gen.KernelIdeal.Frame
import proofs.«131058_j47364899340882_1_alg».proof.Proof.LibDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Sage0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Entry (p, q) of the linear part, of whole arrays. -/
def entry {R : Nat} (agg h : (⟨2, ![R, 128]⟩ : Shape).Idx → EReal) (Wl Wr : (⟨2, ![128, 128]⟩ : Shape).Idx → EReal)
    (b2 : (⟨2, ![1, 128]⟩ : Shape).Idx → EReal) (p : Fin R) (q : Fin 128) : EReal :=
  (∑ k : Fin 128, agg (ix2 p k) * Wl (ix2 k q)) + (∑ k : Fin 128, h (ix2 p k) * Wr (ix2 k q)) + b2 (ix2 (0 : Fin 1) q)

theorem plainK : Cert.LibDot.IsPlain dot_S5000x128_S128x128_S5000x128_1_0_0_1_n_n := ⟨rfl, rfl, rfl, rfl, rfl, rfl⟩

/-- The body's payload at (r, q) is the entry of its blocks. -/
theorem pay_apply (x0 x1 : Vec Ideal S5000x128 .f32) (x2 x3 : Vec Ideal S128x128 .f32) (x4 : Vec Ideal S1x128 .f32)
    (r : Fin 5000) (q : Fin 128) :
    k0_pay1 x0 x1 x2 x3 x4 (ix2 r q) = entry x0 x1 x2 x3 x4 r q := by
  unfold k0_pay1 entry
  simp only [shapeCast_self]
  show (_ + _) + _ = _
  refine congrArg₂ (· + ·) (congrArg₂ (· + ·) ?_ ?_) ?_
  · exact Cert.LibDot.matmul_zero_apply _ plainK none _ _ r q
  · exact Cert.LibDot.matmul_zero_apply _ plainK none _ _ r q
  · exact broadcastTo_1b_ab_apply x4 _ r q

variable (V : (c : Dev nD) → (b : Ref sig .tc) → Buf (Elt Ideal) ((c : Thread nD τ).loc b))

theorem hz : (![0, 0] : Fin 2 → Nat) = fun _ => 0 := funext fun a => by fin_cases a <;> rfl

/-- The whole output array: the linear part of the arrays the region finds. -/
def G (c : Dev nD) : S100000x128.Idx → EReal := fun i =>
  entry (V c main_v24) (V c main_arg0) (V c main_arg2) (V c main_arg3) (V c main_v25) (i 0) (i 1)

/-- The printed index maps over the grid: the two row-blocked inputs move with the output's row block, the weights and
    the bias row stay at block (0, 0), and the output's block row is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row-blocked input's block at point `t` is rows `5000 t …` of its array. -/
theorem read_rows (c : Dev nD) (t : Fin cfg0.N) (r : Fin 5000) (k : Fin 128) (p : Fin 100000) (hp : p.val = t.val * 5000 + r.val) :
    iblk0 V c 0 t (ix2 r k) = V c main_v24 (ix2 p k) ∧ iblk0 V c 1 t (ix2 r k) = V c main_arg0 (ix2 p k) := by
  obtain ⟨e00, e01, e10, e11, e20, e21, e30, e31, e40, e41, e50, e51⟩ := idx_facts t
  constructor
  · show V c main_v24 (((cfg0.win 0).blk t).view.emb (ix2 r k)) = V c main_v24 (ix2 p k)
    refine congrArg _ (funext fun a => Fin.ext ?_)
    match a with
    | ⟨0, _⟩ => show win0_0.index t (0 : Fin 2) * 5000 + 1 * r.val = p.val; omega
    | ⟨1, _⟩ => show win0_0.index t (1 : Fin 2) * 128 + 1 * k.val = k.val; omega
  · show V c main_arg0 (((cfg0.win 1).blk t).view.emb (ix2 r k)) = V c main_arg0 (ix2 p k)
    refine congrArg _ (funext fun a => Fin.ext ?_)
    match a with
    | ⟨0, _⟩ => show win0_1.index t (0 : Fin 2) * 5000 + 1 * r.val = p.val; omega
    | ⟨1, _⟩ => show win0_1.index t (1 : Fin 2) * 128 + 1 * k.val = k.val; omega

/-- The weight blocks are the whole weight arrays, and the bias block the whole bias row, at every point. -/
theorem read_whole (c : Dev nD) (t : Fin cfg0.N) :
    (∀ (k q : Fin 128), iblk0 V c 2 t (ix2 k q) = V c main_arg2 (ix2 k q))
    ∧ (∀ (k q : Fin 128), iblk0 V c 3 t (ix2 k q) = V c main_arg3 (ix2 k q))
    ∧ (∀ (q : Fin 128), iblk0 V c 4 t (ix2 (0 : Fin 1) q) = V c main_v25 (ix2 (0 : Fin 1) q)) := by
  obtain ⟨e00, e01, e10, e11, e20, e21, e30, e31, e40, e41, e50, e51⟩ := idx_facts t
  refine ⟨fun k q => ?_, fun k q => ?_, fun q => ?_⟩
  · show V c main_arg2 (((cfg0.win 2).blk t).view.emb (ix2 k q)) = V c main_arg2 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · show V c main_arg3 (((cfg0.win 3).blk t).view.emb (ix2 k q)) = V c main_arg3 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_v25 (((cfg0.win 4).blk t).view.emb (ix2 (0 : Fin 1) q)) = V c main_v25 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨r, q, rfl⟩ : ∃ (r : Fin 5000) (q : Fin 128), j = ix2 r q := ⟨j 0, j 1, eq_ix2 j⟩
  have ht : t.val < 20 := t.isLt
  have hr : r.val < 5000 := r.isLt
  obtain ⟨hW2, hW3, hB⟩ := read_whole V c t
  show k0_pay1 (iblk0 V c 0 t) (iblk0 V c 1 t) (iblk0 V c 2 t) (iblk0 V c 3 t) (iblk0 V c 4 t) (ix2 r q)
    = G V c (((cfg0.win 5).blk t).view.emb (ix2 r q))
  refine (pay_apply _ _ _ _ _ r q).trans ?_
  have hi : ((cfg0.win 5).blk t).view.emb (ix2 r q) = ix2 (⟨t.val * 5000 + r.val, by omega⟩ : Fin 100000) q :=
    funext fun a => Fin.ext (by
      match a with
      | ⟨0, _⟩ => show win0_5.index t (0 : Fin 2) * 5000 + 1 * r.val = t.val * 5000 + r.val; omega
      | ⟨1, _⟩ => show win0_5.index t (1 : Fin 2) * 128 + 1 * q.val = q.val; omega)
  rw [hi]
  unfold G entry
  refine congrArg₂ (· + ·) (congrArg₂ (· + ·) (Finset.sum_congr rfl fun k _ => ?_) (Finset.sum_congr rfl fun k _ => ?_)) ?_
  · rw [(read_rows V c t r k ⟨t.val * 5000 + r.val, by omega⟩ rfl).1, hW2]
  · rw [(read_rows V c t r k ⟨t.val * 5000 + r.val, by omega⟩ rfl).2, hW3]
  · rw [hB]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row belongs to the block of the point numbered by its row divided by 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  refine ⟨⟨(i 0).val / 5000, by show (i 0).val / 5000 < grid0.N; omega⟩, flush0_5 _, ?_⟩
  rw [mem_blk]
  obtain ⟨e00, e01, e10, e11, e20, e21, e30, e31, e40, e41, e50, e51⟩ := idx_facts ⟨(i 0).val / 5000, by show (i 0).val / 5000 < grid0.N; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

/-- The output array after the region: the linear part of the arrays the region finds, at every entry. -/
theorem final (c : Dev nD) : (dat0 V c).arrAt 5 cfg0.N = G V c :=
  (dat0 V c).arrAt_eq_of_cover 5 (G V c) (fun t _ => flushed_eq V c t) (cover)

end Cert.KernelIdeal.Sage0

end
-- ==== Proof.Sage2.lean ====
/-
  Region 2 (the second layer's linear part), read as a value: block `t` of the output array holds, at row `r` and
  channel `q`, the sum over `k` of the aggregated row times `Wl`'s column, plus the sum over `k` of the node's own row
  times `Wr`'s column, plus the bias row at `q` — rows `5000 t … 5000 t + 4999` of ONE function of the whole arrays.
-/
import proofs.«131058_j47364899340882_1_alg».proof.Proof.Gen.KernelIdeal.Frame
import proofs.«131058_j47364899340882_1_alg».proof.Proof.LibDot
import proofs.«131058_j47364899340882_1_alg».proof.Proof.Sage0
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Sage2

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.KernelIdeal.Sage0 (entry plainK hz)

/-- The body's payload at (r, q) is the entry of its blocks. -/
theorem pay_apply (x0 x1 : Vec Ideal S5000x128 .f32) (x2 x3 : Vec Ideal S128x128 .f32) (x4 : Vec Ideal S1x128 .f32)
    (r : Fin 5000) (q : Fin 128) :
    k2_pay1 x0 x1 x2 x3 x4 (ix2 r q) = entry x0 x1 x2 x3 x4 r q := by
  unfold k2_pay1 entry
  simp only [shapeCast_self]
  show (_ + _) + _ = _
  refine congrArg₂ (· + ·) (congrArg₂ (· + ·) ?_ ?_) ?_
  · exact Cert.LibDot.matmul_zero_apply _ plainK none _ _ r q
  · exact Cert.LibDot.matmul_zero_apply _ plainK none _ _ r q
  · exact broadcastTo_1b_ab_apply x4 _ r q

variable (V : (c : Dev nD) → (b : Ref sig .tc) → Buf (Elt Ideal) ((c : Thread nD τ).loc b))

/-- The whole output array: the linear part of the arrays the region finds. -/
def G (c : Dev nD) : S100000x128.Idx → EReal := fun i =>
  entry (V c main_v47) (V c main_v35) (V c main_v49) (V c main_v51) (V c main_v54) (i 0) (i 1)

/-- The printed index maps over the grid: the two row-blocked inputs move with the output's row block, the weights and
    the bias row stay at block (0, 0), and the output's block row is the point's number. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row-blocked input's block at point `t` is rows `5000 t …` of its array. -/
theorem read_rows (c : Dev nD) (t : Fin cfg2.N) (r : Fin 5000) (k : Fin 128) (p : Fin 100000) (hp : p.val = t.val * 5000 + r.val) :
    iblk2 V c 0 t (ix2 r k) = V c main_v47 (ix2 p k) ∧ iblk2 V c 1 t (ix2 r k) = V c main_v35 (ix2 p k) := by
  obtain ⟨e00, e01, e10, e11, e20, e21, e30, e31, e40, e41, e50, e51⟩ := idx_facts t
  constructor
  · show V c main_v47 (((cfg2.win 0).blk t).view.emb (ix2 r k)) = V c main_v47 (ix2 p k)
    refine congrArg _ (funext fun a => Fin.ext ?_)
    match a with
    | ⟨0, _⟩ => show win2_0.index t (0 : Fin 2) * 5000 + 1 * r.val = p.val; omega
    | ⟨1, _⟩ => show win2_0.index t (1 : Fin 2) * 128 + 1 * k.val = k.val; omega
  · show V c main_v35 (((cfg2.win 1).blk t).view.emb (ix2 r k)) = V c main_v35 (ix2 p k)
    refine congrArg _ (funext fun a => Fin.ext ?_)
    match a with
    | ⟨0, _⟩ => show win2_1.index t (0 : Fin 2) * 5000 + 1 * r.val = p.val; omega
    | ⟨1, _⟩ => show win2_1.index t (1 : Fin 2) * 128 + 1 * k.val = k.val; omega

/-- The weight blocks are the whole weight arrays, and the bias block the whole bias row, at every point. -/
theorem read_whole (c : Dev nD) (t : Fin cfg2.N) :
    (∀ (k q : Fin 128), iblk2 V c 2 t (ix2 k q) = V c main_v49 (ix2 k q))
    ∧ (∀ (k q : Fin 128), iblk2 V c 3 t (ix2 k q) = V c main_v51 (ix2 k q))
    ∧ (∀ (q : Fin 128), iblk2 V c 4 t (ix2 (0 : Fin 1) q) = V c main_v54 (ix2 (0 : Fin 1) q)) := by
  obtain ⟨e00, e01, e10, e11, e20, e21, e30, e31, e40, e41, e50, e51⟩ := idx_facts t
  refine ⟨fun k q => ?_, fun k q => ?_, fun q => ?_⟩
  · show V c main_v49 (((cfg2.win 2).blk t).view.emb (ix2 k q)) = V c main_v49 (ix2 k q)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · show V c main_v51 (((cfg2.win 3).blk t).view.emb (ix2 k q)) = V c main_v51 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_v54 (((cfg2.win 4).blk t).view.emb (ix2 (0 : Fin 1) q)) = V c main_v54 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨r, q, rfl⟩ : ∃ (r : Fin 5000) (q : Fin 128), j = ix2 r q := ⟨j 0, j 1, eq_ix2 j⟩
  have ht : t.val < 20 := t.isLt
  have hr : r.val < 5000 := r.isLt
  obtain ⟨hW2, hW3, hB⟩ := read_whole V c t
  show k2_pay1 (iblk2 V c 0 t) (iblk2 V c 1 t) (iblk2 V c 2 t) (iblk2 V c 3 t) (iblk2 V c 4 t) (ix2 r q)
    = G V c (((cfg2.win 5).blk t).view.emb (ix2 r q))
  refine (pay_apply _ _ _ _ _ r q).trans ?_
  have hi : ((cfg2.win 5).blk t).view.emb (ix2 r q) = ix2 (⟨t.val * 5000 + r.val, by omega⟩ : Fin 100000) q :=
    funext fun a => Fin.ext (by
      match a with
      | ⟨0, _⟩ => show win2_5.index t (0 : Fin 2) * 5000 + 1 * r.val = t.val * 5000 + r.val; omega
      | ⟨1, _⟩ => show win2_5.index t (1 : Fin 2) * 128 + 1 * q.val = q.val; omega)
  rw [hi]
  unfold G entry
  refine congrArg₂ (· + ·) (congrArg₂ (· + ·) (Finset.sum_congr rfl fun k _ => ?_) (Finset.sum_congr rfl fun k _ => ?_)) ?_
  · rw [(read_rows V c t r k ⟨t.val * 5000 + r.val, by omega⟩ rfl).1, hW2]
  · rw [(read_rows V c t r k ⟨t.val * 5000 + r.val, by omega⟩ rfl).2, hW3]
  · rw [hB]

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v55).slice (win2_5.rect t)).set ↔ _
  rw [View.set_slice_whole, Rect.mem_set_unit]
  exact Iff.rfl

/-- Every row belongs to the block of the point numbered by its row divided by 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  refine ⟨⟨(i 0).val / 5000, by show (i 0).val / 5000 < grid2.N; omega⟩, flush2_5 _, ?_⟩
  rw [mem_blk]
  obtain ⟨e00, e01, e10, e11, e20, e21, e30, e31, e40, e41, e50, e51⟩ := idx_facts ⟨(i 0).val / 5000, by show (i 0).val / 5000 < grid2.N; omega⟩
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e51]; omega

/-- The output array after the region: the linear part of the arrays the region finds, at every entry. -/
theorem final (c : Dev nD) : (dat2 V c).arrAt 5 cfg2.N = G V c :=
  (dat2 V c).arrAt_eq_of_cover 5 (G V c) (fun t _ => flushed_eq V c t) (cover)

end Cert.KernelIdeal.Sage2

end
-- ==== Proof.Sage4.lean ====
/-
  Region 4 (the third layer's linear part), read as a value: block `t` of the output array holds, at row `r` and
  channel `q`, the sum over `k` of the aggregated row times `Wl`'s column, plus the sum over `k` of the node's own row
  times `Wr`'s column, plus the bias row at `q` — rows `5000 t … 5000 t + 4999` of ONE function of the whole arrays.
-/
import proofs.«131058_j47364899340882_1_alg».proof.Proof.Gen.KernelIdeal.Frame
import proofs.«131058_j47364899340882_1_alg».proof.Proof.LibDot
import proofs.«131058_j47364899340882_1_alg».proof.Proof.Sage0
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Sage4

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.KernelIdeal.Sage0 (entry plainK hz)

/-- The body's payload at (r, q) is the entry of its blocks. -/
theorem pay_apply (x0 x1 : Vec Ideal S5000x128 .f32) (x2 x3 : Vec Ideal S128x128 .f32) (x4 : Vec Ideal S1x128 .f32)
    (r : Fin 5000) (q : Fin 128) :
    k4_pay1 x0 x1 x2 x3 x4 (ix2 r q) = entry x0 x1 x2 x3 x4 r q := by
  unfold k4_pay1 entry
  simp only [shapeCast_self]
  show (_ + _) + _ = _
  refine congrArg₂ (· + ·) (congrArg₂ (· + ·) ?_ ?_) ?_
  · exact Cert.LibDot.matmul_zero_apply _ plainK none _ _ r q
  · exact Cert.LibDot.matmul_zero_apply _ plainK none _ _ r q
  · exact broadcastTo_1b_ab_apply x4 _ r q

variable (V : (c : Dev nD) → (b : Ref sig .tc) → Buf (Elt Ideal) ((c : Thread nD τ).loc b))

/-- The whole output array: the linear part of the arrays the region finds. -/
def G (c : Dev nD) : S100000x128.Idx → EReal := fun i =>
  entry (V c main_v80) (V c main_v68) (V c main_v82) (V c main_v84) (V c main_v87) (i 0) (i 1)

/-- The printed index maps over the grid: the two row-blocked inputs move with the output's row block, the weights and
    the bias row stay at block (0, 0), and the output's block row is the point's number. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A row-blocked input's block at point `t` is rows `5000 t …` of its array. -/
theorem read_rows (c : Dev nD) (t : Fin cfg4.N) (r : Fin 5000) (k : Fin 128) (p : Fin 100000) (hp : p.val = t.val * 5000 + r.val) :
    iblk4 V c 0 t (ix2 r k) = V c main_v80 (ix2 p k) ∧ iblk4 V c 1 t (ix2 r k) = V c main_v68 (ix2 p k) := by
  obtain ⟨e00, e01, e10, e11, e20, e21, e30, e31, e40, e41, e50, e51⟩ := idx_facts t
  constructor
  · show V c main_v80 (((cfg4.win 0).blk t).view.emb (ix2 r k)) = V c main_v80 (ix2 p k)
    refine congrArg _ (funext fun a => Fin.ext ?_)
    match a with
    | ⟨0, _⟩ => show win4_0.index t (0 : Fin 2) * 5000 + 1 * r.val = p.val; omega
    | ⟨1, _⟩ => show win4_0.index t (1 : Fin 2) * 128 + 1 * k.val = k.val; omega
  · show V c main_v68 (((cfg4.win 1).blk t).view.emb (ix2 r k)) = V c main_v68 (ix2 p k)
    refine congrArg _ (funext fun a => Fin.ext ?_)
    match a with
    | ⟨0, _⟩ => show win4_1.index t (0 : Fin 2) * 5000 + 1 * r.val = p.val; omega
    | ⟨1, _⟩ => show win4_1.index t (1 : Fin 2) * 128 + 1 * k.val = k.val; omega

/-- The weight blocks are the whole weight arrays, and the bias block the whole bias row, at every point. -/
theorem read_whole (c : Dev nD) (t : Fin cfg4.N) :
    (∀ (k q : Fin 128), iblk4 V c 2 t (ix2 k q) = V c main_v82 (ix2 k q))
    ∧ (∀ (k q : Fin 128), iblk4 V c 3 t (ix2 k q) = V c main_v84 (ix2 k q))
    ∧ (∀ (q : Fin 128), iblk4 V c 4 t (ix2 (0 : Fin 1) q) = V c main_v87 (ix2 (0 : Fin 1) q)) := by
  obtain ⟨e00, e01, e10, e11, e20, e21, e30, e31, e40, e41, e50, e51⟩ := idx_facts t
  refine ⟨fun k q => ?_, fun k q => ?_, fun q => ?_⟩
  · show V c main_v82 (((cfg4.win 2).blk t).view.emb (ix2 k q)) = V c main_v82 (ix2 k q)
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * q.val = q.val; omega
  · show V c main_v84 (((cfg4.win 3).blk t).view.emb (ix2 k q)) = V c main_v84 (ix2 k q)
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * q.val = q.val; omega
  · show V c main_v87 (((cfg4.win 4).blk t).view.emb (ix2 (0 : Fin 1) q)) = V c main_v87 (ix2 (0 : Fin 1) q)
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * q.val = q.val; omega

/-- What point `t` writes back is block `t` of `G`. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨r, q, rfl⟩ : ∃ (r : Fin 5000) (q : Fin 128), j = ix2 r q := ⟨j 0, j 1, eq_ix2 j⟩
  have ht : t.val < 20 := t.isLt
  have hr : r.val < 5000 := r.isLt
  obtain ⟨hW2, hW3, hB⟩ := read_whole V c t
  show k4_pay1 (iblk4 V c 0 t) (iblk4 V c 1 t) (iblk4 V c 2 t) (iblk4 V c 3 t) (iblk4 V c 4 t) (ix2 r q)
    = G V c (((cfg4.win 5).blk t).view.emb (ix2 r q))
  refine (pay_apply _ _ _ _ _ r q).trans ?_
  have hi : ((cfg4.win 5).blk t).view.emb (ix2 r q) = ix2 (⟨t.val * 5000 + r.val, by omega⟩ : Fin 100000) q :=
    funext fun a => Fin.ext (by
      match a with
      | ⟨0, _⟩ => show win4_5.index t (0 : Fin 2) * 5000 + 1 * r.val = t.val * 5000 + r.val; omega
      | ⟨1, _⟩ => show win4_5.index t (1 : Fin 2) * 128 + 1 * q.val = q.val; omega)
  rw [hi]
  unfold G entry
  refine congrArg₂ (· + ·) (congrArg₂ (· + ·) (Finset.sum_congr rfl fun k _ => ?_) (Finset.sum_congr rfl fun k _ => ?_)) ?_
  · rw [(read_rows V c t r k ⟨t.val * 5000 + r.val, by omega⟩ rfl).1, hW2]
  · rw [(read_rows V c t r k ⟨t.val * 5000 + r.val, by omega⟩ rfl).2, hW3]
  · rw [hB]

/-- An index of the array is in point `t`'s block iff each coordinate is in the block's range on its axis. -/
theorem mem_blk (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v88).slice (win4_5.rect t)).set ↔ _
  rw [View.set_slice_whole, Rect.mem_set_unit]
  exact Iff.rfl

/-- Every row belongs to the block of the point numbered by its row divided by 5000. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : grid4.N = 20 := N_4
  refine ⟨⟨(i 0).val / 5000, by show (i 0).val / 5000 < grid4.N; omega⟩, flush4_5 _, ?_⟩
  rw [mem_blk]
  obtain ⟨e00, e01, e10, e11, e20, e21, e30, e31, e40, e41, e50, e51⟩ := idx_facts ⟨(i 0).val / 5000, by show (i 0).val / 5000 < grid4.N; omega⟩
  intro a
  match a with
  | ⟨0, _⟩ =>
    show win4_5.index _ (0 : Fin 2) * 5000 ≤ (i 0).val ∧ (i 0).val < win4_5.index _ (0 : Fin 2) * 5000 + 5000
    rw [e50]; show (i 0).val / 5000 * 5000 ≤ (i 0).val ∧ (i 0).val < (i 0).val / 5000 * 5000 + 5000; omega
  | ⟨1, _⟩ =>
    show win4_5.index _ (1 : Fin 2) * 128 ≤ (i 1).val ∧ (i 1).val < win4_5.index _ (1 : Fin 2) * 128 + 128
    rw [e51]; omega

/-- The output array after the region: the linear part of the arrays the region finds, at every entry. -/
theorem final (c : Dev nD) : (dat4 V c).arrAt 5 cfg4.N = G V c :=
  (dat4 V c).arrAt_eq_of_cover 5 (G V c) (fun t _ => flushed_eq V c t) (cover)

end Cert.KernelIdeal.Sage4

end
-- ==== Proof.Bn1.lean ====
/-
  Region 1 (the first layer's normalisation and rectifier), read as a value: block `t` of the output array holds, at row
  `r` and channel `q`, the maximum of zero and `g q * (z (r, q) - mean q) * rsqrt (var q + eps) + bt q` — rows
  `5000 t … 5000 t + 4999` of ONE function of the whole arrays, the four per-channel rows the same at every point.
-/
import proofs.«131058_j47364899340882_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Bn1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Entry (p, q) of the normalised, rectified features: scale row `g2`, mean row `d2`, reciprocal-root row `r2`, shift
    row `bt2`. -/
def entry {R : Nat} (z : (⟨2, ![R, 128]⟩ : Shape).Idx → EReal) (g2 d2 r2 bt2 : (⟨2, ![1, 128]⟩ : Shape).Idx → EReal)
    (p : Fin R) (q : Fin 128) : EReal :=
  max (g2 (ix2 (0 : Fin 1) q) * (z (ix2 p q) - d2 (ix2 (0 : Fin 1) q)) * r2 (ix2 (0 : Fin 1) q) + bt2 (ix2 (0 : Fin 1) q))
    (Scalar.ofBits (F := Ideal) .f32 0x00000000#32)

/-- The reciprocal root of a variance row plus epsilon, as the body computes it. -/
def invStdRow (var2 : Vec Ideal S1x128 .f32) : FVec Ideal S1x128 .f32 :=
  rsqrt (addf var2 (broadcast S1x128 (Scalar.ofBits (F := Ideal) .f32 0x3727C5AC#32)))

/-- The body's payload at (r, q) is the entry of its blocks (the payload takes the variance row second, then scale,
    mean and shift). -/
theorem pay_apply (x0 : Vec Ideal S5000x128 .f32) (xv xg xm xb : Vec Ideal S1x128 .f32) (r : Fin 5000) (q : Fin 128) :
    k1_pay1 x0 xv xg xm xb (ix2 r q) = entry x0 xg xm (invStdRow xv) xb r q := by
  unfold k1_pay1 entry invStdRow
  simp only [shapeCast_self]
  show max (_ * (_ - _) * _ + _) _ = max (_ * (_ - _) * _ + _) _
  refine congrArg₂ max (congrArg₂ (· + ·) (congrArg₂ (· * ·) (congrArg₂ (· * ·) ?_ (congrArg₂ (· - ·) rfl ?_)) ?_) ?_) rfl
  · exact broadcastTo_1b_ab_apply xg _ r q
  · exact broadcastTo_1b_ab_apply xm _ r q
  · exact broadcastTo_1b_ab_apply _ _ r q
  · exact broadcastTo_1b_ab_apply xb _ r q

variable (V : (c : Dev nD) → (b : Ref sig .tc) → Buf (Elt Ideal) ((c : Thread nD τ).loc b))

theorem hz : (![0, 0] : Fin 2 → Nat) = fun _ => 0 := funext fun a => by fin_cases a <;> rfl

/-- The whole output array: the normalised, rectified features of the arrays the region finds. -/
def G (c : Dev nD) : S100000x128.Idx → EReal := fun i =>
  entry (V c main_v26) (V c main_v33) (V c main_v31) (invStdRow (V c main_v32)) (V c main_v34) (i 0) (i 1)

/-- The printed index maps over the grid: the feature input moves with the output's row block, the four rows stay at
    block (0, 0), and the output's block row is the point's number. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block at point `t` is rows `5000 t …` of the feature array. -/
theorem read_rows (c : Dev nD) (t : Fin cfg1.N) (r : Fin 5000) (k : Fin 128) (p : Fin 100000) (hp : p.val = t.val * 5000 + r.val) :
    iblk1 V c 0 t (ix2 r k) = V c main_v26 (ix2 p k) := by
  obtain ⟨e00, e01, e10, e11, e20, e21, e30, e31, e40, e41, e50, e51⟩ := idx_facts t
  show V c main_v26 (((cfg1.win 0).blk t).view.emb (ix2 r k)) = V c main_v26 (ix2 p k)
  refine congrArg _ (funext fun a => Fin.ext ?_)
  match a with
  | ⟨0, _⟩ => show win1_0.index t (0 : Fin 2) * 5000 + 1 * r.val = p.val; omega
  | ⟨1, _⟩ => show win1_0.index t (1 : Fin 2) * 128 + 1 * k.val = k.val; omega

/-- Each of the four row blocks is its whole row array, at every point. -/
theorem read_whole (c : Dev nD) (t : Fin cfg1.N) :
    iblk1 V c 1 t = V c main_v31 ∧ iblk1 V c 2 t = V c main_v32 ∧ iblk1 V c 3 t = V c main_v33 ∧ iblk1 V c 4 t = V c main_v34 := by
  obtain ⟨e00, e01, e10, e11, e20, e21, e30, e31, e40, e41, e50, e51⟩ := idx_facts t
  refine ⟨funext fun y => ?_, funext fun y => ?_, funext fun y => ?_, funext fun y => ?_⟩
  · show V c main_v31 (((cfg1.win 1).blk t).view.emb y) = V c main_v31 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show V c main_v32 (((cfg1.win 2).blk t).view.emb y) = V c main_v32 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show V c main_v33 (((cfg1.win 3).blk t).view.emb y) = V c main_v33 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show V c main_v34 (((cfg1.win 4).blk t).view.emb y) = V c main_v34 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  obtain ⟨h1, h2, h3, h4⟩ := read_whole V c t
  rw [h1, h2, h3, h4]
  funext j
  obtain ⟨r, q, rfl⟩ : ∃ (r : Fin 5000) (q : Fin 128), j = ix2 r q := ⟨j 0, j 1, eq_ix2 j⟩
  have ht : t.val < 20 := t.isLt
  have hr : r.val < 5000 := r.isLt
  show k1_pay1 (iblk1 V c 0 t) (V c main_v32) (V c main_v33) (V c main_v31) (V c main_v34) (ix2 r q)
    = G V c (((cfg1.win 5).blk t).view.emb (ix2 r q))
  refine (pay_apply _ _ _ _ _ r q).trans ?_
  have hi : ((cfg1.win 5).blk t).view.emb (ix2 r q) = ix2 (⟨t.val * 5000 + r.val, by omega⟩ : Fin 100000) q :=
    funext fun a => Fin.ext (by
      match a with
      | ⟨0, _⟩ => show win1_5.index t (0 : Fin 2) * 5000 + 1 * r.val = t.val * 5000 + r.val; omega
      | ⟨1, _⟩ => show win1_5.index t (1 : Fin 2) * 128 + 1 * q.val = q.val; omega)
  rw [hi]
  unfold G entry
  rw [read_rows V c t r q ⟨t.val * 5000 + r.val, by omega⟩ rfl]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- Every row belongs to the block of the point numbered by its row divided by 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  refine ⟨⟨(i 0).val / 5000, by show (i 0).val / 5000 < grid1.N; omega⟩, flush1_5 _, ?_⟩
  rw [mem_blk]
  obtain ⟨e00, e01, e10, e11, e20, e21, e30, e31, e40, e41, e50, e51⟩ := idx_facts ⟨(i 0).val / 5000, by show (i 0).val / 5000 < grid1.N; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- The output array after the region: the normalised, rectified features of the arrays the region finds. -/
theorem final (c : Dev nD) : (dat1 V c).arrAt 5 cfg1.N = G V c :=
  (dat1 V c).arrAt_eq_of_cover 5 (G V c) (fun t _ => flushed_eq V c t) (cover)

end Cert.KernelIdeal.Bn1

end
-- ==== Proof.Bn3.lean ====
/-
  Region 3 (the second layer's normalisation and rectifier), read as a value: block `t` of the output array holds, at row
  `r` and channel `q`, the maximum of zero and `g q * (z (r, q) - mean q) * rsqrt (var q + eps) + bt q` — rows
  `5000 t … 5000 t + 4999` of ONE function of the whole arrays, the four per-channel rows the same at every point.
-/
import proofs.«131058_j47364899340882_1_alg».proof.Proof.Gen.KernelIdeal.Frame
import proofs.«131058_j47364899340882_1_alg».proof.Proof.Bn1
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Bn3

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.KernelIdeal.Bn1 (entry invStdRow hz)

/-- The body's payload at (r, q) is the entry of its blocks (the payload takes the variance row second, then scale,
    mean and shift). -/
theorem pay_apply (x0 : Vec Ideal S5000x128 .f32) (xv xg xm xb : Vec Ideal S1x128 .f32) (r : Fin 5000) (q : Fin 128) :
    k3_pay1 x0 xv xg xm xb (ix2 r q) = entry x0 xg xm (invStdRow xv) xb r q := by
  unfold k3_pay1 entry invStdRow
  simp only [shapeCast_self]
  show max (_ * (_ - _) * _ + _) _ = max (_ * (_ - _) * _ + _) _
  refine congrArg₂ max (congrArg₂ (· + ·) (congrArg₂ (· * ·) (congrArg₂ (· * ·) ?_ (congrArg₂ (· - ·) rfl ?_)) ?_) ?_) rfl
  · exact broadcastTo_1b_ab_apply xg _ r q
  · exact broadcastTo_1b_ab_apply xm _ r q
  · exact broadcastTo_1b_ab_apply _ _ r q
  · exact broadcastTo_1b_ab_apply xb _ r q

variable (V : (c : Dev nD) → (b : Ref sig .tc) → Buf (Elt Ideal) ((c : Thread nD τ).loc b))

/-- The whole output array: the normalised, rectified features of the arrays the region finds. -/
def G (c : Dev nD) : S100000x128.Idx → EReal := fun i =>
  entry (V c main_v55) (V c main_v66) (V c main_v64) (invStdRow (V c main_v65)) (V c main_v67) (i 0) (i 1)

/-- The printed index maps over the grid: the feature input moves with the output's row block, the four rows stay at
    block (0, 0), and the output's block row is the point's number. -/
theorem idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The feature block at point `t` is rows `5000 t …` of the feature array. -/
theorem read_rows (c : Dev nD) (t : Fin cfg3.N) (r : Fin 5000) (k : Fin 128) (p : Fin 100000) (hp : p.val = t.val * 5000 + r.val) :
    iblk3 V c 0 t (ix2 r k) = V c main_v55 (ix2 p k) := by
  obtain ⟨e00, e01, e10, e11, e20, e21, e30, e31, e40, e41, e50, e51⟩ := idx_facts t
  show V c main_v55 (((cfg3.win 0).blk t).view.emb (ix2 r k)) = V c main_v55 (ix2 p k)
  refine congrArg _ (funext fun a => Fin.ext ?_)
  match a with
  | ⟨0, _⟩ => show win3_0.index t (0 : Fin 2) * 5000 + 1 * r.val = p.val; omega
  | ⟨1, _⟩ => show win3_0.index t (1 : Fin 2) * 128 + 1 * k.val = k.val; omega

/-- Each of the four row blocks is its whole row array, at every point. -/
theorem read_whole (c : Dev nD) (t : Fin cfg3.N) :
    iblk3 V c 1 t = V c main_v64 ∧ iblk3 V c 2 t = V c main_v65 ∧ iblk3 V c 3 t = V c main_v66 ∧ iblk3 V c 4 t = V c main_v67 := by
  obtain ⟨e00, e01, e10, e11, e20, e21, e30, e31, e40, e41, e50, e51⟩ := idx_facts t
  refine ⟨funext fun y => ?_, funext fun y => ?_, funext fun y => ?_, funext fun y => ?_⟩
  · show V c main_v64 (((cfg3.win 1).blk t).view.emb y) = V c main_v64 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · show V c main_v65 (((cfg3.win 2).blk t).view.emb y) = V c main_v65 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · show V c main_v66 (((cfg3.win 3).blk t).view.emb y) = V c main_v66 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show V c main_v67 (((cfg3.win 4).blk t).view.emb y) = V c main_v67 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega

/-- What point `t` writes back is block `t` of `G`. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  obtain ⟨h1, h2, h3, h4⟩ := read_whole V c t
  rw [h1, h2, h3, h4]
  funext j
  obtain ⟨r, q, rfl⟩ : ∃ (r : Fin 5000) (q : Fin 128), j = ix2 r q := ⟨j 0, j 1, eq_ix2 j⟩
  have ht : t.val < 20 := t.isLt
  have hr : r.val < 5000 := r.isLt
  show k3_pay1 (iblk3 V c 0 t) (V c main_v65) (V c main_v66) (V c main_v64) (V c main_v67) (ix2 r q)
    = G V c (((cfg3.win 5).blk t).view.emb (ix2 r q))
  refine (pay_apply _ _ _ _ _ r q).trans ?_
  have hi : ((cfg3.win 5).blk t).view.emb (ix2 r q) = ix2 (⟨t.val * 5000 + r.val, by omega⟩ : Fin 100000) q :=
    funext fun a => Fin.ext (by
      match a with
      | ⟨0, _⟩ => show win3_5.index t (0 : Fin 2) * 5000 + 1 * r.val = t.val * 5000 + r.val; omega
      | ⟨1, _⟩ => show win3_5.index t (1 : Fin 2) * 128 + 1 * q.val = q.val; omega)
  rw [hi]
  unfold G entry
  rw [read_rows V c t r q ⟨t.val * 5000 + r.val, by omega⟩ rfl]

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v68).slice (win3_5.rect t)).set ↔ _
  rw [View.set_slice_whole, Rect.mem_set_unit]
  exact Iff.rfl

/-- Every row belongs to the block of the point numbered by its row divided by 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  refine ⟨⟨(i 0).val / 5000, by show (i 0).val / 5000 < grid3.N; omega⟩, flush3_5 _, ?_⟩
  rw [mem_blk]
  obtain ⟨e00, e01, e10, e11, e20, e21, e30, e31, e40, e41, e50, e51⟩ := idx_facts ⟨(i 0).val / 5000, by show (i 0).val / 5000 < grid3.N; omega⟩
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 128 ≤ (i 1).val ∧ (i 1).val < win3_5.index _ (1 : Fin 2) * 128 + 128
    rw [e51]; omega

/-- The output array after the region: the normalised, rectified features of the arrays the region finds. -/
theorem final (c : Dev nD) : (dat3 V c).arrAt 5 cfg3.N = G V c :=
  (dat3 V c).arrAt_eq_of_cover 5 (G V c) (fun t _ => flushed_eq V c t) (cover)

end Cert.KernelIdeal.Bn3

end
-- ==== Proof.Bn5.lean ====
/-
  Region 5 (the third layer's normalisation and rectifier), read as a value: block `t` of the output array holds, at row
  `r` and channel `q`, the maximum of zero and `g q * (z (r, q) - mean q) * rsqrt (var q + eps) + bt q` — rows
  `5000 t … 5000 t + 4999` of ONE function of the whole arrays, the four per-channel rows the same at every point.
-/
import proofs.«131058_j47364899340882_1_alg».proof.Proof.Gen.KernelIdeal.Frame
import proofs.«131058_j47364899340882_1_alg».proof.Proof.Bn1
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Bn5

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.KernelIdeal.Bn1 (entry invStdRow hz)

/-- The body's payload at (r, q) is the entry of its blocks (the payload takes the variance row second, then scale,
    mean and shift). -/
theorem pay_apply (x0 : Vec Ideal S5000x128 .f32) (xv xg xm xb : Vec Ideal S1x128 .f32) (r : Fin 5000) (q : Fin 128) :
    k5_pay1 x0 xv xg xm xb (ix2 r q) = entry x0 xg xm (invStdRow xv) xb r q := by
  unfold k5_pay1 entry invStdRow
  simp only [shapeCast_self]
  show max (_ * (_ - _) * _ + _) _ = max (_ * (_ - _) * _ + _) _
  refine congrArg₂ max (congrArg₂ (· + ·) (congrArg₂ (· * ·) (congrArg₂ (· * ·) ?_ (congrArg₂ (· - ·) rfl ?_)) ?_) ?_) rfl
  · exact broadcastTo_1b_ab_apply xg _ r q
  · exact broadcastTo_1b_ab_apply xm _ r q
  · exact broadcastTo_1b_ab_apply _ _ r q
  · exact broadcastTo_1b_ab_apply xb _ r q

variable (V : (c : Dev nD) → (b : Ref sig .tc) → Buf (Elt Ideal) ((c : Thread nD τ).loc b))

/-- The whole output array: the normalised, rectified features of the arrays the region finds. -/
def G (c : Dev nD) : S100000x128.Idx → EReal := fun i =>
  entry (V c main_v88) (V c main_v99) (V c main_v97) (invStdRow (V c main_v98)) (V c main_v100) (i 0) (i 1)

/-- The printed index maps over the grid: the feature input moves with the output's row block, the four rows stay at
    block (0, 0), and the output's block row is the point's number. -/
theorem idx_facts : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The feature block at point `t` is rows `5000 t …` of the feature array. -/
theorem read_rows (c : Dev nD) (t : Fin cfg5.N) (r : Fin 5000) (k : Fin 128) (p : Fin 100000) (hp : p.val = t.val * 5000 + r.val) :
    iblk5 V c 0 t (ix2 r k) = V c main_v88 (ix2 p k) := by
  obtain ⟨e00, e01, e10, e11, e20, e21, e30, e31, e40, e41, e50, e51⟩ := idx_facts t
  show V c main_v88 (((cfg5.win 0).blk t).view.emb (ix2 r k)) = V c main_v88 (ix2 p k)
  refine congrArg _ (funext fun a => Fin.ext ?_)
  match a with
  | ⟨0, _⟩ => show win5_0.index t (0 : Fin 2) * 5000 + 1 * r.val = p.val; omega
  | ⟨1, _⟩ => show win5_0.index t (1 : Fin 2) * 128 + 1 * k.val = k.val; omega

/-- Each of the four row blocks is its whole row array, at every point. -/
theorem read_whole (c : Dev nD) (t : Fin cfg5.N) :
    iblk5 V c 1 t = V c main_v97 ∧ iblk5 V c 2 t = V c main_v98 ∧ iblk5 V c 3 t = V c main_v99 ∧ iblk5 V c 4 t = V c main_v100 := by
  obtain ⟨e00, e01, e10, e11, e20, e21, e30, e31, e40, e41, e50, e51⟩ := idx_facts t
  refine ⟨funext fun y => ?_, funext fun y => ?_, funext fun y => ?_, funext fun y => ?_⟩
  · show V c main_v97 (((cfg5.win 1).blk t).view.emb y) = V c main_v97 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · show V c main_v98 (((cfg5.win 2).blk t).view.emb y) = V c main_v98 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 128 + 1 * (y 1).val = (y 1).val; omega
  · show V c main_v99 (((cfg5.win 3).blk t).view.emb y) = V c main_v99 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · show V c main_v100 (((cfg5.win 4).blk t).view.emb y) = V c main_v100 y
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 128 + 1 * (y 1).val = (y 1).val; omega

/-- What point `t` writes back is block `t` of `G`. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  obtain ⟨h1, h2, h3, h4⟩ := read_whole V c t
  rw [h1, h2, h3, h4]
  funext j
  obtain ⟨r, q, rfl⟩ : ∃ (r : Fin 5000) (q : Fin 128), j = ix2 r q := ⟨j 0, j 1, eq_ix2 j⟩
  have ht : t.val < 20 := t.isLt
  have hr : r.val < 5000 := r.isLt
  show k5_pay1 (iblk5 V c 0 t) (V c main_v98) (V c main_v99) (V c main_v97) (V c main_v100) (ix2 r q)
    = G V c (((cfg5.win 5).blk t).view.emb (ix2 r q))
  refine (pay_apply _ _ _ _ _ r q).trans ?_
  have hi : ((cfg5.win 5).blk t).view.emb (ix2 r q) = ix2 (⟨t.val * 5000 + r.val, by omega⟩ : Fin 100000) q :=
    funext fun a => Fin.ext (by
      match a with
      | ⟨0, _⟩ => show win5_5.index t (0 : Fin 2) * 5000 + 1 * r.val = t.val * 5000 + r.val; omega
      | ⟨1, _⟩ => show win5_5.index t (1 : Fin 2) * 128 + 1 * q.val = q.val; omega)
  rw [hi]
  unfold G entry
  rw [read_rows V c t r q ⟨t.val * 5000 + r.val, by omega⟩ rfl]

/-- An index of the array is in point `t`'s block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v101).slice (win5_5.rect t)).set ↔ _
  rw [View.set_slice_whole, Rect.mem_set_unit]
  exact Iff.rfl

/-- Every row belongs to the block of the point numbered by its row divided by 5000. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : grid5.N = 20 := N_5
  refine ⟨⟨(i 0).val / 5000, by show (i 0).val / 5000 < grid5.N; omega⟩, flush5_5 _, ?_⟩
  rw [mem_blk]
  obtain ⟨e00, e01, e10, e11, e20, e21, e30, e31, e40, e41, e50, e51⟩ := idx_facts ⟨(i 0).val / 5000, by show (i 0).val / 5000 < grid5.N; omega⟩
  intro a
  match a with
  | ⟨0, _⟩ =>
    show win5_5.index _ (0 : Fin 2) * 5000 ≤ (i 0).val ∧ (i 0).val < win5_5.index _ (0 : Fin 2) * 5000 + 5000
    rw [e50]; show (i 0).val / 5000 * 5000 ≤ (i 0).val ∧ (i 0).val < (i 0).val / 5000 * 5000 + 5000; omega
  | ⟨1, _⟩ =>
    show win5_5.index _ (1 : Fin 2) * 128 ≤ (i 1).val ∧ (i 1).val < win5_5.index _ (1 : Fin 2) * 128 + 128
    rw [e51]; omega

/-- The output array after the region: the normalised, rectified features of the arrays the region finds. -/
theorem final (c : Dev nD) : (dat5 V c).arrAt 5 cfg5.N = G V c :=
  (dat5 V c).arrAt_eq_of_cover 5 (G V c) (fun t _ => flushed_eq V c t) (cover)

end Cert.KernelIdeal.Bn5

end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.Out6.lean ====
/-
  Region 6 (the read-out), read as values: block `t` of the first output array holds, at row `r` and class `q`, the
  rectified logit — the maximum of zero and the sum over `k` of the feature row times `Wlin`'s column plus the bias —
  and block `t` of the second holds the row-wise log-softmax of those ten logits: the logit less the row's maximum,
  less the logarithm of the sum of the exponentials of the row so shifted. Rows `5000 t … 5000 t + 4999` of ONE
  function of the whole arrays each.
-/
import proofs.«131058_j47364899340882_1_alg».proof.Proof.Gen.KernelIdeal.Frame
import proofs.«131058_j47364899340882_1_alg».proof.Proof.LibDot
import proofs.«131058_j47364899340882_1_alg».proof.Proof.LibCol
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Out6

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The rectified logit of node `p` for class `q`. -/
def logit {R : Nat} (h : (⟨2, ![R, 128]⟩ : Shape).Idx → EReal) (W : (⟨2, ![128, 10]⟩ : Shape).Idx → EReal)
    (b2 : (⟨2, ![1, 10]⟩ : Shape).Idx → EReal) (p : Fin R) (q : Fin 10) : EReal :=
  max ((∑ k : Fin 128, h (ix2 p k) * W (ix2 k q)) + b2 (ix2 (0 : Fin 1) q)) (Scalar.ofBits (F := Ideal) .f32 0x00000000#32)

/-- The maximum of a row of ten, from minus infinity. -/
def rowMax (o : Fin 10 → EReal) : EReal :=
  (Finset.univ : Finset (Fin 10)).fold max (FloatOps.ofBits (F := Ideal) .f32 0xFF800000#32) o

/-- The log-softmax of a row of ten at class `q`. -/
def logProb (o : Fin 10 → EReal) (q : Fin 10) : EReal :=
  (o q - rowMax o) - Ideal.log (∑ k : Fin 10, Ideal.exp (o k - rowMax o))

theorem plainK : Cert.LibDot.IsPlain dot_S5000x128_S128x10_S5000x10_1_0_0_1_n_n := ⟨rfl, rfl, rfl, rfl, rfl, rfl⟩

/-- The first payload at (r, q) is the rectified logit of its blocks. -/
theorem pay1_apply (x0 : Vec Ideal S5000x128 .f32) (x1 : Vec Ideal S128x10 .f32) (x2 : Vec Ideal S1x10 .f32)
    (r : Fin 5000) (q : Fin 10) : k6_pay1 x0 x1 x2 (ix2 r q) = logit x0 x1 x2 r q := by
  unfold k6_pay1 logit
  simp only [shapeCast_self]
  show max (_ + _) _ = max (_ + _) _
  refine congrArg₂ max (congrArg₂ (· + ·) ?_ ?_) rfl
  · exact Cert.LibDot.matmul_zero_apply _ plainK none _ _ r q
  · exact broadcastTo_1b_ab_apply x2 _ r q

/-- A lane maximum of a block of rows of ten, at row `r`: the row's maximum. -/
theorem laneMax_apply (o : FVec Ideal S5000x10 .f32) (h : S5000x10.Reduces [1] S5000) (hφ : FKind.Formats .f32)
    (hacc : (0xFF800000#32 : BitVec 32) = FKind.maximumf.neutral .f32 hφ) (r : Fin 5000) :
    multiReduction .maximumf [1] S5000 o 0xFF800000#32 h hφ hacc (ix1 r) = rowMax fun k => o (ix2 r k) := by
  refine (Ideal.multiReduction_maximumf_single o _ h hφ hacc (ix1 r)).trans ?_
  unfold rowMax
  have hf : o ∘ h.lift (ix1 r) = fun k => o (ix2 r k) := funext fun k => by
    show o (h.lift (ix1 r) k) = o (ix2 r k)
    rw [Cert.LibCol.lift_last h r k]
  rw [hf]
  rfl

/-- A lane sum of a block of rows of ten, at row `r`: the row's sum. -/
theorem laneSum_apply (o : FVec Ideal S5000x10 .f32) (h : S5000x10.Reduces [1] S5000) (hφ : FKind.Formats .f32)
    (hacc : (0x00000000#32 : BitVec 32) = FKind.add.neutral .f32 hφ) (r : Fin 5000) :
    multiReduction .add [1] S5000 o 0x00000000#32 h hφ hacc (ix1 r) = ∑ k : Fin 10, o (ix2 r k) := by
  refine (Ideal.multiReduction_add_single o _ h hφ hacc (ix1 r)).trans ?_
  refine Finset.sum_congr rfl fun k _ => ?_
  show o (h.lift (ix1 r) k) = o (ix2 r k)
  rw [Cert.LibCol.lift_last h r k]

/-- The second payload at (r, q) is the log-softmax of the row of rectified logits. -/
theorem pay2_apply (x0 : Vec Ideal S5000x128 .f32) (x1 : Vec Ideal S128x10 .f32) (x2 : Vec Ideal S1x10 .f32)
    (r : Fin 5000) (q : Fin 10) : k6_pay2 x0 x1 x2 (ix2 r q) = logProb (fun k => logit x0 x1 x2 r k) q := by
  have ho : ∀ k : Fin 10, k6_pay1 x0 x1 x2 (ix2 r k) = logit x0 x1 x2 r k := fun k => pay1_apply x0 x1 x2 r k
  unfold k6_pay2
  generalize k6_pay1 x0 x1 x2 = o at ho ⊢
  have hM : ∀ c : Fin 10,
      broadcastTo S5000x10 (shapeCast S5000x1 (multiReduction .maximumf [1] S5000 o 0xFF800000#32 reduces_S5000x10_S5000 (.inl rfl) rfl)
        shapeCasts_S5000_S5000x1) broadcasts_S5000x1_S5000x10 (ix2 r c) = rowMax fun k => o (ix2 r k) := fun c =>
    (Cert.LibCol.broadcastTo_a1_ab_apply _ _ r c).trans
      ((Cert.LibCol.shapeCast_a_a1_apply _ _ r 0).trans (laneMax_apply o _ _ _ r))
  unfold logProb
  show (o (ix2 r q) - _) - _ = _
  refine congrArg₂ (· - ·) (congrArg₂ (· - ·) (ho q) ((hM q).trans (congrArg rowMax (funext ho)))) ?_
  refine (Cert.LibCol.broadcastTo_a1_ab_apply _ _ r q).trans ?_
  show Ideal.log (shapeCast S5000x1 _ shapeCasts_S5000_S5000x1 (ix2 r (0 : Fin 1))) = _
  refine congrArg Ideal.log ?_
  refine (Cert.LibCol.shapeCast_a_a1_apply _ _ r 0).trans ?_
  refine (laneSum_apply _ _ _ _ r).trans ?_
  refine Finset.sum_congr rfl fun k _ => ?_
  show Ideal.exp (o (ix2 r k) - _) = _
  refine congrArg Ideal.exp (congrArg₂ (· - ·) (ho k) ((hM k).trans (congrArg rowMax (funext ho))))

variable (V : (c : Dev nD) → (b : Ref sig .tc) → Buf (Elt Ideal) ((c : Thread nD τ).loc b))

theorem hz : (![0, 0] : Fin 2 → Nat) = fun _ => 0 := funext fun a => by fin_cases a <;> rfl

/-- The first output array: the rectified logits of the arrays the region finds. -/
def G3 (c : Dev nD) : S100000x10.Idx → EReal := fun i =>
  logit (V c main_v101) (V c main_arg12) (V c main_v102) (i 0) (i 1)

/-- The second output array: the row-wise log-softmax of the rectified logits. -/
def G4 (c : Dev nD) : S100000x10.Idx → EReal := fun i =>
  logProb (fun k => logit (V c main_v101) (V c main_arg12) (V c main_v102) (i 0) k) (i 1)

/-- The printed index maps over the grid: the feature input moves with the outputs' row block, the weights and the bias
    row stay at block (0, 0), and each output's block row is the point's number. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The feature block at point `t` is rows `5000 t …` of the feature array. -/
theorem read_rows (c : Dev nD) (t : Fin cfg6.N) (r : Fin 5000) (k : Fin 128) (p : Fin 100000) (hp : p.val = t.val * 5000 + r.val) :
    iblk6 V c 0 t (ix2 r k) = V c main_v101 (ix2 p k) := by
  obtain ⟨e00, e01, e10, e11, e20, e21, e30, e31, e40, e41⟩ := idx_facts t
  show V c main_v101 (((cfg6.win 0).blk t).view.emb (ix2 r k)) = V c main_v101 (ix2 p k)
  refine congrArg _ (funext fun a => Fin.ext ?_)
  match a with
  | ⟨0, _⟩ => show win6_0.index t (0 : Fin 2) * 5000 + 1 * r.val = p.val; omega
  | ⟨1, _⟩ => show win6_0.index t (1 : Fin 2) * 128 + 1 * k.val = k.val; omega

/-- The weight block is the whole weight array and the bias block the whole bias row, at every point. -/
theorem read_whole (c : Dev nD) (t : Fin cfg6.N) :
    iblk6 V c 1 t = V c main_arg12 ∧ iblk6 V c 2 t = V c main_v102 := by
  obtain ⟨e00, e01, e10, e11, e20, e21, e30, e31, e40, e41⟩ := idx_facts t
  refine ⟨funext fun y => ?_, funext fun y => ?_⟩
  · show V c main_arg12 (((cfg6.win 1).blk t).view.emb y) = V c main_arg12 y
    refine congrArg _ (funext fun a => Fin.ext ?_)
    match a with
    | ⟨0, _⟩ => show win6_1.index t (0 : Fin 2) * 128 + 1 * (y 0).val = (y 0).val; omega
    | ⟨1, _⟩ => show win6_1.index t (1 : Fin 2) * 10 + 1 * (y 1).val = (y 1).val; omega
  · show V c main_v102 (((cfg6.win 2).blk t).view.emb y) = V c main_v102 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 10 + 1 * (y 1).val = (y 1).val; omega

/-- The rectified logit of a block row is the logit of the array row it is. -/
theorem logit_block (c : Dev nD) (t : Fin cfg6.N) (r : Fin 5000) (q : Fin 10) (p : Fin 100000) (hp : p.val = t.val * 5000 + r.val) :
    logit (iblk6 V c 0 t) (V c main_arg12) (V c main_v102) r q = logit (V c main_v101) (V c main_arg12) (V c main_v102) p q := by
  unfold logit
  refine congrArg₂ max (congrArg₂ (· + ·) (Finset.sum_congr rfl fun k _ => ?_) rfl) rfl
  rw [read_rows V c t r k p hp]

/-- What point `t` writes back to the first output is block `t` of `G3`. -/
theorem flushed3_eq (c : Dev nD) (t : Fin cfg6.N) :
    (dat6 V c).flushed 3 t = ((cfg6.win 3).blk t).view.read (Elt Ideal) (G3 V c) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x10) hz, View.ld_unit_zero (S := S1x10) hz]
  obtain ⟨e00, e01, e10, e11, e20, e21, e30, e31, e40, e41⟩ := idx_facts t
  obtain ⟨h1, h2⟩ := read_whole V c t
  rw [h1, h2]
  funext j
  obtain ⟨r, q, rfl⟩ : ∃ (r : Fin 5000) (q : Fin 10), j = ix2 r q := ⟨j 0, j 1, eq_ix2 j⟩
  have ht : t.val < 20 := t.isLt
  have hr : r.val < 5000 := r.isLt
  show k6_pay1 (iblk6 V c 0 t) (V c main_arg12) (V c main_v102) (ix2 r q) = G3 V c (((cfg6.win 3).blk t).view.emb (ix2 r q))
  refine (pay1_apply _ _ _ r q).trans ?_
  have hi : ((cfg6.win 3).blk t).view.emb (ix2 r q) = ix2 (⟨t.val * 5000 + r.val, by omega⟩ : Fin 100000) q :=
    funext fun a => Fin.ext (by
      match a with
      | ⟨0, _⟩ => show win6_3.index t (0 : Fin 2) * 5000 + 1 * r.val = t.val * 5000 + r.val; omega
      | ⟨1, _⟩ => show win6_3.index t (1 : Fin 2) * 10 + 1 * q.val = q.val; omega)
  rw [hi]
  exact logit_block V c t r q ⟨t.val * 5000 + r.val, by omega⟩ rfl

/-- What point `t` writes back to the second output is block `t` of `G4`. -/
theorem flushed4_eq (c : Dev nD) (t : Fin cfg6.N) :
    (dat6 V c).flushed 4 t = ((cfg6.win 4).blk t).view.read (Elt Ideal) (G4 V c) := by
  show (cfg6.win 4).cut (grid6.coords t) ((dat6 V c).after 4 t) = _
  rw [after6_4]
  unfold out6_4
  rw [View.canon_unit_zero hz]
  simp only [View.ld_unit_zero (S := S5000x128) hz, View.ld_unit_zero (S := S128x10) hz, View.ld_unit_zero (S := S1x10) hz]
  obtain ⟨e00, e01, e10, e11, e20, e21, e30, e31, e40, e41⟩ := idx_facts t
  obtain ⟨h1, h2⟩ := read_whole V c t
  rw [h1, h2]
  funext j
  obtain ⟨r, q, rfl⟩ : ∃ (r : Fin 5000) (q : Fin 10), j = ix2 r q := ⟨j 0, j 1, eq_ix2 j⟩
  have ht : t.val < 20 := t.isLt
  have hr : r.val < 5000 := r.isLt
  show k6_pay2 (iblk6 V c 0 t) (V c main_arg12) (V c main_v102) (ix2 r q) = G4 V c (((cfg6.win 4).blk t).view.emb (ix2 r q))
  refine (pay2_apply _ _ _ r q).trans ?_
  have hi : ((cfg6.win 4).blk t).view.emb (ix2 r q) = ix2 (⟨t.val * 5000 + r.val, by omega⟩ : Fin 100000) q :=
    funext fun a => Fin.ext (by
      match a with
      | ⟨0, _⟩ => show win6_4.index t (0 : Fin 2) * 5000 + 1 * r.val = t.val * 5000 + r.val; omega
      | ⟨1, _⟩ => show win6_4.index t (1 : Fin 2) * 10 + 1 * q.val = q.val; omega)
  rw [hi]
  unfold G4
  refine congrArg (fun o => logProb o q) (funext fun k => ?_)
  exact logit_block V c t r k ⟨t.val * 5000 + r.val, by omega⟩ rfl

/-- An index is in point `t`'s block of the first output iff each coordinate is in the block's range on its axis. -/
theorem mem_blk3 (t : Fin cfg6.N) (i : S100000x10.Idx) :
    i ∈ ((cfg6.win 3).blk t).view.set ↔ ∀ a : Fin 2, win6_3.index t a * S5000x10.size a ≤ (i a).val ∧ (i a).val < win6_3.index t a * S5000x10.size a + S5000x10.size a := by
  show i ∈ ((View.whole main_v103_0).slice (win6_3.rect t)).set ↔ _
  rw [View.set_slice_whole, Rect.mem_set_unit]
  exact Iff.rfl

/-- The same for the second output. -/
theorem mem_blk4 (t : Fin cfg6.N) (i : S100000x10.Idx) :
    i ∈ ((cfg6.win 4).blk t).view.set ↔ ∀ a : Fin 2, win6_4.index t a * S5000x10.size a ≤ (i a).val ∧ (i a).val < win6_4.index t a * S5000x10.size a + S5000x10.size a := by
  show i ∈ ((View.whole main_v103_1).slice (win6_4.rect t)).set ↔ _
  rw [View.set_slice_whole, Rect.mem_set_unit]
  exact Iff.rfl

/-- Every row of the first output belongs to the block of the point numbered by its row divided by 5000. -/
theorem cover3 (i : S100000x10.Idx) :
    ∃ t : Fin cfg6.N, (cfg6.win 3).flush t = true ∧ i ∈ ((cfg6.win 3).blk t).view.set := by
  have hi0 : (i 0).val < 100000 := (i 0).isLt
  have hi1 : (i 1).val < 10 := (i 1).isLt
  have hN : grid6.N = 20 := N_6
  refine ⟨⟨(i 0).val / 5000, by show (i 0).val / 5000 < grid6.N; omega⟩, flush6_3 _, ?_⟩
  rw [mem_blk3]
  obtain ⟨e00, e01, e10, e11, e20, e21, e30, e31, e40, e41⟩ := idx_facts ⟨(i 0).val / 5000, by show (i 0).val / 5000 < grid6.N; omega⟩
  intro a
  match a with
  | ⟨0, _⟩ =>
    show win6_3.index _ (0 : Fin 2) * 5000 ≤ (i 0).val ∧ (i 0).val < win6_3.index _ (0 : Fin 2) * 5000 + 5000
    rw [e30]; show (i 0).val / 5000 * 5000 ≤ (i 0).val ∧ (i 0).val < (i 0).val / 5000 * 5000 + 5000; omega
  | ⟨1, _⟩ =>
    show win6_3.index _ (1 : Fin 2) * 10 ≤ (i 1).val ∧ (i 1).val < win6_3.index _ (1 : Fin 2) * 10 + 10
    rw [e31]; omega

/-- The same for the second output. -/
theorem cover4 (i : S100000x10.Idx) :
    ∃ t : Fin cfg6.N, (cfg6.win 4).flush t = true ∧ i ∈ ((cfg6.win 4).blk t).view.set := by
  have hi0 : (i 0).val < 100000 := (i 0).isLt
  have hi1 : (i 1).val < 10 := (i 1).isLt
  have hN : grid6.N = 20 := N_6
  refine ⟨⟨(i 0).val / 5000, by show (i 0).val / 5000 < grid6.N; omega⟩, flush6_4 _, ?_⟩
  rw [mem_blk4]
  obtain ⟨e00, e01, e10, e11, e20, e21, e30, e31, e40, e41⟩ := idx_facts ⟨(i 0).val / 5000, by show (i 0).val / 5000 < grid6.N; omega⟩
  intro a
  match a with
  | ⟨0, _⟩ =>
    show win6_4.index _ (0 : Fin 2) * 5000 ≤ (i 0).val ∧ (i 0).val < win6_4.index _ (0 : Fin 2) * 5000 + 5000
    rw [e40]; show (i 0).val / 5000 * 5000 ≤ (i 0).val ∧ (i 0).val < (i 0).val / 5000 * 5000 + 5000; omega
  | ⟨1, _⟩ =>
    show win6_4.index _ (1 : Fin 2) * 10 ≤ (i 1).val ∧ (i 1).val < win6_4.index _ (1 : Fin 2) * 10 + 10
    rw [e41]; omega

/-- The first output array after the region: the rectified logits, at every entry. -/
theorem final3 (c : Dev nD) : (dat6 V c).arrAt 3 cfg6.N = G3 V c :=
  (dat6 V c).arrAt_eq_of_cover 3 (G3 V c) (fun t _ => flushed3_eq V c t) (cover3)

/-- The second output array after the region: the log-probabilities, at every entry. -/
theorem final4 (c : Dev nD) : (dat6 V c).arrAt 4 cfg6.N = G4 V c :=
  (dat6 V c).arrAt_eq_of_cover 4 (G4 V c) (fun t _ => flushed4_eq V c t) (cover4)

end Cert.KernelIdeal.Out6

end
-- ==== Proof.SpecAt.lean ====
/-
  The specification's stages read at an entry, at the exact extended-real instance: the linear part as two textbook
  matrix products and a bias, the normalisation as a per-channel affine map under a rectifier, the read-out likewise,
  and the log-softmax as a function of each row of ten — the forms the kernel's blocks are read in.
-/
import proofs.«131058_j47364899340882_1_alg».proof.Proof.Spec
import proofs.«131058_j47364899340882_1_alg».proof.Proof.Sage0
import proofs.«131058_j47364899340882_1_alg».proof.Proof.Bn1
import proofs.«131058_j47364899340882_1_alg».proof.Proof.Out6
import proofs.«131058_j47364899340882_1_alg».proof.Proof.LibDot
import proofs.«131058_j47364899340882_1_alg».proof.Proof.LibCol
import Idealize.ShloMosaic.Lib.KernelVsHost
import Idealize.ShloMosaic.Lib.IdealHost

noncomputable section

open scoped BigOperators

namespace Cert.SpecAt

open Idealize.ShloMosaic Idealize.ShloMosaic.ValueIdx
open Cert.ReferenceIdeal Cert.ReferenceIdeal.Facts₀ Cert.ReferenceIdeal.Facts

variable [Cert.ReferenceIdeal.Facts]

theorem plainR : Cert.LibDot.IsPlain dot_S100000x128_S128x128_S100000x128_1_0_0_1_n_n := ⟨rfl, rfl, rfl, rfl, rfl, rfl⟩
theorem plainR10 : Cert.LibDot.IsPlain dot_S100000x128_S128x10_S100000x10_1_0_0_1_n_n := ⟨rfl, rfl, rfl, rfl, rfl, rfl⟩

/-- A splat of a scalar constant reads the constant's value everywhere. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- The linear part at an entry. -/
theorem linear_eq (agg h : Cert.Spec.Arr Ideal S100000x128) (Wl Wr : Cert.Spec.Arr Ideal S128x128) (b2 : Cert.Spec.Arr Ideal S1x128) :
    Cert.Spec.linear (F := Ideal) agg h Wl Wr b2 = fun i => Cert.KernelIdeal.Sage0.entry agg h Wl Wr b2 (i 0) (i 1) := by
  funext i
  obtain ⟨p, q, rfl⟩ : ∃ (p : Fin 100000) (q : Fin 128), i = ix2 p q := ⟨i 0, i 1, eq_ix2 i⟩
  unfold Cert.Spec.linear Cert.Spec.rows Cert.KernelIdeal.Sage0.entry
  show (_ + _) + _ = (_ + _) + _
  refine congrArg₂ (· + ·) (congrArg₂ (· + ·) ?_ ?_) ?_
  · exact Cert.LibDot.dotGeneral_apply _ plainR none _ agg Wl p q
  · exact Cert.LibDot.dotGeneral_apply _ plainR none _ h Wr p q
  · exact broadcastInDim_oneRow_apply _ b2 p q

/-- The normalisation at an entry. -/
theorem normalizeRows_eq (z : Cert.Spec.Arr Ideal S100000x128) (g2 d2 r2 bt2 : Cert.Spec.Arr Ideal S1x128) :
    Cert.Spec.normalizeRows (F := Ideal) z g2 d2 r2 bt2 = fun i => Cert.KernelIdeal.Bn1.entry z g2 d2 r2 bt2 (i 0) (i 1) := by
  funext i
  obtain ⟨p, q, rfl⟩ : ∃ (p : Fin 100000) (q : Fin 128), i = ix2 p q := ⟨i 0, i 1, eq_ix2 i⟩
  unfold Cert.Spec.normalizeRows Cert.Spec.rows Cert.KernelIdeal.Bn1.entry
  show max (_ * (_ - _) * _ + _) _ = max (_ * (_ - _) * _ + _) _
  refine congrArg₂ max (congrArg₂ (· + ·) (congrArg₂ (· * ·) (congrArg₂ (· * ·) ?_ (congrArg₂ (· - ·) rfl ?_)) ?_) ?_) ?_
  · exact broadcastInDim_oneRow_apply _ g2 p q
  · exact broadcastInDim_oneRow_apply _ d2 p q
  · exact broadcastInDim_oneRow_apply _ r2 p q
  · exact broadcastInDim_oneRow_apply _ bt2 p q
  · exact splat_apply _ _ _

/-- The reciprocal root of a variance row: taken on the row, or on the vector and then laid out as a row. -/
theorem invStdRow_rowOf (var : Cert.Spec.Arr Ideal S128) :
    Cert.KernelIdeal.Bn1.invStdRow (Cert.Spec.rowOf var) = Cert.Spec.rowOf (Cert.Spec.invStd var) := by
  funext j
  obtain ⟨u, q, rfl⟩ : ∃ (u : Fin 1) (q : Fin 128), j = ix2 u q := ⟨j 0, j 1, eq_ix2 j⟩
  unfold Cert.KernelIdeal.Bn1.invStdRow Cert.Spec.rowOf Cert.Spec.invStd
  refine Eq.trans ?_ (Cert.LibCol.broadcastInDim_a_1a_apply _ _ u q).symm
  show Ideal.rsqrt (_ + _) = Ideal.rsqrt (_ + _)
  refine congrArg Ideal.rsqrt (congrArg₂ (· + ·) ?_ ?_)
  · exact Cert.LibCol.broadcastInDim_a_1a_apply var _ u q
  · show Ideal.ofBits .f32 0x3727C5AC#32 = _
    exact (splat_apply _ _ _).symm

/-- The read-out at an entry. -/
theorem logitsRow_eq (h : Cert.Spec.Arr Ideal S100000x128) (W : Cert.Spec.Arr Ideal S128x10) (b2 : Cert.Spec.Arr Ideal S1x10) :
    Cert.Spec.logitsRow (F := Ideal) h W b2 = fun i => Cert.KernelIdeal.Out6.logit h W b2 (i 0) (i 1) := by
  funext i
  obtain ⟨p, q, rfl⟩ : ∃ (p : Fin 100000) (q : Fin 10), i = ix2 p q := ⟨i 0, i 1, eq_ix2 i⟩
  unfold Cert.Spec.logitsRow Cert.KernelIdeal.Out6.logit
  show max (_ + _) _ = max (_ + _) _
  refine congrArg₂ max (congrArg₂ (· + ·) ?_ ?_) ?_
  · exact Cert.LibDot.dotGeneral_apply _ plainR10 none _ h W p q
  · exact broadcastInDim_oneRow_apply _ b2 p q
  · exact splat_apply _ _ _

end Cert.SpecAt

end
-- ==== Proof.SpecSoftmax.lean ====
/-
  The specification's log-softmax read at an entry, at the exact extended-real instance: a function of the entry's row
  of ten — the logit less the row's maximum, less the logarithm of the sum of the exponentials of the shifted row.
-/
import proofs.«131058_j47364899340882_1_alg».proof.Proof.Spec
import proofs.«131058_j47364899340882_1_alg».proof.Proof.Out6
import proofs.«131058_j47364899340882_1_alg».proof.Proof.LibCol
import Idealize.ShloMosaic.Lib.KernelVsHost
import Mathlib.Data.Finset.Fold
import Idealize.ShloMosaic.Lib.IdealHost

noncomputable section

open scoped BigOperators

namespace Cert.SpecAt

open Idealize.ShloMosaic Idealize.ShloMosaic.ValueIdx
open Cert.ReferenceIdeal Cert.ReferenceIdeal.Facts₀ Cert.ReferenceIdeal.Facts

variable [Cert.ReferenceIdeal.Facts]

/-- A splat of a scalar constant reads the constant's value everywhere. -/
theorem splat_apply' {T : Shape} (h : S_.BroadcastsInDim T ![]) (w : BitVec 32) (j : T.Idx) :
    broadcastInDim T ![] h (constant (F := Ideal) S_ .f32 w) j = Ideal.ofBits .f32 w :=
  broadcastInDim_scalar_apply h _ j

instance : Std.Commutative (FloatOps.maximumf (F := Ideal) (φ := .f32)) := ⟨fun a b => max_comm a b⟩
instance : Std.Associative (FloatOps.maximumf (F := Ideal) (φ := .f32)) := ⟨fun a b c => max_assoc a b c⟩

theorem redMax : S100000x10.Reduces [1] S100000 := by decide

/-- The host's maximum over the ten classes of a row, from minus infinity. -/
theorem hostReduceMax (x : FVec Ideal S100000x10 .f32) (p : Fin 100000) :
    Host.reduce (FloatOps.maximumf (F := Ideal) (φ := .f32)) x (constant (F := Ideal) S_ .f32 0xFF800000#32) reducesTo_S100000x10_S100000_d1 h_S_ (ix1 p)
      = Cert.KernelIdeal.Out6.rowMax fun k => x (ix2 p k) := by
  rw [Host.reduce_eq_fold_single (FloatOps.maximumf (F := Ideal) (φ := .f32)) x _ reducesTo_S100000x10_S100000_d1 redMax h_S_ (ix1 p)]
  have hf : x ∘ redMax.lift (ix1 p) = fun k => x (ix2 p k) := funext fun k => by
    show x (redMax.lift (ix1 p) k) = x (ix2 p k)
    rw [Cert.LibCol.lift_last redMax p k]
  rw [hf]
  rfl

/-- The host's sum over the ten classes of a row, from zero. -/
theorem hostReduceSum (x : FVec Ideal S100000x10 .f32) (p : Fin 100000) :
    Host.reduceAdd (F := Ideal) x (constant (F := Ideal) S_ .f32 0x00000000#32) reducesTo_S100000x10_S100000_d1 h_S_ (ix1 p) = ∑ k : Fin 10, x (ix2 p k) := by
  show Ideal.hostReduceAdd reducesTo_S100000x10_S100000_d1 _ _ (ix1 p) = _
  rw [Ideal.hostReduceAdd_single reducesTo_S100000x10_S100000_d1 redMax]
  rw [show (constant (F := Ideal) S_ .f32 0x00000000#32) (Shape.Idx.first h_S_) = 0 from Ideal.ofBits_zero_f32, zero_add]
  refine Finset.sum_congr rfl fun k _ => ?_
  rw [Cert.LibCol.lift_last redMax p k]

theorem hostLog_apply (X : FVec Ideal S100000x1 .f32) (j : S100000x1.Idx) : Host.log (F := Ideal) X j = Ideal.log (X j) := rfl
theorem hostExp_apply (X : FVec Ideal S100000x10 .f32) (j : S100000x10.Idx) : Host.exp (F := Ideal) X j = Ideal.exp (X j) := rfl

/-- The row maximum the host takes (a reduction from minus infinity, then a maximum with minus infinity again). -/
theorem hostRowMax (o : Cert.Spec.Arr Ideal S100000x10) (p : Fin 100000) :
    maximumf (broadcastInDim S100000 ![] bcast_S_S100000 (constant (F := Ideal) S_ .f32 0xFF800000#32))
        (Host.reduce FloatOps.maximumf o (constant S_ .f32 0xFF800000#32) reducesTo_S100000x10_S100000_d1 h_S_) (ix1 p)
      = Cert.KernelIdeal.Out6.rowMax fun k => o (ix2 p k) := by
  rw [maximumf_apply, splat_apply', hostReduceMax o p]
  have hb : (Ideal.ofBits .f32 0xFF800000#32 : EReal) ≤ Cert.KernelIdeal.Out6.rowMax fun k => o (ix2 p k) := by
    unfold Cert.KernelIdeal.Out6.rowMax
    exact (Finset.le_fold_max _).mpr (Or.inl le_rfl)
  exact max_eq_right hb

/-- Each row less its maximum, at an entry. -/
theorem shifted_apply (o : Cert.Spec.Arr Ideal S100000x10) (p : Fin 100000) (c : Fin 10) :
    Cert.Spec.shifted (F := Ideal) o (ix2 p c) = o (ix2 p c) - Cert.KernelIdeal.Out6.rowMax fun k => o (ix2 p k) := by
  unfold Cert.Spec.shifted
  rw [subf_apply]
  refine congrArg₂ (· - ·) rfl ?_
  exact (Cert.LibCol.broadcastInDim_a1_ab_apply _ _ p c).trans
    ((Cert.LibCol.broadcastInDim_a_a1_apply _ _ p 0).trans (hostRowMax o p))

/-- The log-softmax at an entry: a function of the entry's row of ten. -/
theorem logSoftmax_eq (o : Cert.Spec.Arr Ideal S100000x10) :
    Cert.Spec.logSoftmax (F := Ideal) o = fun i => Cert.KernelIdeal.Out6.logProb (fun k => o (ix2 (i 0) k)) (i 1) := by
  funext i
  obtain ⟨p, q, rfl⟩ : ∃ (p : Fin 100000) (q : Fin 10), i = ix2 p q := ⟨i 0, i 1, eq_ix2 i⟩
  unfold Cert.Spec.logSoftmax Cert.KernelIdeal.Out6.logProb
  rw [subf_apply]
  refine congrArg₂ (· - ·) (shifted_apply o p q) ?_
  refine (Cert.LibCol.broadcastInDim_a1_ab_apply _ _ p q).trans ?_
  rw [hostLog_apply]
  refine congrArg Ideal.log ?_
  refine (Cert.LibCol.broadcastInDim_a_a1_apply _ _ p 0).trans ?_
  refine (hostReduceSum _ p).trans ?_
  refine Finset.sum_congr rfl fun k _ => ?_
  rw [hostExp_apply, shifted_apply o p k]

end Cert.SpecAt

end
-- ==== Proof.KerValue.lean ====
/- The kernel program's two results as the specification's functions of the argument arrays.

   Region by region: the first region's output array is the first layer's linear part; the second's is the first layer;
   and so on through the three layers; the last region's two output arrays are the rectified logits of the features
   after three layers and their row-wise log-softmax.  Each stage is a lemma about arbitrary input arrays,
   applied to the array the previous stage leaves. -/
import proofs.«131058_j47364899340882_1_alg».proof.Proof.KerRun
import proofs.«131058_j47364899340882_1_alg».proof.Proof.KerRead
import proofs.«131058_j47364899340882_1_alg».proof.Proof.Sage0
import proofs.«131058_j47364899340882_1_alg».proof.Proof.Sage2
import proofs.«131058_j47364899340882_1_alg».proof.Proof.Sage4
import proofs.«131058_j47364899340882_1_alg».proof.Proof.Bn1
import proofs.«131058_j47364899340882_1_alg».proof.Proof.Bn3
import proofs.«131058_j47364899340882_1_alg».proof.Proof.Bn5
import proofs.«131058_j47364899340882_1_alg».proof.Proof.Out6
import proofs.«131058_j47364899340882_1_alg».proof.Proof.SpecAt
import proofs.«131058_j47364899340882_1_alg».proof.Proof.SpecSoftmax

set_option maxRecDepth 16384

noncomputable section

namespace Cert.KernelIdeal.KerValue

open Idealize.ShloMosaic Idealize.ShloMosaic.TcCoe Idealize.ShloMosaic.ValueIdx Idealize.SL.Sem
open Cert.KernelIdeal.KerRead
open Cert.Spec (Arr IArr)

variable [Cert.ReferenceIdeal.Facts]

/-! ## One region's array from its inputs, the inputs variables -/

/-- A linear region: aggregated features, own features, two weights, the bias laid out as one row. -/
theorem sage_value (agg h : Arr Ideal S100000x128) (Wl Wr : Arr Ideal S128x128) (b : Arr Ideal S128) :
    (fun i : S100000x128.Idx => Sage0.entry agg h Wl Wr (oneRow b) (i 0) (i 1))
      = Cert.Spec.linear agg h Wl Wr (Cert.Spec.rowOf b) := by
  rw [oneRow_eq_rowOf, Cert.SpecAt.linear_eq]

/-- A normalising region: features, then scale, mean, variance and shift each laid out as one row. -/
theorem bn_value (z : Arr Ideal S100000x128) (mean var g bt : Arr Ideal S128) :
    (fun i : S100000x128.Idx => Bn1.entry z (oneRow g) (oneRow mean) (Bn1.invStdRow (oneRow var)) (oneRow bt) (i 0) (i 1))
      = Cert.Spec.normalize z mean var g bt := by
  rw [oneRow_eq_rowOf, oneRow_eq_rowOf, oneRow_eq_rowOf, oneRow_eq_rowOf, Cert.SpecAt.invStdRow_rowOf]
  unfold Cert.Spec.normalize
  rw [Cert.SpecAt.normalizeRows_eq]

/-- The read-out's first array: the rectified logits. -/
theorem logits_value (h : Arr Ideal S100000x128) (W : Arr Ideal S128x10) (b : Arr Ideal S10) :
    (fun i : S100000x10.Idx => Out6.logit h W (oneRow10 b) (i 0) (i 1)) = Cert.Spec.logits h W b := by
  rw [oneRow10_eq_broadcastInDim]
  unfold Cert.Spec.logits
  rw [Cert.SpecAt.logitsRow_eq]

/-- The read-out's second array: the row-wise log-softmax of the rectified logits. -/
theorem logp_value (h : Arr Ideal S100000x128) (W : Arr Ideal S128x10) (b : Arr Ideal S10) :
    (fun i : S100000x10.Idx => Out6.logProb (fun k => Out6.logit h W (oneRow10 b) (i 0) k) (i 1))
      = Cert.Spec.logSoftmax (Cert.Spec.logits h W b) := by
  rw [Cert.SpecAt.logSoftmax_eq, ← logits_value]

/-! ## The regions' arrays, in order -/

variable (m : (ℓ : Loc nD τ sig) → Buf (Elt Ideal) ℓ) (ρ : Dev nD → PrngReg)

/-- Region 0's output array: the first layer's linear part. -/
theorem z0_eq (c : Dev nD) : (Gen.dat0 (Gen.V1 m ρ) c).arrAt 5 cfg0.N = (Cert.Spec.linear (Cert.Spec.aggregate (m ((c : Thread nD τ).loc main_arg1)) (m ((c : Thread nD τ).loc main_arg0))) (m ((c : Thread nD τ).loc main_arg0)) (m ((c : Thread nD τ).loc main_arg2)) (m ((c : Thread nD τ).loc main_arg3)) (Cert.Spec.rowOf (m ((c : Thread nD τ).loc main_arg4)))) := by
  refine (Sage0.final (Gen.V1 m ρ) c).trans ?_
  unfold Sage0.G
  rw [show Gen.V1 m ρ c main_v24 = _ from V1_w0 m ρ c,
    show Gen.V1 m ρ c main_arg0 = _ from V1_w1 m ρ c,
    show Gen.V1 m ρ c main_arg2 = _ from V1_w2 m ρ c,
    show Gen.V1 m ρ c main_arg3 = _ from V1_w3 m ρ c,
    show Gen.V1 m ρ c main_v25 = _ from V1_w4 m ρ c]
  exact sage_value _ _ _ _ _

/-- Region 1's output array: the first layer. -/
theorem h1_eq (c : Dev nD) : (Gen.dat1 (Gen.V5 m ρ) c).arrAt 5 cfg1.N = (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) := by
  refine (Bn1.final (Gen.V5 m ρ) c).trans ?_
  unfold Bn1.G
  rw [show Gen.V5 m ρ c main_v26 = _ from V5_w0 m ρ c,
    show Gen.V5 m ρ c main_v33 = _ from V5_w3 m ρ c,
    show Gen.V5 m ρ c main_v31 = _ from V5_w1 m ρ c,
    show Gen.V5 m ρ c main_v32 = _ from V5_w2 m ρ c,
    show Gen.V5 m ρ c main_v34 = _ from V5_w4 m ρ c]
  rw [z0_eq m ρ c]
  unfold Cert.Spec.layer
  exact bn_value _ _ _ _ _

/-- Region 2's output array: the second layer's linear part. -/
theorem z2_eq (c : Dev nD) : (Gen.dat2 (Gen.V7 m ρ) c).arrAt 5 cfg2.N = (Cert.Spec.linear (Cert.Spec.aggregate (m ((c : Thread nD τ).loc main_arg1)) (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)))) (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (Cert.Spec.mat0 (m ((c : Thread nD τ).loc main_arg7))) (Cert.Spec.mat0 (m ((c : Thread nD τ).loc main_arg8))) (Cert.Spec.rowOf (Cert.Spec.vec0 (m ((c : Thread nD τ).loc main_arg9))))) := by
  refine (Sage2.final (Gen.V7 m ρ) c).trans ?_
  unfold Sage2.G
  rw [show Gen.V7 m ρ c main_v47 = _ from V7_w0 m ρ c,
    show Gen.V7 m ρ c main_v35 = _ from V7_w1 m ρ c,
    show Gen.V7 m ρ c main_v49 = _ from V7_w2 m ρ c,
    show Gen.V7 m ρ c main_v51 = _ from V7_w3 m ρ c,
    show Gen.V7 m ρ c main_v54 = _ from V7_w4 m ρ c]
  rw [h1_eq m ρ c]
  exact sage_value _ _ _ _ _

/-- Region 3's output array: the second layer. -/
theorem h3_eq (c : Dev nD) : (Gen.dat3 (Gen.V11 m ρ) c).arrAt 5 cfg3.N = (Cert.Spec.layer (m ((c : Thread nD τ).loc main_arg1)) (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (Cert.Spec.mat0 (m ((c : Thread nD τ).loc main_arg7))) (Cert.Spec.mat0 (m ((c : Thread nD τ).loc main_arg8))) (Cert.Spec.vec0 (m ((c : Thread nD τ).loc main_arg9))) (Cert.Spec.vec0 (m ((c : Thread nD τ).loc main_arg10))) (Cert.Spec.vec0 (m ((c : Thread nD τ).loc main_arg11)))) := by
  refine (Bn3.final (Gen.V11 m ρ) c).trans ?_
  unfold Bn3.G
  rw [show Gen.V11 m ρ c main_v55 = _ from V11_w0 m ρ c,
    show Gen.V11 m ρ c main_v66 = _ from V11_w3 m ρ c,
    show Gen.V11 m ρ c main_v64 = _ from V11_w1 m ρ c,
    show Gen.V11 m ρ c main_v65 = _ from V11_w2 m ρ c,
    show Gen.V11 m ρ c main_v67 = _ from V11_w4 m ρ c]
  rw [z2_eq m ρ c]
  unfold Cert.Spec.layer
  exact bn_value _ _ _ _ _

/-- Region 4's output array: the third layer's linear part. -/
theorem z4_eq (c : Dev nD) : (Gen.dat4 (Gen.V13 m ρ) c).arrAt 5 cfg4.N = (Cert.Spec.linear (Cert.Spec.aggregate (m ((c : Thread nD τ).loc main_arg1)) (Cert.Spec.layer (m ((c : Thread nD τ).loc main_arg1)) (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (Cert.Spec.mat0 (m ((c : Thread nD τ).loc main_arg7))) (Cert.Spec.mat0 (m ((c : Thread nD τ).loc main_arg8))) (Cert.Spec.vec0 (m ((c : Thread nD τ).loc main_arg9))) (Cert.Spec.vec0 (m ((c : Thread nD τ).loc main_arg10))) (Cert.Spec.vec0 (m ((c : Thread nD τ).loc main_arg11))))) (Cert.Spec.layer (m ((c : Thread nD τ).loc main_arg1)) (Cert.Spec.layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (Cert.Spec.mat0 (m ((c : Thread nD τ).loc main_arg7))) (Cert.Spec.mat0 (m ((c : Thread nD τ).loc main_arg8))) (Cert.Spec.vec0 (m ((c : Thread nD τ).loc main_arg9))) (Cert.Spec.vec0 (m ((c : Thread nD τ).loc main_arg10))) (Cert.Spec.vec0 (m ((c : Thread nD τ).loc main_arg11)))) (Cert.Spec.mat1 (m ((c : Thread nD τ).loc main_arg7))) (Cert.Spec.mat1 (m ((c : Thread nD τ).loc main_arg8))) (Cert.Spec.rowOf (Cert.Spec.vec1 (m ((c : Thread nD τ).loc main_arg9))))) := by
  refine (Sage4.final (Gen.V13 m ρ) c).trans ?_
  unfold Sage4.G
  rw [show Gen.V13 m ρ c main_v80 = _ from V13_w0 m ρ c,
    show Gen.V13 m ρ c main_v68 = _ from V13_w1 m ρ c,
    show Gen.V13 m ρ c main_v82 = _ from V13_w2 m ρ c,
    show Gen.V13 m ρ c main_v84 = _ from V13_w3 m ρ c,
    show Gen.V13 m ρ c main_v87 = _ from V13_w4 m ρ c]
  rw [h3_eq m ρ c]
  exact sage_value _ _ _ _ _

/-- Region 5's output array: the features after the three layers. -/
theorem h5_eq (c : Dev nD) : (Gen.dat5 (Gen.V17 m ρ) c).arrAt 5 cfg5.N = (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (Bn5.final (Gen.V17 m ρ) c).trans ?_
  unfold Bn5.G
  rw [show Gen.V17 m ρ c main_v88 = _ from V17_w0 m ρ c,
    show Gen.V17 m ρ c main_v99 = _ from V17_w3 m ρ c,
    show Gen.V17 m ρ c main_v97 = _ from V17_w1 m ρ c,
    show Gen.V17 m ρ c main_v98 = _ from V17_w2 m ρ c,
    show Gen.V17 m ρ c main_v100 = _ from V17_w4 m ρ c]
  rw [z4_eq m ρ c]
  unfold Cert.Spec.hidden Cert.Spec.layer
  exact bn_value _ _ _ _ _

/-- Region 6's first output array: the rectified logits. -/
theorem out_eq (c : Dev nD) : (Gen.dat6 (Gen.V19 m ρ) c).arrAt 3 cfg6.N = (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (Out6.final3 (Gen.V19 m ρ) c).trans ?_
  unfold Out6.G3
  rw [show Gen.V19 m ρ c main_v101 = _ from V19_w0 m ρ c,
    show Gen.V19 m ρ c main_arg12 = _ from V19_w1 m ρ c,
    show Gen.V19 m ρ c main_v102 = _ from V19_w2 m ρ c]
  rw [h5_eq m ρ c]
  unfold Cert.Spec.out
  exact logits_value _ _ _

/-- Region 6's second output array: the log-probabilities. -/
theorem logp_eq (c : Dev nD) : (Gen.dat6 (Gen.V19 m ρ) c).arrAt 4 cfg6.N = (Cert.Spec.logp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (Out6.final4 (Gen.V19 m ρ) c).trans ?_
  unfold Out6.G4
  rw [show Gen.V19 m ρ c main_v101 = _ from V19_w0 m ρ c,
    show Gen.V19 m ρ c main_arg12 = _ from V19_w1 m ρ c,
    show Gen.V19 m ρ c main_v102 = _ from V19_w2 m ρ c]
  rw [h5_eq m ρ c]
  unfold Cert.Spec.logp Cert.Spec.out
  exact logp_value _ _ _

/-! ## The two result buffers at the end of the run -/

/-- The first result buffer holds the log-probabilities of the argument arrays. -/
theorem W20_logp (c : Dev nD) : Gen.W20 m ρ c (Proc.devRef .tc main_v103_1) = (Cert.Spec.logp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W20_v103_1 m ρ c).trans (logp_eq m ρ c)
/-- The second result buffer holds the rectified logits of the argument arrays. -/
theorem W20_out (c : Dev nD) : Gen.W20 m ρ c (Proc.devRef .tc main_v103_0) = (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W20_v103_0 m ρ c).trans (out_eq m ρ c)

/-! ## The run, its results named by the specification -/

/-- Every weakly fair execution of the kernel program from a memory with zero counters terminates without fault; in
    every final state the first result buffer holds the specification's log-probabilities of the argument arrays, the
    second its rectified logits, and the fourteen argument arrays are as launched. -/
theorem run_spec : θ_run defs (onTc (τ := τ) (main (F := Ideal))) ⟨m, fun _ => 0, ρ⟩ (fun r => ∀ c : Dev nD,
      r.2.mem ((c.tc : Thread nD τ).loc main_v103_1) = (Cert.Spec.logp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_v103_0) = (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c => ⟨(h c).1.trans (W20_logp m ρ c), (h c).2.1.trans (W20_out m ρ c), (h c).2.2⟩)
    (KerRun.run_results m ρ)

end Cert.KernelIdeal.KerValue

end
-- ==== Proof.RefRun.lean ====
/-
  The run of the reference program. Its @main is a straight line of host operations once each module-local
  function (the variance `_var`, which itself calls `_where`; `relu` at two shapes; `log_softmax`) is replaced at
  its call by its body over that call's buffers: 263 operations. The line is written out as a list (`ops`), and
  also as the three consecutive pieces in which @main is printed (`ops0`, `ops1`, `ops2`); each printed piece is
  the sequence of its list (sequencing reassociated), @main is the three in order, and the list of the whole is
  their concatenation. The library's rule for a straight line then gives: every weakly fair execution terminates,
  and each TensorCore buffer ends at the fold of the operations' results over the launch contents.
-/
import proofs.«131058_j47364899340882_1_alg».proof.ReferenceIdeal
import proofs.«131058_j47364899340882_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first printed piece (statements 1 … 60), each call's body in place of the call. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v23 main_v24 (mulf : (⟨S100000x128, .f32⟩ : BufTy).Contents (Elt F) → (⟨S100000x128, .f32⟩ : BufTy).Contents (Elt F) → (⟨S100000x128, .f32⟩ : BufTy).Contents (Elt F)),
    StableHlo.binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v25 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v30 main_cst_5 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v30 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v30 : StableHlo.TRef sig ⟨S100000x128, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v36 main_v37 (subf : (⟨S100000x128, .f32⟩ : BufTy).Contents (Elt F) → (⟨S100000x128, .f32⟩ : BufTy).Contents (Elt F) → (⟨S100000x128, .f32⟩ : BufTy).Contents (Elt F)),
    StableHlo.unary main_arg5 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v37 main_v40 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v41 (broadcastInDim S128 ![] bcast_S_S128 : (⟨S_, .f32⟩ : BufTy).Contents (Elt F) → (⟨S128, .f32⟩ : BufTy).Contents (Elt F)),
    StableHlo.binary main_v34 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)) ]

/-- The operations of @main's second printed piece (statements 61 … 120). -/
abbrev ops1 : List (HloOp τ sig (Elt F)) :=
  [ StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v49 : StableHlo.TRef sig ⟨S100000x128, .f32⟩) main_call1.v0 main_call1.v1 maximumf,
    StableHlo.unary main_arg7 main_v51 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v51 main_v52 rfl shapeCasts_S1x128x128_S128x128,
    StableHlo.unary main_arg8 main_v53 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v53 main_v54 rfl shapeCasts_S1x128x128_S128x128,
    StableHlo.unary main_arg9 main_v55 ((extractStridedSlice S1x128 ![0, 0] · slices_S2x128_S1x128_0_0) : (⟨S2x128, .f32⟩ : BufTy).Contents (Elt F) → (⟨S1x128, .f32⟩ : BufTy).Contents (Elt F)),
    StableHlo.reshape main_v55 main_v56 rfl shapeCasts_S1x128_S128,
    StableHlo.nullary main_c_9 (constantI S_ 32 0#32),
    StableHlo.unary main_c_9 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v50 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v64 (broadcastInDim S100000x128 ![] bcast_S_S100000x128 : (⟨S_, .f32⟩ : BufTy).Contents (Elt F) → (⟨S100000x128, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v67 (broadcastInDim S100000x128 ![0, 1] bcast_S100000x1_S100000x128_0_1 : (⟨S100000x1, .f32⟩ : BufTy).Contents (Elt F) → (⟨S100000x128, .f32⟩ : BufTy).Contents (Elt F)),
    StableHlo.binary main_v66 main_v67 main_v68 (mulf : (⟨S100000x128, .f32⟩ : BufTy).Contents (Elt F) → (⟨S100000x128, .f32⟩ : BufTy).Contents (Elt F) → (⟨S100000x128, .f32⟩ : BufTy).Contents (Elt F)),
    StableHlo.binary main_v68 main_v52 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v50 main_v54 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v69 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.unary main_arg10 main_v75 ((extractStridedSlice S1x128 ![0, 0] · slices_S2x128_S1x128_0_0) : (⟨S2x128, .f32⟩ : BufTy).Contents (Elt F) → (⟨S1x128, .f32⟩ : BufTy).Contents (Elt F)),
    StableHlo.reshape main_v75 main_v76 rfl shapeCasts_S1x128_S128,
    StableHlo.unary main_arg11 main_v77 ((extractStridedSlice S1x128 ![0, 0] · slices_S2x128_S1x128_0_0) : (⟨S2x128, .f32⟩ : BufTy).Contents (Elt F) → (⟨S1x128, .f32⟩ : BufTy).Contents (Elt F)),
    StableHlo.reshape main_v77 main_v78 rfl shapeCasts_S1x128_S128,
    StableHlo.nullary main_cst_12 (constant S_ .f32 0x00000000#32),
    StableHlo.binary main_v74 main_cst_12 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v74 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v74 : StableHlo.TRef sig ⟨S100000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v84 main_v85 (subf : (⟨S100000x128, .f32⟩ : BufTy).Contents (Elt F) → (⟨S100000x128, .f32⟩ : BufTy).Contents (Elt F) → (⟨S100000x128, .f32⟩ : BufTy).Contents (Elt F)),
    StableHlo.unary main_v76 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v85 main_v88 (mulf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v89 (broadcastInDim S128 ![] bcast_S_S128 : (⟨S_, .f32⟩ : BufTy).Contents (Elt F) → (⟨S128, .f32⟩ : BufTy).Contents (Elt F)),
    StableHlo.binary main_v82 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v97 : StableHlo.TRef sig ⟨S100000x128, .f32⟩) main_call3.v0 main_call3.v1 maximumf,
    StableHlo.unary main_arg7 main_v99 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v99 main_v100 rfl shapeCasts_S1x128x128_S128x128,
    StableHlo.unary main_arg8 main_v101 ((extractStridedSlice S1x128x128 ![1, 0, 0] · slices_S2x128x128_S1x128x128_1_0_0) : (⟨S2x128x128, .f32⟩ : BufTy).Contents (Elt F) → (⟨S1x128x128, .f32⟩ : BufTy).Contents (Elt F)) ]

/-- The operations of @main's third printed piece (statements 121 … 179). -/
abbrev ops2 : List (HloOp τ sig (Elt F)) :=
  [ StableHlo.reshape main_v101 main_v102 rfl shapeCasts_S1x128x128_S128x128,
    StableHlo.unary main_arg9 main_v103 ((extractStridedSlice S1x128 ![1, 0] · slices_S2x128_S1x128_1_0) : (⟨S2x128, .f32⟩ : BufTy).Contents (Elt F) → (⟨S1x128, .f32⟩ : BufTy).Contents (Elt F)),
    StableHlo.reshape main_v103 main_v104 rfl shapeCasts_S1x128_S128,
    StableHlo.nullary main_c_16 (constantI S_ 32 0#32),
    StableHlo.unary main_c_16 main_v105 (broadcastInDim S1600000 ![] bcast_S_S1600000 : (⟨S_, .i32⟩ : BufTy).Contents (Elt F) → (⟨S1600000, .i32⟩ : BufTy).Contents (Elt F)),
    StableHlo.binary main_v1 main_v105 main_v106 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v107 (broadcastInDim S1600000 ![] bcast_S_S1600000 : (⟨S_, .i32⟩ : BufTy).Contents (Elt F) → (⟨S1600000, .i32⟩ : BufTy).Contents (Elt F)),
    StableHlo.binary main_v1 main_v107 main_v108 (addi : (⟨S1600000, .i32⟩ : BufTy).Contents (Elt F) → (⟨S1600000, .i32⟩ : BufTy).Contents (Elt F) → (⟨S1600000, .i32⟩ : BufTy).Contents (Elt F)),
    StableHlo.ternary main_v106 main_v108 main_v1 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v109 main_v110 (broadcastInDim S1600000x1 ![0] bcast_S1600000_S1600000x1_0 : (⟨S1600000, .i32⟩ : BufTy).Contents (Elt F) → (⟨S1600000x1, .i32⟩ : BufTy).Contents (Elt F)),
    StableHlo.binary main_v98 main_v110 main_v111 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v112 (broadcastInDim S100000x128 ![] bcast_S_S100000x128 : (⟨S_, .f32⟩ : BufTy).Contents (Elt F) → (⟨S100000x128, .f32⟩ : BufTy).Contents (Elt F)),
    StableHlo.unary main_v3 main_v113 (broadcastInDim S1600000x1 ![0] bcast_S1600000_S1600000x1_0 : (⟨S1600000, .i32⟩ : BufTy).Contents (Elt F) → (⟨S1600000x1, .i32⟩ : BufTy).Contents (Elt F)),
    StableHlo.ternary main_v112 main_v113 main_v111 main_v114 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v115 (broadcastInDim S100000x128 ![0, 1] bcast_S100000x1_S100000x128_0_1 : (⟨S100000x1, .f32⟩ : BufTy).Contents (Elt F) → (⟨S100000x128, .f32⟩ : BufTy).Contents (Elt F)),
    StableHlo.binary main_v114 main_v115 main_v116 (mulf : (⟨S100000x128, .f32⟩ : BufTy).Contents (Elt F) → (⟨S100000x128, .f32⟩ : BufTy).Contents (Elt F) → (⟨S100000x128, .f32⟩ : BufTy).Contents (Elt F)),
    StableHlo.binary main_v116 main_v100 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v98 main_v102 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v117 main_v118 main_v119 (addf : (⟨S100000x128, .f32⟩ : BufTy).Contents (Elt F) → (⟨S100000x128, .f32⟩ : BufTy).Contents (Elt F) → (⟨S100000x128, .f32⟩ : BufTy).Contents (Elt F)),
    StableHlo.unary main_v104 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)),
    StableHlo.unary main_arg10 main_v123 ((extractStridedSlice S1x128 ![1, 0] · slices_S2x128_S1x128_1_0) : (⟨S2x128, .f32⟩ : BufTy).Contents (Elt F) → (⟨S1x128, .f32⟩ : BufTy).Contents (Elt F)),
    StableHlo.reshape main_v123 main_v124 rfl shapeCasts_S1x128_S128,
    StableHlo.unary main_arg11 main_v125 ((extractStridedSlice S1x128 ![1, 0] · slices_S2x128_S1x128_1_0) : (⟨S2x128, .f32⟩ : BufTy).Contents (Elt F) → (⟨S1x128, .f32⟩ : BufTy).Contents (Elt F)),
    StableHlo.reshape main_v125 main_v126 rfl shapeCasts_S1x128_S128,
    StableHlo.nullary main_cst_19 (constant S_ .f32 0x00000000#32),
    StableHlo.binary main_v122 main_cst_19 main_v127 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v122 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v122 : StableHlo.TRef sig ⟨S100000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v129 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v132 main_v133 (subf : (⟨S100000x128, .f32⟩ : BufTy).Contents (Elt F) → (⟨S100000x128, .f32⟩ : BufTy).Contents (Elt F) → (⟨S100000x128, .f32⟩ : BufTy).Contents (Elt F)),
    StableHlo.unary main_v124 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v133 main_v136 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v137 (broadcastInDim S128 ![] bcast_S_S128 : (⟨S_, .f32⟩ : BufTy).Contents (Elt F) → (⟨S128, .f32⟩ : BufTy).Contents (Elt F)),
    StableHlo.binary main_v130 main_v137 main_v138 (addf : (⟨S128, .f32⟩ : BufTy).Contents (Elt F) → (⟨S128, .f32⟩ : BufTy).Contents (Elt F) → (⟨S128, .f32⟩ : BufTy).Contents (Elt F)),
    StableHlo.unary main_v138 main_v139 (Host.rsqrt : (⟨S128, .f32⟩ : BufTy).Contents (Elt F) → (⟨S128, .f32⟩ : BufTy).Contents (Elt F)),
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_v126 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v145 : StableHlo.TRef sig ⟨S100000x128, .f32⟩) main_call5.v0 main_call5.v1 maximumf,
    StableHlo.binary main_v146 main_arg12 main_v147 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    StableHlo.unary main_arg13 main_v148 (broadcastInDim S1x10 ![1] bcast_S10_S1x10_1 : (⟨S10, .f32⟩ : BufTy).Contents (Elt F) → (⟨S1x10, .f32⟩ : BufTy).Contents (Elt F)),
    StableHlo.unary main_v148 main_v149 (broadcastInDim S100000x10 ![0, 1] bcast_S1x10_S100000x10_0_1 : (⟨S1x10, .f32⟩ : BufTy).Contents (Elt F) → (⟨S100000x10, .f32⟩ : BufTy).Contents (Elt F)),
    StableHlo.binary main_v147 main_v149 main_v150 (addf : (⟨S100000x10, .f32⟩ : BufTy).Contents (Elt F) → (⟨S100000x10, .f32⟩ : BufTy).Contents (Elt F) → (⟨S100000x10, .f32⟩ : BufTy).Contents (Elt F)),
    StableHlo.TRef.nullary main_call6.cst (constant S_ .f32 0x00000000#32),
    StableHlo.TRef.unary main_call6.cst main_call6.v0 (broadcastInDim S100000x10 ![] bcast_S_S100000x10),
    StableHlo.TRef.binary (.of main_v150 : StableHlo.TRef sig ⟨S100000x10, .f32⟩) main_call6.v0 main_call6.v1 maximumf,
    StableHlo.TRef.nullary main_call7.cst (constant S_ .f32 0xFF800000#32),
    StableHlo.TRef.binary (.of main_v151 : StableHlo.TRef sig ⟨S100000x10, .f32⟩) main_call7.cst main_call7.v0 (fun x v => Host.reduce FloatOps.maximumf x v reducesTo_S100000x10_S100000_d1 h_S_),
    StableHlo.TRef.nullary main_call7.cst_0 (constant S_ .f32 0xFF800000#32),
    StableHlo.TRef.unary main_call7.cst_0 main_call7.v1 (broadcastInDim S100000 ![] bcast_S_S100000),
    StableHlo.TRef.binary main_call7.v1 main_call7.v0 main_call7.v2 maximumf,
    StableHlo.TRef.unary main_call7.v2 main_call7.v3 (broadcastInDim S100000x1 ![0] bcast_S100000_S100000x1_0),
    StableHlo.TRef.unary main_call7.v3 main_call7.v4 (broadcastInDim S100000x10 ![0, 1] bcast_S100000x1_S100000x10_0_1),
    StableHlo.TRef.binary (.of main_v151 : StableHlo.TRef sig ⟨S100000x10, .f32⟩) main_call7.v4 main_call7.v5 subf,
    StableHlo.TRef.unary main_call7.v5 main_call7.v6 Host.exp,
    StableHlo.TRef.nullary main_call7.cst_1 (constant S_ .f32 0x00000000#32),
    StableHlo.TRef.binary main_call7.v6 main_call7.cst_1 main_call7.v7 (fun x v => Host.reduceAdd x v reducesTo_S100000x10_S100000_d1 h_S_),
    StableHlo.TRef.unary main_call7.v7 main_call7.v8 (broadcastInDim S100000x1 ![0] bcast_S100000_S100000x1_0),
    StableHlo.TRef.unary main_call7.v8 main_call7.v9 Host.log,
    StableHlo.TRef.unary main_call7.v9 main_call7.v10 (broadcastInDim S100000x10 ![0, 1] bcast_S100000x1_S100000x10_0_1),
    StableHlo.TRef.binary main_call7.v5 main_call7.v10 main_call7.v11 subf ]

/-- @main's 263 operations, in order. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v23 main_v24 (mulf : (⟨S100000x128, .f32⟩ : BufTy).Contents (Elt F) → (⟨S100000x128, .f32⟩ : BufTy).Contents (Elt F) → (⟨S100000x128, .f32⟩ : BufTy).Contents (Elt F)),
    StableHlo.binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v25 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v30 main_cst_5 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v30 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v30 : StableHlo.TRef sig ⟨S100000x128, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v36 main_v37 (subf : (⟨S100000x128, .f32⟩ : BufTy).Contents (Elt F) → (⟨S100000x128, .f32⟩ : BufTy).Contents (Elt F) → (⟨S100000x128, .f32⟩ : BufTy).Contents (Elt F)),
    StableHlo.unary main_arg5 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v37 main_v40 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v41 (broadcastInDim S128 ![] bcast_S_S128 : (⟨S_, .f32⟩ : BufTy).Contents (Elt F) → (⟨S128, .f32⟩ : BufTy).Contents (Elt F)),
    StableHlo.binary main_v34 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v49 : StableHlo.TRef sig ⟨S100000x128, .f32⟩) main_call1.v0 main_call1.v1 maximumf,
    StableHlo.unary main_arg7 main_v51 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v51 main_v52 rfl shapeCasts_S1x128x128_S128x128,
    StableHlo.unary main_arg8 main_v53 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v53 main_v54 rfl shapeCasts_S1x128x128_S128x128,
    StableHlo.unary main_arg9 main_v55 ((extractStridedSlice S1x128 ![0, 0] · slices_S2x128_S1x128_0_0) : (⟨S2x128, .f32⟩ : BufTy).Contents (Elt F) → (⟨S1x128, .f32⟩ : BufTy).Contents (Elt F)),
    StableHlo.reshape main_v55 main_v56 rfl shapeCasts_S1x128_S128,
    StableHlo.nullary main_c_9 (constantI S_ 32 0#32),
    StableHlo.unary main_c_9 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v50 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v64 (broadcastInDim S100000x128 ![] bcast_S_S100000x128 : (⟨S_, .f32⟩ : BufTy).Contents (Elt F) → (⟨S100000x128, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v67 (broadcastInDim S100000x128 ![0, 1] bcast_S100000x1_S100000x128_0_1 : (⟨S100000x1, .f32⟩ : BufTy).Contents (Elt F) → (⟨S100000x128, .f32⟩ : BufTy).Contents (Elt F)),
    StableHlo.binary main_v66 main_v67 main_v68 (mulf : (⟨S100000x128, .f32⟩ : BufTy).Contents (Elt F) → (⟨S100000x128, .f32⟩ : BufTy).Contents (Elt F) → (⟨S100000x128, .f32⟩ : BufTy).Contents (Elt F)),
    StableHlo.binary main_v68 main_v52 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v50 main_v54 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v69 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.unary main_arg10 main_v75 ((extractStridedSlice S1x128 ![0, 0] · slices_S2x128_S1x128_0_0) : (⟨S2x128, .f32⟩ : BufTy).Contents (Elt F) → (⟨S1x128, .f32⟩ : BufTy).Contents (Elt F)),
    StableHlo.reshape main_v75 main_v76 rfl shapeCasts_S1x128_S128,
    StableHlo.unary main_arg11 main_v77 ((extractStridedSlice S1x128 ![0, 0] · slices_S2x128_S1x128_0_0) : (⟨S2x128, .f32⟩ : BufTy).Contents (Elt F) → (⟨S1x128, .f32⟩ : BufTy).Contents (Elt F)),
    StableHlo.reshape main_v77 main_v78 rfl shapeCasts_S1x128_S128,
    StableHlo.nullary main_cst_12 (constant S_ .f32 0x00000000#32),
    StableHlo.binary main_v74 main_cst_12 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v74 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v74 : StableHlo.TRef sig ⟨S100000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v84 main_v85 (subf : (⟨S100000x128, .f32⟩ : BufTy).Contents (Elt F) → (⟨S100000x128, .f32⟩ : BufTy).Contents (Elt F) → (⟨S100000x128, .f32⟩ : BufTy).Contents (Elt F)),
    StableHlo.unary main_v76 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v85 main_v88 (mulf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v89 (broadcastInDim S128 ![] bcast_S_S128 : (⟨S_, .f32⟩ : BufTy).Contents (Elt F) → (⟨S128, .f32⟩ : BufTy).Contents (Elt F)),
    StableHlo.binary main_v82 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v97 : StableHlo.TRef sig ⟨S100000x128, .f32⟩) main_call3.v0 main_call3.v1 maximumf,
    StableHlo.unary main_arg7 main_v99 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v99 main_v100 rfl shapeCasts_S1x128x128_S128x128,
    StableHlo.unary main_arg8 main_v101 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v101 main_v102 rfl shapeCasts_S1x128x128_S128x128,
    StableHlo.unary main_arg9 main_v103 ((extractStridedSlice S1x128 ![1, 0] · slices_S2x128_S1x128_1_0) : (⟨S2x128, .f32⟩ : BufTy).Contents (Elt F) → (⟨S1x128, .f32⟩ : BufTy).Contents (Elt F)),
    StableHlo.reshape main_v103 main_v104 rfl shapeCasts_S1x128_S128,
    StableHlo.nullary main_c_16 (constantI S_ 32 0#32),
    StableHlo.unary main_c_16 main_v105 (broadcastInDim S1600000 ![] bcast_S_S1600000 : (⟨S_, .i32⟩ : BufTy).Contents (Elt F) → (⟨S1600000, .i32⟩ : BufTy).Contents (Elt F)),
    StableHlo.binary main_v1 main_v105 main_v106 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v107 (broadcastInDim S1600000 ![] bcast_S_S1600000 : (⟨S_, .i32⟩ : BufTy).Contents (Elt F) → (⟨S1600000, .i32⟩ : BufTy).Contents (Elt F)),
    StableHlo.binary main_v1 main_v107 main_v108 (addi : (⟨S1600000, .i32⟩ : BufTy).Contents (Elt F) → (⟨S1600000, .i32⟩ : BufTy).Contents (Elt F) → (⟨S1600000, .i32⟩ : BufTy).Contents (Elt F)),
    StableHlo.ternary main_v106 main_v108 main_v1 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v109 main_v110 (broadcastInDim S1600000x1 ![0] bcast_S1600000_S1600000x1_0 : (⟨S1600000, .i32⟩ : BufTy).Contents (Elt F) → (⟨S1600000x1, .i32⟩ : BufTy).Contents (Elt F)),
    StableHlo.binary main_v98 main_v110 main_v111 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v112 (broadcastInDim S100000x128 ![] bcast_S_S100000x128 : (⟨S_, .f32⟩ : BufTy).Contents (Elt F) → (⟨S100000x128, .f32⟩ : BufTy).Contents (Elt F)),
    StableHlo.unary main_v3 main_v113 (broadcastInDim S1600000x1 ![0] bcast_S1600000_S1600000x1_0 : (⟨S1600000, .i32⟩ : BufTy).Contents (Elt F) → (⟨S1600000x1, .i32⟩ : BufTy).Contents (Elt F)),
    StableHlo.ternary main_v112 main_v113 main_v111 main_v114 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v115 (broadcastInDim S100000x128 ![0, 1] bcast_S100000x1_S100000x128_0_1 : (⟨S100000x1, .f32⟩ : BufTy).Contents (Elt F) → (⟨S100000x128, .f32⟩ : BufTy).Contents (Elt F)),
    StableHlo.binary main_v114 main_v115 main_v116 (mulf : (⟨S100000x128, .f32⟩ : BufTy).Contents (Elt F) → (⟨S100000x128, .f32⟩ : BufTy).Contents (Elt F) → (⟨S100000x128, .f32⟩ : BufTy).Contents (Elt F)),
    StableHlo.binary main_v116 main_v100 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v98 main_v102 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v117 main_v118 main_v119 (addf : (⟨S100000x128, .f32⟩ : BufTy).Contents (Elt F) → (⟨S100000x128, .f32⟩ : BufTy).Contents (Elt F) → (⟨S100000x128, .f32⟩ : BufTy).Contents (Elt F)),
    StableHlo.unary main_v104 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)),
    StableHlo.unary main_arg10 main_v123 ((extractStridedSlice S1x128 ![1, 0] · slices_S2x128_S1x128_1_0) : (⟨S2x128, .f32⟩ : BufTy).Contents (Elt F) → (⟨S1x128, .f32⟩ : BufTy).Contents (Elt F)),
    StableHlo.reshape main_v123 main_v124 rfl shapeCasts_S1x128_S128,
    StableHlo.unary main_arg11 main_v125 ((extractStridedSlice S1x128 ![1, 0] · slices_S2x128_S1x128_1_0) : (⟨S2x128, .f32⟩ : BufTy).Contents (Elt F) → (⟨S1x128, .f32⟩ : BufTy).Contents (Elt F)),
    StableHlo.reshape main_v125 main_v126 rfl shapeCasts_S1x128_S128,
    StableHlo.nullary main_cst_19 (constant S_ .f32 0x00000000#32),
    StableHlo.binary main_v122 main_cst_19 main_v127 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v122 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v122 : StableHlo.TRef sig ⟨S100000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v129 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v132 main_v133 (subf : (⟨S100000x128, .f32⟩ : BufTy).Contents (Elt F) → (⟨S100000x128, .f32⟩ : BufTy).Contents (Elt F) → (⟨S100000x128, .f32⟩ : BufTy).Contents (Elt F)),
    StableHlo.unary main_v124 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v133 main_v136 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v137 (broadcastInDim S128 ![] bcast_S_S128 : (⟨S_, .f32⟩ : BufTy).Contents (Elt F) → (⟨S128, .f32⟩ : BufTy).Contents (Elt F)),
    StableHlo.binary main_v130 main_v137 main_v138 (addf : (⟨S128, .f32⟩ : BufTy).Contents (Elt F) → (⟨S128, .f32⟩ : BufTy).Contents (Elt F) → (⟨S128, .f32⟩ : BufTy).Contents (Elt F)),
    StableHlo.unary main_v138 main_v139 (Host.rsqrt : (⟨S128, .f32⟩ : BufTy).Contents (Elt F) → (⟨S128, .f32⟩ : BufTy).Contents (Elt F)),
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_v126 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v145 : StableHlo.TRef sig ⟨S100000x128, .f32⟩) main_call5.v0 main_call5.v1 maximumf,
    StableHlo.binary main_v146 main_arg12 main_v147 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    StableHlo.unary main_arg13 main_v148 (broadcastInDim S1x10 ![1] bcast_S10_S1x10_1 : (⟨S10, .f32⟩ : BufTy).Contents (Elt F) → (⟨S1x10, .f32⟩ : BufTy).Contents (Elt F)),
    StableHlo.unary main_v148 main_v149 (broadcastInDim S100000x10 ![0, 1] bcast_S1x10_S100000x10_0_1 : (⟨S1x10, .f32⟩ : BufTy).Contents (Elt F) → (⟨S100000x10, .f32⟩ : BufTy).Contents (Elt F)),
    StableHlo.binary main_v147 main_v149 main_v150 (addf : (⟨S100000x10, .f32⟩ : BufTy).Contents (Elt F) → (⟨S100000x10, .f32⟩ : BufTy).Contents (Elt F) → (⟨S100000x10, .f32⟩ : BufTy).Contents (Elt F)),
    StableHlo.TRef.nullary main_call6.cst (constant S_ .f32 0x00000000#32),
    StableHlo.TRef.unary main_call6.cst main_call6.v0 (broadcastInDim S100000x10 ![] bcast_S_S100000x10),
    StableHlo.TRef.binary (.of main_v150 : StableHlo.TRef sig ⟨S100000x10, .f32⟩) main_call6.v0 main_call6.v1 maximumf,
    StableHlo.TRef.nullary main_call7.cst (constant S_ .f32 0xFF800000#32),
    StableHlo.TRef.binary (.of main_v151 : StableHlo.TRef sig ⟨S100000x10, .f32⟩) main_call7.cst main_call7.v0 (fun x v => Host.reduce FloatOps.maximumf x v reducesTo_S100000x10_S100000_d1 h_S_),
    StableHlo.TRef.nullary main_call7.cst_0 (constant S_ .f32 0xFF800000#32),
    StableHlo.TRef.unary main_call7.cst_0 main_call7.v1 (broadcastInDim S100000 ![] bcast_S_S100000),
    StableHlo.TRef.binary main_call7.v1 main_call7.v0 main_call7.v2 maximumf,
    StableHlo.TRef.unary main_call7.v2 main_call7.v3 (broadcastInDim S100000x1 ![0] bcast_S100000_S100000x1_0),
    StableHlo.TRef.unary main_call7.v3 main_call7.v4 (broadcastInDim S100000x10 ![0, 1] bcast_S100000x1_S100000x10_0_1),
    StableHlo.TRef.binary (.of main_v151 : StableHlo.TRef sig ⟨S100000x10, .f32⟩) main_call7.v4 main_call7.v5 subf,
    StableHlo.TRef.unary main_call7.v5 main_call7.v6 Host.exp,
    StableHlo.TRef.nullary main_call7.cst_1 (constant S_ .f32 0x00000000#32),
    StableHlo.TRef.binary main_call7.v6 main_call7.cst_1 main_call7.v7 (fun x v => Host.reduceAdd x v reducesTo_S100000x10_S100000_d1 h_S_),
    StableHlo.TRef.unary main_call7.v7 main_call7.v8 (broadcastInDim S100000x1 ![0] bcast_S100000_S100000x1_0),
    StableHlo.TRef.unary main_call7.v8 main_call7.v9 Host.log,
    StableHlo.TRef.unary main_call7.v9 main_call7.v10 (broadcastInDim S100000x10 ![0, 1] bcast_S100000x1_S100000x10_0_1),
    StableHlo.TRef.binary main_call7.v5 main_call7.v10 main_call7.v11 subf ]

/-- The whole line is the three pieces one after the other. -/
theorem ops_eq : (ops : List (HloOp τ sig (Elt F))) = ops0 ++ (ops1 ++ ops2) := rfl

set_option maxRecDepth 8192 in
set_option maxHeartbeats 4000000 in
/-- The first printed piece is the sequence of its operations: the functions' definitions unfolded at their calls
    and the records at their fields, both sides are one chain of steps once sequencing is reassociated. -/
theorem main_part0_eq (c : Dev nD) : main_part0 (F := F) c = seq ops0 := by
  simp only [main_part0, fn_var.body, fn_where.body, fn_relu.body, fn_relu_0.body, fn_log_softmax.body, seq, bind_assoc, pure_bind]
  rfl

set_option maxRecDepth 8192 in
set_option maxHeartbeats 4000000 in
/-- The second printed piece is the sequence of its operations. -/
theorem main_part1_eq (c : Dev nD) : main_part1 (F := F) c = seq ops1 := by
  simp only [main_part1, fn_var.body, fn_where.body, fn_relu.body, fn_relu_0.body, fn_log_softmax.body, seq, bind_assoc, pure_bind]
  rfl

set_option maxRecDepth 8192 in
set_option maxHeartbeats 4000000 in
/-- The third printed piece is the sequence of its operations. -/
theorem main_part2_eq (c : Dev nD) : main_part2 (F := F) c = seq ops2 := by
  simp only [main_part2, fn_var.body, fn_where.body, fn_relu.body, fn_relu_0.body, fn_log_softmax.body, seq, bind_assoc, pure_bind]

/-- @main is that straight line: its three pieces in order are the sequence of the concatenated list. -/
theorem main_eq (c : Dev nD) : main (F := F) c = seq ops := by
  rw [ops_eq, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore buffers. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., binary_bufs_sub .., binary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., binary_bufs_sub .., binary_bufs_sub ..,
    binary_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., binary_bufs_sub .., binary_bufs_sub ..,
    binary_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.S1.lean ====
/-
  Stage 1 of the reference's fold: the aggregation and linear part of the first layer. The stage's operations as a list, the buffers they write,
  the contents after the stage as a valuation (`val1`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.Gen.ReferenceIdeal
import Idealize.ShloMosaic.Lib.StableHlo.Run
import proofs.«131058_j47364899340882_1_alg».proof.Proof.Spec

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The contents before the first stage. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl

/-- The operations of stage 1. -/
abbrev c1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S100000x128 ![] bcast_S_S100000x128 : (⟨S_, .f32⟩ : BufTy).Contents (Elt F) → (⟨S100000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v23 main_v24 (mulf : (⟨S100000x128, .f32⟩ : BufTy).Contents (Elt F) → (⟨S100000x128, .f32⟩ : BufTy).Contents (Elt F) → (⟨S100000x128, .f32⟩ : BufTy).Contents (Elt F)),
    StableHlo.binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v25 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The buffers stage 1 writes. -/
abbrev c1_W : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25, main_v26, main_v27, main_v28, main_v29, main_v30]
theorem c1_writes : (c1 : List (HloOp τ sig (Elt F))).Forall fun op => op.writes ⊆ (c1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 1 stage. -/
def val1 (V0 : Valuation τ sig (Elt F)) : Valuation τ sig (Elt F) := after c1 (val0 V0)
/-- A buffer stage 1 does not write keeps its contents through it. -/
theorem val1_keep (V0 : Valuation τ sig (Elt F)) (r : Ref sig .tc) (h : r ∉ c1_W) :
    val1 V0 (Proc.devRef .tc r) = val0 V0 (Proc.devRef .tc r) :=
  after_of_writes_sub c1 _ c1_writes h

theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
set_option maxHeartbeats 4000000 in
theorem val1_main_v1 (V0 : Valuation τ sig (Elt F)) : val1 V0 (no_index (Proc.devRef .tc main_v1)) = Cert.Spec.edgeSrc (F := F) (V0 (Proc.devRef .tc main_arg1)) := by
  unfold val1
  simp only [c1]
  after_results_simp
  simp only [val0_main_arg1, val0_main_arg0, val0_main_arg2, val0_main_arg3, val0_main_arg4] <;> rfl
set_option maxHeartbeats 4000000 in
theorem val1_main_v3 (V0 : Valuation τ sig (Elt F)) : val1 V0 (no_index (Proc.devRef .tc main_v3)) = Cert.Spec.edgeDst (F := F) (V0 (Proc.devRef .tc main_arg1)) := by
  unfold val1
  simp only [c1]
  after_results_simp
  simp only [val0_main_arg1, val0_main_arg0, val0_main_arg2, val0_main_arg3, val0_main_arg4] <;> rfl
set_option maxHeartbeats 4000000 in
theorem val1_main_v12 (V0 : Valuation τ sig (Elt F)) : val1 V0 (no_index (Proc.devRef .tc main_v12)) = Cert.Spec.invDeg (F := F) (V0 (Proc.devRef .tc main_arg1)) := by
  unfold val1
  simp only [c1]
  after_results_simp
  simp only [val0_main_arg1, val0_main_arg0, val0_main_arg2, val0_main_arg3, val0_main_arg4] <;> rfl
set_option maxHeartbeats 4000000 in
theorem val1_main_v30 (V0 : Valuation τ sig (Elt F)) : val1 V0 (no_index (Proc.devRef .tc main_v30)) = (Cert.Spec.linear (F := F) (Cert.Spec.aggregate (V0 (Proc.devRef .tc main_arg1)) (V0 (Proc.devRef .tc main_arg0))) (V0 (Proc.devRef .tc main_arg0)) (V0 (Proc.devRef .tc main_arg2)) (V0 (Proc.devRef .tc main_arg3)) (Cert.Spec.rowOf (V0 (Proc.devRef .tc main_arg4)))) := by
  unfold val1
  simp only [c1]
  after_results_simp
  simp only [val0_main_arg1, val0_main_arg0, val0_main_arg2, val0_main_arg3, val0_main_arg4] <;> rfl

end Cert.ReferenceIdeal.RefRead

end
-- ==== Proof.RefRead.S2.lean ====
/-
  Stage 2 of the reference's fold: the first layer's normalisation and rectifier. The stage's operations as a list, the buffers they write,
  the contents after the stage as a valuation (`val2`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S1

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 2. -/
abbrev c2 : List (HloOp τ sig (Elt F)) :=
  [ StableHlo.nullary main_cst_5 (constant S_ .f32 0x00000000#32),
    StableHlo.binary main_v30 main_cst_5 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v30 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v30 : StableHlo.TRef sig ⟨S100000x128, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v36 main_v37 (subf : (⟨S100000x128, .f32⟩ : BufTy).Contents (Elt F) → (⟨S100000x128, .f32⟩ : BufTy).Contents (Elt F) → (⟨S100000x128, .f32⟩ : BufTy).Contents (Elt F)),
    StableHlo.unary main_arg5 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v37 main_v40 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v41 (broadcastInDim S128 ![] bcast_S_S128 : (⟨S_, .f32⟩ : BufTy).Contents (Elt F) → (⟨S128, .f32⟩ : BufTy).Contents (Elt F)),
    StableHlo.binary main_v34 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v49 : StableHlo.TRef sig ⟨S100000x128, .f32⟩) main_call1.v0 main_call1.v1 maximumf ]

/-- The buffers stage 2 writes. -/
abbrev c2_W : List (Ref sig .tc) := [main_cst_5, main_v31, main_cst_6, main_v32, main_v33, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v34, main_v35, main_v36, main_v37, main_v38, main_v39, main_v40, main_cst_8, main_v41, main_v42, main_v43, main_v44, main_v45, main_v46, main_v47, main_v48, main_v49, main_call1_cst, main_call1_v0, main_v50]
theorem c2_writes : (c2 : List (HloOp τ sig (Elt F))).Forall fun op => op.writes ⊆ (c2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 2 stages. -/
def val2 (V0 : Valuation τ sig (Elt F)) : Valuation τ sig (Elt F) := after c2 (val1 V0)
/-- A buffer stage 2 does not write keeps its contents through it. -/
theorem val2_keep (V0 : Valuation τ sig (Elt F)) (r : Ref sig .tc) (h : r ∉ c2_W) :
    val2 V0 (Proc.devRef .tc r) = val1 V0 (Proc.devRef .tc r) :=
  after_of_writes_sub c2 _ c2_writes h

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_v1 (V0 : Valuation τ sig (Elt F)) : val2 V0 (no_index (Proc.devRef .tc main_v1)) = Cert.Spec.edgeSrc (F := F) (V0 (Proc.devRef .tc main_arg1)) :=
  (val2_keep V0 main_v1 (by decide)).trans (val1_main_v1 V0)
theorem val2_main_v3 (V0 : Valuation τ sig (Elt F)) : val2 V0 (no_index (Proc.devRef .tc main_v3)) = Cert.Spec.edgeDst (F := F) (V0 (Proc.devRef .tc main_arg1)) :=
  (val2_keep V0 main_v3 (by decide)).trans (val1_main_v3 V0)
theorem val2_main_v12 (V0 : Valuation τ sig (Elt F)) : val2 V0 (no_index (Proc.devRef .tc main_v12)) = Cert.Spec.invDeg (F := F) (V0 (Proc.devRef .tc main_arg1)) :=
  (val2_keep V0 main_v12 (by decide)).trans (val1_main_v12 V0)
set_option maxHeartbeats 4000000 in
theorem val2_main_v50 (V0 : Valuation τ sig (Elt F)) : val2 V0 (no_index (Proc.devRef .tc main_v50)) = (Cert.Spec.layer (F := F) (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))) := by
  unfold val2
  simp only [c2]
  after_results_simp
  simp only [val1_main_v30, val1_main_arg5, val1_main_arg6] <;> rfl

end Cert.ReferenceIdeal.RefRead

end
-- ==== Proof.RefRead.S3.lean ====
/-
  Stage 3 of the reference's fold: the aggregation and linear part of the second layer. The stage's operations as a list, the buffers they write,
  the contents after the stage as a valuation (`val3`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S2

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 3. -/
abbrev c3 : List (HloOp τ sig (Elt F)) :=
  [ StableHlo.unary main_arg7 main_v51 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v51 main_v52 rfl shapeCasts_S1x128x128_S128x128,
    StableHlo.unary main_arg8 main_v53 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v53 main_v54 rfl shapeCasts_S1x128x128_S128x128,
    StableHlo.unary main_arg9 main_v55 ((extractStridedSlice S1x128 ![0, 0] · slices_S2x128_S1x128_0_0) : (⟨S2x128, .f32⟩ : BufTy).Contents (Elt F) → (⟨S1x128, .f32⟩ : BufTy).Contents (Elt F)),
    StableHlo.reshape main_v55 main_v56 rfl shapeCasts_S1x128_S128,
    StableHlo.nullary main_c_9 (constantI S_ 32 0#32),
    StableHlo.unary main_c_9 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v50 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v64 (broadcastInDim S100000x128 ![] bcast_S_S100000x128 : (⟨S_, .f32⟩ : BufTy).Contents (Elt F) → (⟨S100000x128, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v67 (broadcastInDim S100000x128 ![0, 1] bcast_S100000x1_S100000x128_0_1 : (⟨S100000x1, .f32⟩ : BufTy).Contents (Elt F) → (⟨S100000x128, .f32⟩ : BufTy).Contents (Elt F)),
    StableHlo.binary main_v66 main_v67 main_v68 (mulf : (⟨S100000x128, .f32⟩ : BufTy).Contents (Elt F) → (⟨S100000x128, .f32⟩ : BufTy).Contents (Elt F) → (⟨S100000x128, .f32⟩ : BufTy).Contents (Elt F)),
    StableHlo.binary main_v68 main_v52 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v50 main_v54 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v69 main_v70 main_v71 (addf : (⟨S100000x128, .f32⟩ : BufTy).Contents (Elt F) → (⟨S100000x128, .f32⟩ : BufTy).Contents (Elt F) → (⟨S100000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)) ]

/-- The buffers stage 3 writes. -/
abbrev c3_W : List (Ref sig .tc) := [main_v51, main_v52, main_v53, main_v54, main_v55, main_v56, main_c_9, main_v57, main_v58, main_c_10, main_v59, main_v60, main_v61, main_v62, main_v63, main_cst_11, main_v64, main_v65, main_v66, main_v67, main_v68, main_v69, main_v70, main_v71, main_v72, main_v73, main_v74]
theorem c3_writes : (c3 : List (HloOp τ sig (Elt F))).Forall fun op => op.writes ⊆ (c3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 3 stages. -/
def val3 (V0 : Valuation τ sig (Elt F)) : Valuation τ sig (Elt F) := after c3 (val2 V0)
/-- A buffer stage 3 does not write keeps its contents through it. -/
theorem val3_keep (V0 : Valuation τ sig (Elt F)) (r : Ref sig .tc) (h : r ∉ c3_W) :
    val3 V0 (Proc.devRef .tc r) = val2 V0 (Proc.devRef .tc r) :=
  after_of_writes_sub c3 _ c3_writes h

theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_v1 (V0 : Valuation τ sig (Elt F)) : val3 V0 (no_index (Proc.devRef .tc main_v1)) = Cert.Spec.edgeSrc (F := F) (V0 (Proc.devRef .tc main_arg1)) :=
  (val3_keep V0 main_v1 (by decide)).trans (val2_main_v1 V0)
theorem val3_main_v3 (V0 : Valuation τ sig (Elt F)) : val3 V0 (no_index (Proc.devRef .tc main_v3)) = Cert.Spec.edgeDst (F := F) (V0 (Proc.devRef .tc main_arg1)) :=
  (val3_keep V0 main_v3 (by decide)).trans (val2_main_v3 V0)
theorem val3_main_v12 (V0 : Valuation τ sig (Elt F)) : val3 V0 (no_index (Proc.devRef .tc main_v12)) = Cert.Spec.invDeg (F := F) (V0 (Proc.devRef .tc main_arg1)) :=
  (val3_keep V0 main_v12 (by decide)).trans (val2_main_v12 V0)
set_option maxHeartbeats 4000000 in
theorem val3_main_v74 (V0 : Valuation τ sig (Elt F)) : val3 V0 (no_index (Proc.devRef .tc main_v74)) = (Cert.Spec.linear (F := F) (Cert.Spec.aggregate (V0 (Proc.devRef .tc main_arg1)) (Cert.Spec.layer (F := F) (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)))) (Cert.Spec.layer (F := F) (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))) (Cert.Spec.mat0 (V0 (Proc.devRef .tc main_arg7))) (Cert.Spec.mat0 (V0 (Proc.devRef .tc main_arg8))) (Cert.Spec.rowOf (Cert.Spec.vec0 (V0 (Proc.devRef .tc main_arg9))))) := by
  unfold val3
  simp only [c3]
  after_results_simp
  simp only [val2_main_arg7, val2_main_arg8, val2_main_arg9, val2_main_v1, val2_main_v50, val2_main_v3, val2_main_v12] <;> rfl

end Cert.ReferenceIdeal.RefRead

end
-- ==== Proof.RefRead.S4.lean ====
/-
  Stage 4 of the reference's fold: the second layer's normalisation and rectifier. The stage's operations as a list, the buffers they write,
  the contents after the stage as a valuation (`val4`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S3

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 4. -/
abbrev c4 : List (HloOp τ sig (Elt F)) :=
  [ StableHlo.unary main_arg10 main_v75 ((extractStridedSlice S1x128 ![0, 0] · slices_S2x128_S1x128_0_0) : (⟨S2x128, .f32⟩ : BufTy).Contents (Elt F) → (⟨S1x128, .f32⟩ : BufTy).Contents (Elt F)),
    StableHlo.reshape main_v75 main_v76 rfl shapeCasts_S1x128_S128,
    StableHlo.unary main_arg11 main_v77 ((extractStridedSlice S1x128 ![0, 0] · slices_S2x128_S1x128_0_0) : (⟨S2x128, .f32⟩ : BufTy).Contents (Elt F) → (⟨S1x128, .f32⟩ : BufTy).Contents (Elt F)),
    StableHlo.reshape main_v77 main_v78 rfl shapeCasts_S1x128_S128,
    StableHlo.nullary main_cst_12 (constant S_ .f32 0x00000000#32),
    StableHlo.binary main_v74 main_cst_12 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v74 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v74 : StableHlo.TRef sig ⟨S100000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v84 main_v85 (subf : (⟨S100000x128, .f32⟩ : BufTy).Contents (Elt F) → (⟨S100000x128, .f32⟩ : BufTy).Contents (Elt F) → (⟨S100000x128, .f32⟩ : BufTy).Contents (Elt F)),
    StableHlo.unary main_v76 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v85 main_v88 (mulf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v89 (broadcastInDim S128 ![] bcast_S_S128 : (⟨S_, .f32⟩ : BufTy).Contents (Elt F) → (⟨S128, .f32⟩ : BufTy).Contents (Elt F)),
    StableHlo.binary main_v82 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v97 : StableHlo.TRef sig ⟨S100000x128, .f32⟩) main_call3.v0 main_call3.v1 maximumf ]

/-- The buffers stage 4 writes. -/
abbrev c4_W : List (Ref sig .tc) := [main_v75, main_v76, main_v77, main_v78, main_cst_12, main_v79, main_cst_13, main_v80, main_v81, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v82, main_v83, main_v84, main_v85, main_v86, main_v87, main_v88, main_cst_15, main_v89, main_v90, main_v91, main_v92, main_v93, main_v94, main_v95, main_v96, main_v97, main_call3_cst, main_call3_v0, main_v98]
theorem c4_writes : (c4 : List (HloOp τ sig (Elt F))).Forall fun op => op.writes ⊆ (c4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 4 stages. -/
def val4 (V0 : Valuation τ sig (Elt F)) : Valuation τ sig (Elt F) := after c4 (val3 V0)
/-- A buffer stage 4 does not write keeps its contents through it. -/
theorem val4_keep (V0 : Valuation τ sig (Elt F)) (r : Ref sig .tc) (h : r ∉ c4_W) :
    val4 V0 (Proc.devRef .tc r) = val3 V0 (Proc.devRef .tc r) :=
  after_of_writes_sub c4 _ c4_writes h

theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_v1 (V0 : Valuation τ sig (Elt F)) : val4 V0 (no_index (Proc.devRef .tc main_v1)) = Cert.Spec.edgeSrc (F := F) (V0 (Proc.devRef .tc main_arg1)) :=
  (val4_keep V0 main_v1 (by decide)).trans (val3_main_v1 V0)
theorem val4_main_v3 (V0 : Valuation τ sig (Elt F)) : val4 V0 (no_index (Proc.devRef .tc main_v3)) = Cert.Spec.edgeDst (F := F) (V0 (Proc.devRef .tc main_arg1)) :=
  (val4_keep V0 main_v3 (by decide)).trans (val3_main_v3 V0)
theorem val4_main_v12 (V0 : Valuation τ sig (Elt F)) : val4 V0 (no_index (Proc.devRef .tc main_v12)) = Cert.Spec.invDeg (F := F) (V0 (Proc.devRef .tc main_arg1)) :=
  (val4_keep V0 main_v12 (by decide)).trans (val3_main_v12 V0)
set_option maxHeartbeats 4000000 in
theorem val4_main_v98 (V0 : Valuation τ sig (Elt F)) : val4 V0 (no_index (Proc.devRef .tc main_v98)) = (Cert.Spec.layer (F := F) (V0 (Proc.devRef .tc main_arg1)) (Cert.Spec.layer (F := F) (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))) (Cert.Spec.mat0 (V0 (Proc.devRef .tc main_arg7))) (Cert.Spec.mat0 (V0 (Proc.devRef .tc main_arg8))) (Cert.Spec.vec0 (V0 (Proc.devRef .tc main_arg9))) (Cert.Spec.vec0 (V0 (Proc.devRef .tc main_arg10))) (Cert.Spec.vec0 (V0 (Proc.devRef .tc main_arg11)))) := by
  unfold val4
  simp only [c4]
  after_results_simp
  simp only [val3_main_arg10, val3_main_arg11, val3_main_v74] <;> rfl

end Cert.ReferenceIdeal.RefRead

end
-- ==== Proof.RefRead.S5.lean ====
/-
  Stage 5 of the reference's fold: the aggregation and linear part of the third layer. The stage's operations as a list, the buffers they write,
  the contents after the stage as a valuation (`val5`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S4

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 5. -/
abbrev c5 : List (HloOp τ sig (Elt F)) :=
  [ StableHlo.unary main_arg7 main_v99 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v99 main_v100 rfl shapeCasts_S1x128x128_S128x128,
    StableHlo.unary main_arg8 main_v101 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v101 main_v102 rfl shapeCasts_S1x128x128_S128x128,
    StableHlo.unary main_arg9 main_v103 ((extractStridedSlice S1x128 ![1, 0] · slices_S2x128_S1x128_1_0) : (⟨S2x128, .f32⟩ : BufTy).Contents (Elt F) → (⟨S1x128, .f32⟩ : BufTy).Contents (Elt F)),
    StableHlo.reshape main_v103 main_v104 rfl shapeCasts_S1x128_S128,
    StableHlo.nullary main_c_16 (constantI S_ 32 0#32),
    StableHlo.unary main_c_16 main_v105 (broadcastInDim S1600000 ![] bcast_S_S1600000 : (⟨S_, .i32⟩ : BufTy).Contents (Elt F) → (⟨S1600000, .i32⟩ : BufTy).Contents (Elt F)),
    StableHlo.binary main_v1 main_v105 main_v106 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v107 (broadcastInDim S1600000 ![] bcast_S_S1600000 : (⟨S_, .i32⟩ : BufTy).Contents (Elt F) → (⟨S1600000, .i32⟩ : BufTy).Contents (Elt F)),
    StableHlo.binary main_v1 main_v107 main_v108 (addi : (⟨S1600000, .i32⟩ : BufTy).Contents (Elt F) → (⟨S1600000, .i32⟩ : BufTy).Contents (Elt F) → (⟨S1600000, .i32⟩ : BufTy).Contents (Elt F)),
    StableHlo.ternary main_v106 main_v108 main_v1 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v109 main_v110 (broadcastInDim S1600000x1 ![0] bcast_S1600000_S1600000x1_0 : (⟨S1600000, .i32⟩ : BufTy).Contents (Elt F) → (⟨S1600000x1, .i32⟩ : BufTy).Contents (Elt F)),
    StableHlo.binary main_v98 main_v110 main_v111 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v112 (broadcastInDim S100000x128 ![] bcast_S_S100000x128 : (⟨S_, .f32⟩ : BufTy).Contents (Elt F) → (⟨S100000x128, .f32⟩ : BufTy).Contents (Elt F)),
    StableHlo.unary main_v3 main_v113 (broadcastInDim S1600000x1 ![0] bcast_S1600000_S1600000x1_0 : (⟨S1600000, .i32⟩ : BufTy).Contents (Elt F) → (⟨S1600000x1, .i32⟩ : BufTy).Contents (Elt F)),
    StableHlo.ternary main_v112 main_v113 main_v111 main_v114 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v115 (broadcastInDim S100000x128 ![0, 1] bcast_S100000x1_S100000x128_0_1 : (⟨S100000x1, .f32⟩ : BufTy).Contents (Elt F) → (⟨S100000x128, .f32⟩ : BufTy).Contents (Elt F)),
    StableHlo.binary main_v114 main_v115 main_v116 (mulf : (⟨S100000x128, .f32⟩ : BufTy).Contents (Elt F) → (⟨S100000x128, .f32⟩ : BufTy).Contents (Elt F) → (⟨S100000x128, .f32⟩ : BufTy).Contents (Elt F)),
    StableHlo.binary main_v116 main_v100 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v98 main_v102 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v117 main_v118 main_v119 (addf : (⟨S100000x128, .f32⟩ : BufTy).Contents (Elt F) → (⟨S100000x128, .f32⟩ : BufTy).Contents (Elt F) → (⟨S100000x128, .f32⟩ : BufTy).Contents (Elt F)),
    StableHlo.unary main_v104 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)) ]

/-- The buffers stage 5 writes. -/
abbrev c5_W : List (Ref sig .tc) := [main_v99, main_v100, main_v101, main_v102, main_v103, main_v104, main_c_16, main_v105, main_v106, main_c_17, main_v107, main_v108, main_v109, main_v110, main_v111, main_cst_18, main_v112, main_v113, main_v114, main_v115, main_v116, main_v117, main_v118, main_v119, main_v120, main_v121, main_v122]
theorem c5_writes : (c5 : List (HloOp τ sig (Elt F))).Forall fun op => op.writes ⊆ (c5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 5 stages. -/
def val5 (V0 : Valuation τ sig (Elt F)) : Valuation τ sig (Elt F) := after c5 (val4 V0)
/-- A buffer stage 5 does not write keeps its contents through it. -/
theorem val5_keep (V0 : Valuation τ sig (Elt F)) (r : Ref sig .tc) (h : r ∉ c5_W) :
    val5 V0 (Proc.devRef .tc r) = val4 V0 (Proc.devRef .tc r) :=
  after_of_writes_sub c5 _ c5_writes h

theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
set_option maxHeartbeats 4000000 in
theorem val5_main_v122 (V0 : Valuation τ sig (Elt F)) : val5 V0 (no_index (Proc.devRef .tc main_v122)) = (Cert.Spec.linear (F := F) (Cert.Spec.aggregate (V0 (Proc.devRef .tc main_arg1)) (Cert.Spec.layer (F := F) (V0 (Proc.devRef .tc main_arg1)) (Cert.Spec.layer (F := F) (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))) (Cert.Spec.mat0 (V0 (Proc.devRef .tc main_arg7))) (Cert.Spec.mat0 (V0 (Proc.devRef .tc main_arg8))) (Cert.Spec.vec0 (V0 (Proc.devRef .tc main_arg9))) (Cert.Spec.vec0 (V0 (Proc.devRef .tc main_arg10))) (Cert.Spec.vec0 (V0 (Proc.devRef .tc main_arg11))))) (Cert.Spec.layer (F := F) (V0 (Proc.devRef .tc main_arg1)) (Cert.Spec.layer (F := F) (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))) (Cert.Spec.mat0 (V0 (Proc.devRef .tc main_arg7))) (Cert.Spec.mat0 (V0 (Proc.devRef .tc main_arg8))) (Cert.Spec.vec0 (V0 (Proc.devRef .tc main_arg9))) (Cert.Spec.vec0 (V0 (Proc.devRef .tc main_arg10))) (Cert.Spec.vec0 (V0 (Proc.devRef .tc main_arg11)))) (Cert.Spec.mat1 (V0 (Proc.devRef .tc main_arg7))) (Cert.Spec.mat1 (V0 (Proc.devRef .tc main_arg8))) (Cert.Spec.rowOf (Cert.Spec.vec1 (V0 (Proc.devRef .tc main_arg9))))) := by
  unfold val5
  simp only [c5]
  after_results_simp
  simp only [val4_main_arg7, val4_main_arg8, val4_main_arg9, val4_main_v1, val4_main_v98, val4_main_v3, val4_main_v12] <;> rfl

end Cert.ReferenceIdeal.RefRead

end
-- ==== Proof.RefRead.S6.lean ====
/-
  Stage 6 of the reference's fold: the third layer's normalisation and rectifier. The stage's operations as a list, the buffers they write,
  the contents after the stage as a valuation (`val6`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S5

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 6. -/
abbrev c6 : List (HloOp τ sig (Elt F)) :=
  [ StableHlo.unary main_arg10 main_v123 ((extractStridedSlice S1x128 ![1, 0] · slices_S2x128_S1x128_1_0) : (⟨S2x128, .f32⟩ : BufTy).Contents (Elt F) → (⟨S1x128, .f32⟩ : BufTy).Contents (Elt F)),
    StableHlo.reshape main_v123 main_v124 rfl shapeCasts_S1x128_S128,
    StableHlo.unary main_arg11 main_v125 ((extractStridedSlice S1x128 ![1, 0] · slices_S2x128_S1x128_1_0) : (⟨S2x128, .f32⟩ : BufTy).Contents (Elt F) → (⟨S1x128, .f32⟩ : BufTy).Contents (Elt F)),
    StableHlo.reshape main_v125 main_v126 rfl shapeCasts_S1x128_S128,
    StableHlo.nullary main_cst_19 (constant S_ .f32 0x00000000#32),
    StableHlo.binary main_v122 main_cst_19 main_v127 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v122 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v122 : StableHlo.TRef sig ⟨S100000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v129 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v132 main_v133 (subf : (⟨S100000x128, .f32⟩ : BufTy).Contents (Elt F) → (⟨S100000x128, .f32⟩ : BufTy).Contents (Elt F) → (⟨S100000x128, .f32⟩ : BufTy).Contents (Elt F)),
    StableHlo.unary main_v124 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v133 main_v136 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v137 (broadcastInDim S128 ![] bcast_S_S128 : (⟨S_, .f32⟩ : BufTy).Contents (Elt F) → (⟨S128, .f32⟩ : BufTy).Contents (Elt F)),
    StableHlo.binary main_v130 main_v137 main_v138 (addf : (⟨S128, .f32⟩ : BufTy).Contents (Elt F) → (⟨S128, .f32⟩ : BufTy).Contents (Elt F) → (⟨S128, .f32⟩ : BufTy).Contents (Elt F)),
    StableHlo.unary main_v138 main_v139 (Host.rsqrt : (⟨S128, .f32⟩ : BufTy).Contents (Elt F) → (⟨S128, .f32⟩ : BufTy).Contents (Elt F)),
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_v126 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v145 : StableHlo.TRef sig ⟨S100000x128, .f32⟩) main_call5.v0 main_call5.v1 maximumf ]

/-- The buffers stage 6 writes. -/
abbrev c6_W : List (Ref sig .tc) := [main_v123, main_v124, main_v125, main_v126, main_cst_19, main_v127, main_cst_20, main_v128, main_v129, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v130, main_v131, main_v132, main_v133, main_v134, main_v135, main_v136, main_cst_22, main_v137, main_v138, main_v139, main_v140, main_v141, main_v142, main_v143, main_v144, main_v145, main_call5_cst, main_call5_v0, main_v146]
theorem c6_writes : (c6 : List (HloOp τ sig (Elt F))).Forall fun op => op.writes ⊆ (c6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 6 stages. -/
def val6 (V0 : Valuation τ sig (Elt F)) : Valuation τ sig (Elt F) := after c6 (val5 V0)
/-- A buffer stage 6 does not write keeps its contents through it. -/
theorem val6_keep (V0 : Valuation τ sig (Elt F)) (r : Ref sig .tc) (h : r ∉ c6_W) :
    val6 V0 (Proc.devRef .tc r) = val5 V0 (Proc.devRef .tc r) :=
  after_of_writes_sub c6 _ c6_writes h

theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
set_option maxHeartbeats 4000000 in
theorem val6_main_v146 (V0 : Valuation τ sig (Elt F)) : val6 V0 (no_index (Proc.devRef .tc main_v146)) = Cert.Spec.hidden (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val6
  simp only [c6]
  after_results_simp
  simp only [val5_main_arg10, val5_main_arg11, val5_main_v122] <;> rfl

end Cert.ReferenceIdeal.RefRead

end
-- ==== Proof.RefRead.S7.lean ====
/-
  Stage 7 of the reference's fold: the read-out and its rectifier. The stage's operations as a list, the buffers they write,
  the contents after the stage as a valuation (`val7`), and each buffer a later stage still reads as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S6

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 7. -/
abbrev c7 : List (HloOp τ sig (Elt F)) :=
  [ StableHlo.binary main_v146 main_arg12 main_v147 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    StableHlo.unary main_arg13 main_v148 (broadcastInDim S1x10 ![1] bcast_S10_S1x10_1 : (⟨S10, .f32⟩ : BufTy).Contents (Elt F) → (⟨S1x10, .f32⟩ : BufTy).Contents (Elt F)),
    StableHlo.unary main_v148 main_v149 (broadcastInDim S100000x10 ![0, 1] bcast_S1x10_S100000x10_0_1 : (⟨S1x10, .f32⟩ : BufTy).Contents (Elt F) → (⟨S100000x10, .f32⟩ : BufTy).Contents (Elt F)),
    StableHlo.binary main_v147 main_v149 main_v150 (addf : (⟨S100000x10, .f32⟩ : BufTy).Contents (Elt F) → (⟨S100000x10, .f32⟩ : BufTy).Contents (Elt F) → (⟨S100000x10, .f32⟩ : BufTy).Contents (Elt F)),
    StableHlo.TRef.nullary main_call6.cst (constant S_ .f32 0x00000000#32),
    StableHlo.TRef.unary main_call6.cst main_call6.v0 (broadcastInDim S100000x10 ![] bcast_S_S100000x10),
    StableHlo.TRef.binary (.of main_v150 : StableHlo.TRef sig ⟨S100000x10, .f32⟩) main_call6.v0 main_call6.v1 maximumf ]

/-- The buffers stage 7 writes. -/
abbrev c7_W : List (Ref sig .tc) := [main_v147, main_v148, main_v149, main_v150, main_call6_cst, main_call6_v0, main_v151]
theorem c7_writes : (c7 : List (HloOp τ sig (Elt F))).Forall fun op => op.writes ⊆ (c7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 7 stages. -/
def val7 (V0 : Valuation τ sig (Elt F)) : Valuation τ sig (Elt F) := after c7 (val6 V0)
/-- A buffer stage 7 does not write keeps its contents through it. -/
theorem val7_keep (V0 : Valuation τ sig (Elt F)) (r : Ref sig .tc) (h : r ∉ c7_W) :
    val7 V0 (Proc.devRef .tc r) = val6 V0 (Proc.devRef .tc r) :=
  after_of_writes_sub c7 _ c7_writes h

theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
set_option maxHeartbeats 4000000 in
theorem val7_main_v151 (V0 : Valuation τ sig (Elt F)) : val7 V0 (no_index (Proc.devRef .tc main_v151)) = Cert.Spec.out (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val7
  simp only [c7]
  after_results_simp
  simp only [val6_main_v146, val6_main_arg12, val6_main_arg13] <;> rfl

end Cert.ReferenceIdeal.RefRead

end
-- ==== Proof.RefRead.S8.lean ====
/-
  Stage 8 of the reference's fold: the row-wise log-softmax. The stage's operations as a list, the buffers they write,
  the contents after the stage as a valuation (`val8`), and each buffer that outlives the stage as the
  specification's function of the ARGUMENT contents — a buffer this stage writes by unfolding the fold over this
  list and substituting what the previous valuation holds, a buffer it does not write by the fact that a line of
  operations leaves alone every buffer none of them writes.
-/
import proofs.«131058_j47364899340882_1_alg».proof.Proof.RefRead.S7

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- the reductions, the gather and the scatter-add stay folded: no equation here looks inside them
attribute [local irreducible] Host.reduce Host.reduceAdd Host.gather Host.scatterAdd

/-- The operations of stage 8. -/
abbrev c8 : List (HloOp τ sig (Elt F)) :=
  [ StableHlo.TRef.nullary main_call7.cst (constant S_ .f32 0xFF800000#32),
    StableHlo.TRef.binary (.of main_v151 : StableHlo.TRef sig ⟨S100000x10, .f32⟩) main_call7.cst main_call7.v0 (fun x v => Host.reduce FloatOps.maximumf x v reducesTo_S100000x10_S100000_d1 h_S_),
    StableHlo.TRef.nullary main_call7.cst_0 (constant S_ .f32 0xFF800000#32),
    StableHlo.TRef.unary main_call7.cst_0 main_call7.v1 (broadcastInDim S100000 ![] bcast_S_S100000),
    StableHlo.TRef.binary main_call7.v1 main_call7.v0 main_call7.v2 maximumf,
    StableHlo.TRef.unary main_call7.v2 main_call7.v3 (broadcastInDim S100000x1 ![0] bcast_S100000_S100000x1_0),
    StableHlo.TRef.unary main_call7.v3 main_call7.v4 (broadcastInDim S100000x10 ![0, 1] bcast_S100000x1_S100000x10_0_1),
    StableHlo.TRef.binary (.of main_v151 : StableHlo.TRef sig ⟨S100000x10, .f32⟩) main_call7.v4 main_call7.v5 subf,
    StableHlo.TRef.unary main_call7.v5 main_call7.v6 Host.exp,
    StableHlo.TRef.nullary main_call7.cst_1 (constant S_ .f32 0x00000000#32),
    StableHlo.TRef.binary main_call7.v6 main_call7.cst_1 main_call7.v7 (fun x v => Host.reduceAdd x v reducesTo_S100000x10_S100000_d1 h_S_),
    StableHlo.TRef.unary main_call7.v7 main_call7.v8 (broadcastInDim S100000x1 ![0] bcast_S100000_S100000x1_0),
    StableHlo.TRef.unary main_call7.v8 main_call7.v9 Host.log,
    StableHlo.TRef.unary main_call7.v9 main_call7.v10 (broadcastInDim S100000x10 ![0, 1] bcast_S100000x1_S100000x10_0_1),
    StableHlo.TRef.binary main_call7.v5 main_call7.v10 main_call7.v11 subf ]

/-- The buffers stage 8 writes. -/
abbrev c8_W : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v152]
theorem c8_writes : (c8 : List (HloOp τ sig (Elt F))).Forall fun op => op.writes ⊆ (c8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The contents after the first 8 stages. -/
def val8 (V0 : Valuation τ sig (Elt F)) : Valuation τ sig (Elt F) := after c8 (val7 V0)
/-- A buffer stage 8 does not write keeps its contents through it. -/
theorem val8_keep (V0 : Valuation τ sig (Elt F)) (r : Ref sig .tc) (h : r ∉ c8_W) :
    val8 V0 (Proc.devRef .tc r) = val7 V0 (Proc.devRef .tc r) :=
  after_of_writes_sub c8 _ c8_writes h

theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_v151 (V0 : Valuation τ sig (Elt F)) : val8 V0 (no_index (Proc.devRef .tc main_v151)) = Cert.Spec.out (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val8_keep V0 main_v151 (by decide)).trans (val7_main_v151 V0)

end Cert.ReferenceIdeal.RefRead

end
-- ==== Proof.RefRead.lean ====
/-
  The reference's fold, read. The 263 operations are cut at the six values that end a stage — the linear part and
  the normalised, rectified output of each of the three layers — and at the rectified logits into eight consecutive lists (the stage modules);
  the fold over the whole line is the contents after the eighth, so the rectified logits are `Cert.Spec.out` of the fourteen arguments' contents
  and the arguments themselves are unchanged (the log-probabilities are read in a module of their own).
-/
import proofs.«131058_j47364899340882_1_alg».proof.Proof.RefRun
import proofs.«131058_j47364899340882_1_alg».proof.Proof.RefRead.S8

noncomputable section

namespace Cert.ReferenceIdeal.RefRead

open Cert.ReferenceIdeal.RefRun
open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line is the eight stages in order. -/
theorem ops_cut : (ops : List (HloOp τ sig (Elt F))) = c1 ++ (c2 ++ (c3 ++ (c4 ++ (c5 ++ (c6 ++ (c7 ++ c8)))))) := rfl

/-- The fold over the whole line is the contents after the eighth stage. -/
theorem after_ops (V0 : Valuation τ sig (Elt F)) : after ops V0 = val8 V0 := by
  rw [ops_cut]
  simp only [after_app]
  rfl

/-- The second result: the rectified logits. -/
theorem out_eq (V0 : Valuation τ sig (Elt F)) : after ops V0 (main_v151 : DevRef τ sig) = Cert.Spec.out (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  rw [after_ops]; exact val8_main_v151 V0

/-- Argument 0 is unchanged. -/
theorem arg0_eq (V0 : Valuation τ sig (Elt F)) : after ops V0 (main_arg0 : DevRef τ sig) = V0 (main_arg0 : DevRef τ sig) := by
  rw [after_ops]; exact val8_main_arg0 V0

/-- Argument 1 is unchanged. -/
theorem arg1_eq (V0 : Valuation τ sig (Elt F)) : after ops V0 (main_arg1 : DevRef τ sig) = V0 (main_arg1 : DevRef τ sig) := by
  rw [after_ops]; exact val8_main_arg1 V0

/-- Argument 2 is unchanged. -/
theorem arg2_eq (V0 : Valuation τ sig (Elt F)) : after ops V0 (main_arg2 : DevRef τ sig) = V0 (main_arg2 : DevRef τ sig) := by
  rw [after_ops]; exact val8_main_arg2 V0

/-- Argument 3 is unchanged. -/
theorem arg3_eq (V0 : Valuation τ sig (Elt F)) : after ops V0 (main_arg3 : DevRef τ sig) = V0 (main_arg3 : DevRef τ sig) := by
  rw [after_ops]; exact val8_main_arg3 V0

/-- Argument 4 is unchanged. -/
theorem arg4_eq (V0 : Valuation τ sig (Elt F)) : after ops V0 (main_arg4 : DevRef τ sig) = V0 (main_arg4 : DevRef τ sig) := by
  rw [after_ops]; exact val8_main_arg4 V0

/-- Argument 5 is unchanged. -/
theorem arg5_eq (V0 : Valuation τ sig (Elt F)) : after ops V0 (main_arg5 : DevRef τ sig) = V0 (main_arg5 : DevRef τ sig) := by
  rw [after_ops]; exact val8_main_arg5 V0

/-- Argument 6 is unchanged. -/
theorem arg6_eq (V0 : Valuation τ sig (Elt F)) : after ops V0 (main_arg6 : DevRef τ sig) = V0 (main_arg6 : DevRef τ sig) := by
  rw [after_ops]; exact val8_main_arg6 V0

/-- Argument 7 is unchanged. -/
theorem arg7_eq (V0 : Valuation τ sig (Elt F)) : after ops V0 (main_arg7 : DevRef τ sig) = V0 (main_arg7 : DevRef τ sig) := by
  rw [after_ops]; exact val8_main_arg7 V0

/-- Argument 8 is unchanged. -/
theorem arg8_eq (V0 : Valuation τ sig (Elt F)) : after ops V0 (main_arg8 : DevRef τ sig) = V0 (main_arg8 : DevRef τ sig) := by
  rw [after_ops]; exact val8_main_arg8 V0

/-- Argument 9 is unchanged. -/
theorem arg9_eq (V0 : Valuation τ sig (Elt F)) : after ops V0 (main_arg9 : DevRef τ sig) = V0 (main_arg9 : DevRef τ sig) := by
  rw [after_ops]; exact val8_main_arg9 V0

/-- Argument 10 is unchanged. -/
theorem arg10_eq (V0 : Valuation τ sig (Elt F)) : after ops V0 (main_arg10 : DevRef τ sig) = V0 (main_arg10 : DevRef τ sig) := by
  rw [after_ops]; exact val8_main_arg10 V0

/-- Argument 11 is unchanged. -/
theorem arg11_eq (V0 : Valuation τ sig (Elt F)) : after ops V0 (main_arg11 : DevRef τ sig) = V0 (main_arg11 : DevRef τ sig) := by
  rw [after_ops]; exact val8_main_arg11 V0

/-- Argument 12 is unchanged. -/
theorem arg12_eq (V0 : Valuation τ sig (Elt F)) : after ops V0 (main_arg12 : DevRef τ sig) = V0 (main_arg12 : DevRef τ sig) := by
  rw [after_ops]; exact val8_main_arg12 V0

/-- Argument 13 is unchanged. -/
theorem arg13_eq (V0 : Valuation τ sig (Elt F)) : after ops V0 (main_arg13 : DevRef τ sig) = V0 (main_arg13 : DevRef τ sig) := by
  rw [after_ops]; exact val8_main_arg13 V0

end Cert.ReferenceIdeal.RefRead

end
-- ==== Proof.RefReadLogp.lean ====
/-
  The reference's first result. The last fifteen operations of the straight line — the row-wise log-softmax — are
  written a second time over the buffers themselves; each is the same operation as the one the line lists (whatever
  function it applies), so the fold over them is the fold over the line's, and it reads as the specification's
  log-softmax of whatever the rectified-logits buffer holds. With the previous stage's reading of that buffer, the first
  result is the specification's log-probabilities of the fourteen arguments' contents.
-/
import proofs.«131058_j47364899340882_1_alg».proof.Proof.RefRead

set_option Elab.async false

noncomputable section

namespace Cert.ReferenceIdeal.RefReadLogp

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefRead

variable {F : FTy → Type} [FloatOps F]

/-- A float array of shape `S`. -/
abbrev A (F : FTy → Type) [FloatOps F] (S : Shape) : Type := (⟨S, .f32⟩ : BufTy).Contents (Elt F)

/-- The log-softmax's fifteen operations over the buffers themselves. -/
abbrev c8p : List (HloOp τ sig (Elt F)) :=
  [ StableHlo.nullary main_call7_cst (constant S_ .f32 0xFF800000#32),
    StableHlo.binary main_v151 main_call7_cst main_call7_v0 ((fun x v => Host.reduce FloatOps.maximumf x v reducesTo_S100000x10_S100000_d1 h_S_) : A F S100000x10 → A F S_ → A F S100000),
    StableHlo.nullary main_call7_cst_0 (constant S_ .f32 0xFF800000#32),
    StableHlo.unary main_call7_cst_0 main_call7_v1 (broadcastInDim S100000 ![] bcast_S_S100000 : A F S_ → A F S100000),
    StableHlo.binary main_call7_v1 main_call7_v0 main_call7_v2 (maximumf : A F S100000 → A F S100000 → A F S100000),
    StableHlo.unary main_call7_v2 main_call7_v3 (broadcastInDim S100000x1 ![0] bcast_S100000_S100000x1_0 : A F S100000 → A F S100000x1),
    StableHlo.unary main_call7_v3 main_call7_v4 (broadcastInDim S100000x10 ![0, 1] bcast_S100000x1_S100000x10_0_1 : A F S100000x1 → A F S100000x10),
    StableHlo.binary main_v151 main_call7_v4 main_call7_v5 (subf : A F S100000x10 → A F S100000x10 → A F S100000x10),
    StableHlo.unary main_call7_v5 main_call7_v6 (Host.exp : A F S100000x10 → A F S100000x10),
    StableHlo.nullary main_call7_cst_1 (constant S_ .f32 0x00000000#32),
    StableHlo.binary main_call7_v6 main_call7_cst_1 main_call7_v7 ((fun x v => Host.reduceAdd x v reducesTo_S100000x10_S100000_d1 h_S_) : A F S100000x10 → A F S_ → A F S100000),
    StableHlo.unary main_call7_v7 main_call7_v8 (broadcastInDim S100000x1 ![0] bcast_S100000_S100000x1_0 : A F S100000 → A F S100000x1),
    StableHlo.unary main_call7_v8 main_call7_v9 (Host.log : A F S100000x1 → A F S100000x1),
    StableHlo.unary main_call7_v9 main_call7_v10 (broadcastInDim S100000x10 ![0, 1] bcast_S100000x1_S100000x10_0_1 : A F S100000x1 → A F S100000x10),
    StableHlo.binary main_call7_v5 main_call7_v10 main_v152 (subf : A F S100000x10 → A F S100000x10 → A F S100000x10) ]

/-- The fold over them, at the first result, is the specification's log-softmax of the rectified-logits buffer. -/
theorem c8p_main_v152 (W : Valuation τ sig (Elt F)) :
    after c8p W (no_index (Proc.devRef .tc main_v152)) = Cert.Spec.logSoftmax (F := F) (W (Proc.devRef .tc main_v151)) := by
  simp only [c8p]
  after_results_simp
  unfold Cert.Spec.logSoftmax Cert.Spec.shifted
  rfl

/-! Each listed operation is the operation over the buffers, whatever function (or constant) it carries. -/
section Ops
variable (F)
theorem o0 (v : A F S_) : (StableHlo.TRef.nullary main_call7.cst v : HloOp τ sig (Elt F)) = StableHlo.nullary main_call7_cst v := rfl
theorem o1 (g : A F S100000x10 → A F S_ → A F S100000) :
    (StableHlo.TRef.binary (.of main_v151 : StableHlo.TRef sig ⟨S100000x10, .f32⟩) main_call7.cst main_call7.v0 g : HloOp τ sig (Elt F))
      = StableHlo.binary main_v151 main_call7_cst main_call7_v0 g := rfl
theorem o2 (v : A F S_) : (StableHlo.TRef.nullary main_call7.cst_0 v : HloOp τ sig (Elt F)) = StableHlo.nullary main_call7_cst_0 v := rfl
theorem o3 (g : A F S_ → A F S100000) : (StableHlo.TRef.unary main_call7.cst_0 main_call7.v1 g : HloOp τ sig (Elt F)) = StableHlo.unary main_call7_cst_0 main_call7_v1 g := rfl
theorem o4 (g : A F S100000 → A F S100000 → A F S100000) : (StableHlo.TRef.binary main_call7.v1 main_call7.v0 main_call7.v2 g : HloOp τ sig (Elt F)) = StableHlo.binary main_call7_v1 main_call7_v0 main_call7_v2 g := rfl
theorem o5 (g : A F S100000 → A F S100000x1) : (StableHlo.TRef.unary main_call7.v2 main_call7.v3 g : HloOp τ sig (Elt F)) = StableHlo.unary main_call7_v2 main_call7_v3 g := rfl
theorem o6 (g : A F S100000x1 → A F S100000x10) : (StableHlo.TRef.unary main_call7.v3 main_call7.v4 g : HloOp τ sig (Elt F)) = StableHlo.unary main_call7_v3 main_call7_v4 g := rfl
theorem o7 (g : A F S100000x10 → A F S100000x10 → A F S100000x10) :
    (StableHlo.TRef.binary (.of main_v151 : StableHlo.TRef sig ⟨S100000x10, .f32⟩) main_call7.v4 main_call7.v5 g : HloOp τ sig (Elt F)) = StableHlo.binary main_v151 main_call7_v4 main_call7_v5 g := rfl
theorem o8 (g : A F S100000x10 → A F S100000x10) : (StableHlo.TRef.unary main_call7.v5 main_call7.v6 g : HloOp τ sig (Elt F)) = StableHlo.unary main_call7_v5 main_call7_v6 g := rfl
theorem o9 (v : A F S_) : (StableHlo.TRef.nullary main_call7.cst_1 v : HloOp τ sig (Elt F)) = StableHlo.nullary main_call7_cst_1 v := rfl
theorem o10 (g : A F S100000x10 → A F S_ → A F S100000) : (StableHlo.TRef.binary main_call7.v6 main_call7.cst_1 main_call7.v7 g : HloOp τ sig (Elt F)) = StableHlo.binary main_call7_v6 main_call7_cst_1 main_call7_v7 g := rfl
theorem o11 (g : A F S100000 → A F S100000x1) : (StableHlo.TRef.unary main_call7.v7 main_call7.v8 g : HloOp τ sig (Elt F)) = StableHlo.unary main_call7_v7 main_call7_v8 g := rfl
theorem o12 (g : A F S100000x1 → A F S100000x1) : (StableHlo.TRef.unary main_call7.v8 main_call7.v9 g : HloOp τ sig (Elt F)) = StableHlo.unary main_call7_v8 main_call7_v9 g := rfl
theorem o13 (g : A F S100000x1 → A F S100000x10) : (StableHlo.TRef.unary main_call7.v9 main_call7.v10 g : HloOp τ sig (Elt F)) = StableHlo.unary main_call7_v9 main_call7_v10 g := rfl
theorem o14 (g : A F S100000x10 → A F S100000x10 → A F S100000x10) : (StableHlo.TRef.binary main_call7.v5 main_call7.v10 main_call7.v11 g : HloOp τ sig (Elt F)) = StableHlo.binary main_call7_v5 main_call7_v10 main_v152 g := rfl
end Ops

/-- So the line's last stage is that list. -/
theorem c8_eq : (c8 : List (HloOp τ sig (Elt F))) = c8p := by
  show [_, _, _, _, _, _, _, _, _, _, _, _, _, _, _] = _
  rw [o0 F, o1 F, o2 F, o3 F, o4 F, o5 F, o6 F, o7 F, o8 F, o9 F, o10 F, o11 F, o12 F, o13 F, o14 F]

/-- The contents after the last stage, at the first result. -/
theorem val8_main_v152 (V0 : Valuation τ sig (Elt F)) :
    val8 V0 (Proc.devRef .tc main_v152)
      = Cert.Spec.logSoftmax (F := F) (val7 V0 (Proc.devRef .tc main_v151)) := by
  show after c8 (val7 V0) (Proc.devRef .tc main_v152) = _
  rw [c8_eq]
  exact c8p_main_v152 (val7 V0)

/-- The first result: the log-probabilities, as the specification's function of the fourteen arguments' contents. -/
theorem logp_eq (V0 : Valuation τ sig (Elt F)) : after ops V0 (main_v152 : DevRef τ sig) = Cert.Spec.logp (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  rw [after_ops]
  refine (val8_main_v152 V0).trans ?_
  unfold Cert.Spec.logp
  exact congrArg (Cert.Spec.logSoftmax (F := F)) (val7_main_v151 V0)

end Cert.ReferenceIdeal.RefReadLogp

end
-- ==== Proof.RefValue.lean ====
/-
  The reference's run with its two results named: from any memory, every weakly fair execution of the host program
  terminates with the log-probabilities and the rectified logits at the specification's functions of the fourteen
  argument arrays, and the arguments as they were.
-/
import proofs.«131058_j47364899340882_1_alg».proof.Proof.RefRead
import proofs.«131058_j47364899340882_1_alg».proof.Proof.RefReadLogp
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference's run, read at its results and its arguments. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread Cert.ReferenceIdeal.nD Cert.ReferenceIdeal.τ).loc Cert.ReferenceIdeal.main_v152) = Cert.Spec.logp (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v151) = Cert.Spec.out (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run (defs (F := Ideal)) _ _).mono (fun r h c =>
    ⟨(h c main_v152).trans (Cert.ReferenceIdeal.RefReadLogp.logp_eq _),
     (h c main_v151).trans (Cert.ReferenceIdeal.RefRead.out_eq _),
     (h c main_arg0).trans (Cert.ReferenceIdeal.RefRead.arg0_eq _),
     (h c main_arg1).trans (Cert.ReferenceIdeal.RefRead.arg1_eq _),
     (h c main_arg2).trans (Cert.ReferenceIdeal.RefRead.arg2_eq _),
     (h c main_arg3).trans (Cert.ReferenceIdeal.RefRead.arg3_eq _),
     (h c main_arg4).trans (Cert.ReferenceIdeal.RefRead.arg4_eq _),
     (h c main_arg5).trans (Cert.ReferenceIdeal.RefRead.arg5_eq _),
     (h c main_arg6).trans (Cert.ReferenceIdeal.RefRead.arg6_eq _),
     (h c main_arg7).trans (Cert.ReferenceIdeal.RefRead.arg7_eq _),
     (h c main_arg8).trans (Cert.ReferenceIdeal.RefRead.arg8_eq _),
     (h c main_arg9).trans (Cert.ReferenceIdeal.RefRead.arg9_eq _),
     (h c main_arg10).trans (Cert.ReferenceIdeal.RefRead.arg10_eq _),
     (h c main_arg11).trans (Cert.ReferenceIdeal.RefRead.arg11_eq _),
     (h c main_arg12).trans (Cert.ReferenceIdeal.RefRead.arg12_eq _),
     (h c main_arg13).trans (Cert.ReferenceIdeal.RefRead.arg13_eq _)⟩)
    (Cert.ReferenceIdeal.RefRun.run_main (F := Ideal) m ρ)

end Cert.ReferenceIdeal.RefValue

end
-- ==== Proof.lean ====
/-
  The kernel — three graph-convolution layers and a read-out, each dense part one pipelined region over blocks of
  5000 nodes, the aggregation and the statistics on the host — against its plain reference, at the exact
  extended-real instance. Both programs end with their two results at ONE pair of functions of the fourteen argument
  arrays (the specification's log-probabilities and rectified logits): the kernel's regions are read block by block
  as whole-array functions — two textbook matrix products and a bias; a per-channel affine map under a rectifier; the
  rectified logits and the log-softmax of each row of ten — and joined through the host stretches, which apply the
  same operations in both programs; the reference's straight line is read as the same functions. No algebraic law of
  the extended reals beyond zero being neutral for addition and minus infinity for the maximum is used, so the
  finiteness of the inputs is never opened. The three frames are the two generated frame certificates and the
  reference's run with its results dropped; the kernel's idealization rewrote nothing.
-/
import proofs.«131058_j47364899340882_1_alg».proof.Defs
import proofs.«131058_j47364899340882_1_alg».proof.Proof.Gen.Kernel
import proofs.«131058_j47364899340882_1_alg».proof.Proof.Gen.Kernel.Frame
import proofs.«131058_j47364899340882_1_alg».proof.Proof.Gen.KernelIdeal
import proofs.«131058_j47364899340882_1_alg».proof.Proof.Gen.KernelIdeal.Frame
import proofs.«131058_j47364899340882_1_alg».proof.Proof.Gen.ReferenceIdeal
import proofs.«131058_j47364899340882_1_alg».proof.Proof.Gen.Pre_finite_inputs
import proofs.«131058_j47364899340882_1_alg».proof.Proof.KerValue
import proofs.«131058_j47364899340882_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the two results dropped. -/
theorem frame_ri : Cert.frame_ReferenceIdeal := fun m ρ _ =>
  (θ_run (Cert.ReferenceIdeal.defs (F := Ideal)) _ _).mono (fun _ h c => (h c).2.2) (Cert.ReferenceIdeal.RefValue.run_spec m ρ)

/-- Nothing was rewritten by the idealization. -/
theorem preserves : Cert.preserves_Kernel_KernelIdeal := trivial

/-- Both programs end at the specification's two functions of arguments that agree. -/
theorem algebraic : Cert.algebraic_KernelIdeal_ReferenceIdeal := by
  intro m ρ m' ρ' _ hagree
  refine ⟨fun c => Cert.Spec.logp (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.KerValue.run_spec m ρ, ?_⟩
  refine (θ_run (Cert.ReferenceIdeal.defs (F := Ideal)) _ _).mono (fun r h c => ?_) (Cert.ReferenceIdeal.RefValue.run_spec m' ρ')
  obtain ⟨e0, e1, e2, e3, e4, e5, e6, e7, e8, e9, e10, e11, e12, e13⟩ := hagree c
  refine ⟨(h c).1.trans ?_, (h c).2.1.trans ?_, (h c).2.2⟩
  · rw [e0, e1, e2, e3, e4, e5, e6, e7, e8, e9, e10, e11, e12, e13]
  · rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
